-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x32 : Shape := ⟨2, ![400000, 32]⟩
abbrev S288x256 : Shape := ⟨2, ![288, 256]⟩
abbrev S256 : Shape := ⟨1, ![256]⟩
abbrev S384x256 : Shape := ⟨2, ![384, 256]⟩
abbrev S2x544x256 : Shape := ⟨3, ![2, 544, 256]⟩
abbrev S2x256 : Shape := ⟨2, ![2, 256]⟩
abbrev S2x512x256 : Shape := ⟨3, ![2, 512, 256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S384x256 : S_.BroadcastsInDim S384x256 (![] : Fin 0 → Fin S384x256.rank)
  reducesTo_S384x256_S_d0_1 : S384x256.ReducesTo [0, 1] S_
  bcast_S_S2x544x256 : S_.BroadcastsInDim S2x544x256 (![] : Fin 0 → Fin S2x544x256.rank)
  reducesTo_S2x544x256_S_d0_1_2 : S2x544x256.ReducesTo [0, 1, 2] S_
  bcast_S_S2x256 : S_.BroadcastsInDim S2x256 (![] : Fin 0 → Fin S2x256.rank)
  reducesTo_S2x256_S_d0_1 : S2x256.ReducesTo [0, 1] S_
  bcast_S_S2x512x256 : S_.BroadcastsInDim S2x512x256 (![] : Fin 0 → Fin S2x512x256.rank)
  reducesTo_S2x512x256_S_d0_1_2 : S2x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x1 .f32) (main_arg14 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg13
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S2x256 .f32) (main_arg9 : FVec F S2x512x256 .f32) (main_arg10 : FVec F S2x256 .f32) (main_arg11 : FVec F S256x256 .f32) (main_arg12 : FVec F S256 .f32) (main_arg13 : FVec F S256x1 .f32) (main_arg14 : FVec F S1 .f32) (main_v33 : IVec S_ 1) : IVec S_ 1 :=
  let main_v34 : FVec F S2x256 .f32 := Host.absf main_arg8
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x512x256 .f32 := Host.absf main_arg9
  let main_cst_14 : FVec F S_ .f32 := constant S_ .f32 0x7F800000#32
  let main_v40 : FVec F S2x512x256 .f32 := broadcastInDim S2x512x256 ![] bcast_S_S2x512x256 main_cst_14
  let main_v41 : IVec S2x512x256 1 := cmpf .olt main_v39 main_v40
  let main_c_15 : IVec S_ 1 := constantI S_ 1 1#1
  let main_v42 : IVec S_ 1 := (fun x v => Host.reduce IntOp.andi x v reducesTo_S2x512x256_S_d0_1_2 h_S_) main_v41 main_c_15
  let main_v43 : IVec S_ 1 := andi main_v38 main_v42
  let main_v44 : FVec F S2x256 .f32 := Host.absf main_arg10
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_v48 main_v49 main_v50

def fn_part1 {F : FTy → Type} [FloatOps F] (main_arg5 : FVec F S384x256 .f32) (main_arg6 : FVec F S256 .f32) (main_arg7 : FVec F S2x544x256 .f32) (main_arg8 : FVec F S2x256 .f32) (main_arg9 : FVec F S2x512x256 .f32) (main_arg10 : FVec F S2x256 .f32) (main_arg11 : FVec F S256x256 .f32) (main_arg12 : FVec F S256 .f32) (main_arg13 : FVec F S256x1 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x544x256 .f32 := Host.absf main_arg7
  let main_cst_10 : FVec F S_ .f32 := constant S_ .f32 0x7F800000#32
  let main_v30 : FVec F S2x544x256 .f32 := broadcastInDim S2x544x256 ![] bcast_S_S2x544x256 main_cst_10
  let main_v31 : IVec S2x544x256 1 := cmpf .olt main_v29 main_v30
  let main_c_11 : IVec S_ 1 := constantI S_ 1 1#1
  let main_v32 : IVec S_ 1 := (fun x v => Host.reduce IntOp.andi x v reducesTo_S2x544x256_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x400000 32) (main_arg2 : FVec F S400000x32 .f32) (main_arg3 : FVec F S288x256 .f32) (main_arg4 : FVec F S256 .f32) (main_arg5 : FVec F S384x256 .f32) (main_arg6 : FVec F S256 .f32) (main_arg7 : FVec F S2x544x256 .f32) (main_arg8 : FVec F S2x256 .f32) (main_arg9 : FVec F S2x512x256 .f32) (main_arg10 : FVec F S2x256 .f32) (main_arg11 : FVec F S256x256 .f32) (main_arg12 : FVec F S256 .f32) (main_arg13 : FVec F S256x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x32 .f32 := Host.absf main_arg2
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S288x256 .f32 := Host.absf main_arg3
  let main_cst_2 : FVec F S_ .f32 := constant S_ .f32 0x7F800000#32
  let main_v10 : FVec F S288x256 .f32 := broadcastInDim S288x256 ![] bcast_S_S288x256 main_cst_2
  let main_v11 : IVec S288x256 1 := cmpf .olt main_v9 main_v10
  let main_c_3 : IVec S_ 1 := constantI S_ 1 1#1
  let main_v12 : IVec S_ 1 := (fun x v => Host.reduce IntOp.andi x v reducesTo_S288x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x400000 : Shape := ⟨2, ![2, 400000]⟩
abbrev S400000x32 : Shape := ⟨2, ![400000, 32]⟩
abbrev S288x256 : Shape := ⟨2, ![288, 256]⟩
abbrev S256 : Shape := ⟨1, ![256]⟩
abbrev S384x256 : Shape := ⟨2, ![384, 256]⟩
abbrev S2x544x256 : Shape := ⟨3, ![2, 544, 256]⟩
abbrev S2x256 : Shape := ⟨2, ![2, 256]⟩
abbrev S2x512x256 : Shape := ⟨3, ![2, 512, 256]⟩
abbrev S256x256 : Shape := ⟨2, ![256, 256]⟩
abbrev S256x1 : Shape := ⟨2, ![256, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S128x256 : Shape := ⟨2, ![128, 256]⟩
abbrev S32x256 : Shape := ⟨2, ![32, 256]⟩
abbrev S1x256 : Shape := ⟨2, ![1, 256]⟩
abbrev S400000x256 : Shape := ⟨2, ![400000, 256]⟩
abbrev S4000x128 : Shape := ⟨2, ![4000, 128]⟩
abbrev S4000x32 : Shape := ⟨2, ![4000, 32]⟩
abbrev S4000x256 : Shape := ⟨2, ![4000, 256]⟩
abbrev S50000x256 : Shape := ⟨2, ![50000, 256]⟩
abbrev S50000x1 : Shape := ⟨2, ![50000, 1]⟩
abbrev S5000x128 : Shape := ⟨2, ![5000, 128]⟩
abbrev S5000x256 : Shape := ⟨2, ![5000, 256]⟩
abbrev S1x544x256 : Shape := ⟨3, ![1, 544, 256]⟩
abbrev S544x256 : Shape := ⟨2, ![544, 256]⟩
abbrev S1x512x256 : Shape := ⟨3, ![1, 512, 256]⟩
abbrev S512x256 : Shape := ⟨2, ![512, 256]⟩
abbrev S1x1 : Shape := ⟨2, ![1, 1]⟩
abbrev S5000x1 : Shape := ⟨2, ![5000, 1]⟩

abbrev nBuf : Space → Nat
  | .hbm => 156
  | .vmem => 67
  | .smem => 0
  | _ => 0

abbrev hbmTy0_0 (i : Nat) : BufTy := match i % 128 with
  | 0 => ⟨S50000x128, .f32⟩
  | 1 => ⟨S2x400000, .i32⟩
  | 2 => ⟨S400000x32, .f32⟩
  | 3 => ⟨S288x256, .f32⟩
  | 4 => ⟨S256, .f32⟩
  | 5 => ⟨S384x256, .f32⟩
  | 6 => ⟨S256, .f32⟩
  | 7 => ⟨S2x544x256, .f32⟩
  | 8 => ⟨S2x256, .f32⟩
  | 9 => ⟨S2x512x256, .f32⟩
  | 10 => ⟨S2x256, .f32⟩
  | 11 => ⟨S256x256, .f32⟩
  | 12 => ⟨S256, .f32⟩
  | 13 => ⟨S256x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S_, .f32⟩
  | 20 => ⟨S400000, .f32⟩
  | 21 => ⟨S_, .f32⟩
  | 22 => ⟨S50000, .f32⟩
  | 23 => ⟨S400000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S400000x32, .bf16⟩
  | 32 => ⟨S50000x128, .bf16⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .bf16⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .bf16⟩
  | 51 => ⟨S128x256, .f32⟩
  | 52 => ⟨S128x256, .f32⟩
  | 53 => ⟨S32x256, .f32⟩
  | 54 => ⟨S1x256, .f32⟩
  | 55 => ⟨S400000x256, .f32⟩
  | 56 => ⟨S_, .f32⟩
  | 57 => ⟨S50000x256, .f32⟩
  | 58 => ⟨S400000x1, .i32⟩
  | 59 => ⟨S50000x256, .f32⟩
  | 60 => ⟨S50000x1, .f32⟩
  | 61 => ⟨S50000x256, .f32⟩
  | 62 => ⟨S50000x256, .f32⟩
  | 63 => ⟨S50000x256, .bf16⟩
  | 64 => ⟨S128x256, .f32⟩
  | 65 => ⟨S256x256, .f32⟩
  | 66 => ⟨S1x256, .f32⟩
  | 67 => ⟨S50000x256, .bf16⟩
  | 68 => ⟨S1x544x256, .f32⟩
  | 69 => ⟨S544x256, .f32⟩
  | 70 => ⟨S1x256, .f32⟩
  | 71 => ⟨S256, .f32⟩
  | 72 => ⟨S1x512x256, .f32⟩
  | 73 => ⟨S512x256, .f32⟩
  | 74 => ⟨S1x256, .f32⟩
  | 75 => ⟨S256, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x256, .bf16⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x256, .bf16⟩
  | 94 => ⟨S256x256, .f32⟩
  | 95 => ⟨S256x256, .f32⟩
  | 96 => ⟨S32x256, .f32⟩
  | 97 => ⟨S1x256, .f32⟩
  | 98 => ⟨S400000x256, .f32⟩
  | 99 => ⟨S_, .f32⟩
  | 100 => ⟨S50000x256, .f32⟩
  | 101 => ⟨S400000x1, .i32⟩
  | 102 => ⟨S50000x256, .f32⟩
  | 103 => ⟨S50000x1, .f32⟩
  | 104 => ⟨S50000x256, .f32⟩
  | 105 => ⟨S50000x256, .f32⟩
  | 106 => ⟨S50000x256, .bf16⟩
  | 107 => ⟨S256x256, .f32⟩
  | 108 => ⟨S256x256, .f32⟩
  | 109 => ⟨S1x256, .f32⟩
  | 110 => ⟨S50000x256, .bf16⟩
  | 111 => ⟨S1x544x256, .f32⟩
  | 112 => ⟨S544x256, .f32⟩
  | 113 => ⟨S1x256, .f32⟩
  | 114 => ⟨S256, .f32⟩
  | 115 => ⟨S1x512x256, .f32⟩
  | 116 => ⟨S512x256, .f32⟩
  | 117 => ⟨S1x256, .f32⟩
  | 118 => ⟨S256, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000x256, .bf16⟩
  | _ => ⟨S50000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x256, .bf16⟩
  | 9 => ⟨S256x256, .f32⟩
  | 10 => ⟨S256x256, .f32⟩
  | 11 => ⟨S32x256, .f32⟩
  | 12 => ⟨S1x256, .f32⟩
  | 13 => ⟨S400000x256, .f32⟩
  | 14 => ⟨S_, .f32⟩
  | 15 => ⟨S50000x256, .f32⟩
  | 16 => ⟨S400000x1, .i32⟩
  | 17 => ⟨S50000x256, .f32⟩
  | 18 => ⟨S50000x1, .f32⟩
  | 19 => ⟨S50000x256, .f32⟩
  | 20 => ⟨S50000x256, .f32⟩
  | 21 => ⟨S50000x256, .bf16⟩
  | 22 => ⟨S256x256, .f32⟩
  | 23 => ⟨S256x256, .f32⟩
  | 24 => ⟨S1x256, .f32⟩
  | 25 => ⟨S1x256, .f32⟩
  | 26 => ⟨S1x1, .f32⟩
  | 27 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x32, .bf16⟩
  | .local _ .vmem, ⟨5, _⟩ => ⟨S4000x32, .bf16⟩
  | .local _ .vmem, ⟨6, _⟩ => ⟨S128x256, .f32⟩
  | .local _ .vmem, ⟨7, _⟩ => ⟨S128x256, .f32⟩
  | .local _ .vmem, ⟨8, _⟩ => ⟨S32x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S5000x128, .bf16⟩
  | .local _ .vmem, ⟨13, _⟩ => ⟨S5000x128, .bf16⟩
  | .local _ .vmem, ⟨14, _⟩ => ⟨S5000x256, .bf16⟩
  | .local _ .vmem, ⟨15, _⟩ => ⟨S5000x256, .bf16⟩
  | .local _ .vmem, ⟨16, _⟩ => ⟨S128x256, .f32⟩
  | .local _ .vmem, ⟨17, _⟩ => ⟨S256x256, .f32⟩
  | .local _ .vmem, ⟨18, _⟩ => ⟨S1x256, .f32⟩
  | .local _ .vmem, ⟨19, _⟩ => ⟨S5000x256, .bf16⟩
  | .local _ .vmem, ⟨20, _⟩ => ⟨S5000x256, .bf16⟩
  | .local _ .vmem, ⟨21, _⟩ => ⟨S4000x256, .bf16⟩
  | .local _ .vmem, ⟨22, _⟩ => ⟨S4000x256, .bf16⟩
  | .local _ .vmem, ⟨23, _⟩ => ⟨S4000x256, .bf16⟩
  | .local _ .vmem, ⟨24, _⟩ => ⟨S4000x256, .bf16⟩
  | .local _ .vmem, ⟨25, _⟩ => ⟨S4000x32, .bf16⟩
  | .local _ .vmem, ⟨26, _⟩ => ⟨S4000x32, .bf16⟩
  | .local _ .vmem, ⟨27, _⟩ => ⟨S256x256, .f32⟩
  | .local _ .vmem, ⟨28, _⟩ => ⟨S256x256, .f32⟩
  | .local _ .vmem, ⟨29, _⟩ => ⟨S32x256, .f32⟩
  | .local _ .vmem, ⟨30, _⟩ => ⟨S1x256, .f32⟩
  | .local _ .vmem, ⟨31, _⟩ => ⟨S4000x256, .f32⟩
  | .local _ .vmem, ⟨32, _⟩ => ⟨S4000x256, .f32⟩
  | .local _ .vmem, ⟨33, _⟩ => ⟨S5000x256, .bf16⟩
  | .local _ .vmem, ⟨34, _⟩ => ⟨S5000x256, .bf16⟩
  | .local _ .vmem, ⟨35, _⟩ => ⟨S5000x256, .bf16⟩
  | .local _ .vmem, ⟨36, _⟩ => ⟨S5000x256, .bf16⟩
  | .local _ .vmem, ⟨37, _⟩ => ⟨S256x256, .f32⟩
  | .local _ .vmem, ⟨38, _⟩ => ⟨S256x256, .f32⟩
  | .local _ .vmem, ⟨39, _⟩ => ⟨S1x256, .f32⟩
  | .local _ .vmem, ⟨40, _⟩ => ⟨S5000x256, .bf16⟩
  | .local _ .vmem, ⟨41, _⟩ => ⟨S5000x256, .bf16⟩
  | .local _ .vmem, ⟨42, _⟩ => ⟨S4000x256, .bf16⟩
  | .local _ .vmem, ⟨43, _⟩ => ⟨S4000x256, .bf16⟩
  | .local _ .vmem, ⟨44, _⟩ => ⟨S4000x256, .bf16⟩
  | .local _ .vmem, ⟨45, _⟩ => ⟨S4000x256, .bf16⟩
  | .local _ .vmem, ⟨46, _⟩ => ⟨S4000x32, .bf16⟩
  | .local _ .vmem, ⟨47, _⟩ => ⟨S4000x32, .bf16⟩
  | .local _ .vmem, ⟨48, _⟩ => ⟨S256x256, .f32⟩
  | .local _ .vmem, ⟨49, _⟩ => ⟨S256x256, .f32⟩
  | .local _ .vmem, ⟨50, _⟩ => ⟨S32x256, .f32⟩
  | .local _ .vmem, ⟨51, _⟩ => ⟨S1x256, .f32⟩
  | .local _ .vmem, ⟨52, _⟩ => ⟨S4000x256, .f32⟩
  | .local _ .vmem, ⟨53, _⟩ => ⟨S4000x256, .f32⟩
  | .local _ .vmem, ⟨54, _⟩ => ⟨S5000x256, .bf16⟩
  | .local _ .vmem, ⟨55, _⟩ => ⟨S5000x256, .bf16⟩
  | .local _ .vmem, ⟨56, _⟩ => ⟨S5000x256, .bf16⟩
  | .local _ .vmem, ⟨57, _⟩ => ⟨S5000x256, .bf16⟩
  | .local _ .vmem, ⟨58, _⟩ => ⟨S256x256, .f32⟩
  | .local _ .vmem, ⟨59, _⟩ => ⟨S256x256, .f32⟩
  | .local _ .vmem, ⟨60, _⟩ => ⟨S1x256, .f32⟩
  | .local _ .vmem, ⟨61, _⟩ => ⟨S256x256, .f32⟩
  | .local _ .vmem, ⟨62, _⟩ => ⟨S1x256, .f32⟩
  | .local _ .vmem, ⟨63, _⟩ => ⟨S256x1, .f32⟩
  | .local _ .vmem, ⟨64, _⟩ => ⟨S1x1, .f32⟩
  | .local _ .vmem, ⟨65, _⟩ => ⟨S5000x1, .f32⟩
  | .local _ .vmem, ⟨66, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_9 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_12 : Ref sig .tc := ⟨.hbm, 119, rfl⟩
abbrev main_v90 : Ref sig .tc := ⟨.hbm, 120, rfl⟩
abbrev main_v91 : Ref sig .tc := ⟨.hbm, 121, rfl⟩
abbrev main_c_13 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_14 : Ref sig .tc := ⟨.hbm, 128, rfl⟩
abbrev main_v97 : Ref sig .tc := ⟨.hbm, 129, rfl⟩
abbrev main_v98 : Ref sig .tc := ⟨.hbm, 130, rfl⟩
abbrev main_c_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_16 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg8_0 : Ref sig .tc := ⟨.vmem, 64, rfl⟩
abbrev cc5_stg9_0 : Ref sig .tc := ⟨.vmem, 65, rfl⟩
abbrev cc5_stg9_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem7_0 : DmaSem sig := 63
abbrev cc5_sem8_0 : DmaSem sig := 64
abbrev cc5_sem9_0 : DmaSem sig := 65
abbrev cc5_sem9_1 : DmaSem sig := 66

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x32 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x1 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bitsLt_bf16_f32 : FTy.bits .bf16 < FTy.bits .f32
  slices_S288x256_S128x256_0_0 : S288x256.Slices ![0, 0] S128x256
  slices_S288x256_S128x256_128_0 : S288x256.Slices ![128, 0] S128x256
  slices_S288x256_S32x256_256_0 : S288x256.Slices ![256, 0] S32x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S384x256_S128x256_0_0 : S384x256.Slices ![0, 0] S128x256
  slices_S384x256_S256x256_128_0 : S384x256.Slices ![128, 0] S256x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  slices_S2x544x256_S1x544x256_0_0_0 : S2x544x256.Slices ![0, 0, 0] S1x544x256
  shapeCasts_S1x544x256_S544x256 : S1x544x256.ShapeCasts S544x256
  slices_S2x256_S1x256_0_0 : S2x256.Slices ![0, 0] S1x256
  shapeCasts_S1x256_S256 : S1x256.ShapeCasts S256
  slices_S2x512x256_S1x512x256_0_0_0 : S2x512x256.Slices ![0, 0, 0] S1x512x256
  shapeCasts_S1x512x256_S512x256 : S1x512x256.ShapeCasts S512x256
  slices_S544x256_S256x256_0_0 : S544x256.Slices ![0, 0] S256x256
  slices_S544x256_S256x256_256_0 : S544x256.Slices ![256, 0] S256x256
  slices_S544x256_S32x256_512_0 : S544x256.Slices ![512, 0] S32x256
  shapeCasts_S4000x256_S4000x256 : S4000x256.ShapeCasts S4000x256
  slices_S512x256_S256x256_0_0 : S512x256.Slices ![0, 0] S256x256
  slices_S512x256_S256x256_256_0 : S512x256.Slices ![256, 0] S256x256
  slices_S2x544x256_S1x544x256_1_0_0 : S2x544x256.Slices ![1, 0, 0] S1x544x256
  slices_S2x256_S1x256_1_0 : S2x256.Slices ![1, 0] S1x256
  slices_S2x512x256_S1x512x256_1_0_0 : S2x512x256.Slices ![1, 0, 0] S1x512x256
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  dot_S4000x128_S128x256_S4000x256_1_0_0_1_n_n_wf : DotDims.WF S4000x128 S128x256 S4000x256 [1] [0] [0] [1] [] []
  dot_S4000x32_S32x256_S4000x256_1_0_0_1_n_n_wf : DotDims.WF S4000x32 S32x256 S4000x256 [1] [0] [0] [1] [] []
  scatter_S50000x256_S400000x1_S400000x256_1_0_0_1_wf : ScatterDims.WF S50000x256 S400000x1 S400000x256 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S400000x1_S400000x256_1_0_n_n_0_1_1256_wf : GatherDims.WF S50000x256 S400000x1 S400000x256 [1] [0] [] [0] [] 1 ![1, 256]
  dot_S4000x256_S256x256_S4000x256_1_0_0_1_n_n_wf : DotDims.WF S4000x256 S256x256 S4000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .bf16 = 32 ∨ (Rect.block (s := S400000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S400000x32.size a
  hwx0_2 : ∀ i : grid0.Coords, EltTy.bits .bf16 = 32 ∨ (Rect.block (s := S400000x32) S4000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .f32 = 32 ∨ (Rect.block (s := S32x256) S32x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S400000x256.size a
  hwx0_7 : ∀ i : grid0.Coords, EltTy.bits .f32 = 32 ∨ (Rect.block (s := S400000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .bf16 = 32 ∨ (Rect.block (s := S50000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .bf16 = 32 ∨ (Rect.block (s := S50000x256) S5000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S400000x256.size a
  hwx2_0 : ∀ i : grid2.Coords, EltTy.bits .bf16 = 32 ∨ (Rect.block (s := S400000x256) S4000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S400000x256.size a
  hwx2_1 : ∀ i : grid2.Coords, EltTy.bits .bf16 = 32 ∨ (Rect.block (s := S400000x256) S4000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S400000x32.size a
  hwx2_2 : ∀ i : grid2.Coords, EltTy.bits .bf16 = 32 ∨ (Rect.block (s := S400000x32) S4000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x256.size a ≤ S32x256.size a
  hwx2_5 : ∀ i : grid2.Coords, EltTy.bits .f32 = 32 ∨ (Rect.block (s := S32x256) S32x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x256.size a ≤ S400000x256.size a
  hwx2_7 : ∀ i : grid2.Coords, EltTy.bits .f32 = 32 ∨ (Rect.block (s := S400000x256) S4000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .bf16 = 32 ∨ (Rect.block (s := S50000x256) S5000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .bf16 = 32 ∨ (Rect.block (s := S50000x256) S5000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .bf16 = 32 ∨ (Rect.block (s := S50000x256) S5000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S400000x256.size a
  hwx4_0 : ∀ i : grid4.Coords, EltTy.bits .bf16 = 32 ∨ (Rect.block (s := S400000x256) S4000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S400000x256.size a
  hwx4_1 : ∀ i : grid4.Coords, EltTy.bits .bf16 = 32 ∨ (Rect.block (s := S400000x256) S4000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x32.size a ≤ S400000x32.size a
  hwx4_2 : ∀ i : grid4.Coords, EltTy.bits .bf16 = 32 ∨ (Rect.block (s := S400000x32) S4000x32.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x256.size a ≤ S32x256.size a
  hwx4_5 : ∀ i : grid4.Coords, EltTy.bits .f32 = 32 ∨ (Rect.block (s := S32x256) S32x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x256.size a ≤ S400000x256.size a
  hwx4_7 : ∀ i : grid4.Coords, EltTy.bits .f32 = 32 ∨ (Rect.block (s := S400000x256) S4000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .bf16 = 32 ∨ (Rect.block (s := S50000x256) S5000x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x256.size a ≤ S50000x256.size a
  hwx5_1 : ∀ i : grid5.Coords, EltTy.bits .bf16 = 32 ∨ (Rect.block (s := S50000x256) S5000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x1.size a ≤ S256x1.size a
  hwx5_7 : ∀ i : grid5.Coords, EltTy.bits .f32 = 32 ∨ (Rect.block (s := S256x1) S256x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x1.size a ≤ S50000x1.size a
  hwx5_9 : ∀ i : grid5.Coords, EltTy.bits .f32 = 32 ∨ (Rect.block (s := S50000x1) S5000x1.size (cc5_transform_9 i) (hinb5_9 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v20) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S32x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S4000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v43) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S4000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v104) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S32x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v107) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v108) S4000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v81) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S5000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v116) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v118) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v119) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg13) S256x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v120) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v121) S5000x1.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x32 : Shape := ⟨2, ![400000, 32]⟩
abbrev S288x256 : Shape := ⟨2, ![288, 256]⟩
abbrev S256 : Shape := ⟨1, ![256]⟩
abbrev S384x256 : Shape := ⟨2, ![384, 256]⟩
abbrev S2x544x256 : Shape := ⟨3, ![2, 544, 256]⟩
abbrev S2x256 : Shape := ⟨2, ![2, 256]⟩
abbrev S2x512x256 : Shape := ⟨3, ![2, 512, 256]⟩
abbrev S256x256 : Shape := ⟨2, ![256, 256]⟩
abbrev S256x1 : Shape := ⟨2, ![256, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x288 : Shape := ⟨2, ![400000, 288]⟩
abbrev S400000x256 : Shape := ⟨2, ![400000, 256]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩
abbrev S50000x384 : Shape := ⟨2, ![50000, 384]⟩
abbrev S1x544x256 : Shape := ⟨3, ![1, 544, 256]⟩
abbrev S544x256 : Shape := ⟨2, ![544, 256]⟩
abbrev S1x512x256 : Shape := ⟨3, ![1, 512, 256]⟩
abbrev S512x256 : Shape := ⟨2, ![512, 256]⟩
abbrev S400000x544 : Shape := ⟨2, ![400000, 544]⟩
abbrev S50000x512 : Shape := ⟨2, ![50000, 512]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S2x400000, .i32⟩
  | 2 => ⟨S400000x32, .f32⟩
  | 3 => ⟨S288x256, .f32⟩
  | 4 => ⟨S256, .f32⟩
  | 5 => ⟨S384x256, .f32⟩
  | 6 => ⟨S256, .f32⟩
  | 7 => ⟨S2x544x256, .f32⟩
  | 8 => ⟨S2x256, .f32⟩
  | 9 => ⟨S2x512x256, .f32⟩
  | 10 => ⟨S2x256, .f32⟩
  | 11 => ⟨S256x256, .f32⟩
  | 12 => ⟨S256, .f32⟩
  | 13 => ⟨S256x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S400000x288, .f32⟩
  | 38 => ⟨S400000x256, .f32⟩
  | 39 => ⟨S1x256, .f32⟩
  | 40 => ⟨S400000x256, .f32⟩
  | 41 => ⟨S400000x256, .f32⟩
  | 42 => ⟨S_, .f32⟩
  | 43 => ⟨S400000x256, .f32⟩
  | 44 => ⟨S400000x256, .f32⟩
  | 45 => ⟨S_, .f32⟩
  | 46 => ⟨S50000x256, .f32⟩
  | 47 => ⟨S400000x1, .i32⟩
  | 48 => ⟨S50000x256, .f32⟩
  | 49 => ⟨S_, .f32⟩
  | 50 => ⟨S400000, .f32⟩
  | 51 => ⟨S_, .f32⟩
  | 52 => ⟨S50000, .f32⟩
  | 53 => ⟨S400000x1, .i32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x256, .f32⟩
  | 60 => ⟨S50000x256, .f32⟩
  | 61 => ⟨S50000x384, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S1x544x256, .f32⟩
  | 70 => ⟨S544x256, .f32⟩
  | 71 => ⟨S1x256, .f32⟩
  | 72 => ⟨S256, .f32⟩
  | 73 => ⟨S1x512x256, .f32⟩
  | 74 => ⟨S512x256, .f32⟩
  | 75 => ⟨S1x256, .f32⟩
  | 76 => ⟨S256, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x256, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x256, .f32⟩
  | 95 => ⟨S400000x544, .f32⟩
  | 96 => ⟨S400000x256, .f32⟩
  | 97 => ⟨S1x256, .f32⟩
  | 98 => ⟨S400000x256, .f32⟩
  | 99 => ⟨S400000x256, .f32⟩
  | 100 => ⟨S_, .f32⟩
  | 101 => ⟨S400000x256, .f32⟩
  | 102 => ⟨S400000x256, .f32⟩
  | 103 => ⟨S_, .f32⟩
  | 104 => ⟨S50000x256, .f32⟩
  | 105 => ⟨S400000x1, .i32⟩
  | 106 => ⟨S50000x256, .f32⟩
  | 107 => ⟨S_, .f32⟩
  | 108 => ⟨S400000, .f32⟩
  | 109 => ⟨S_, .f32⟩
  | 110 => ⟨S50000, .f32⟩
  | 111 => ⟨S400000x1, .i32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x256, .f32⟩
  | 118 => ⟨S50000x256, .f32⟩
  | 119 => ⟨S50000x512, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S1x544x256, .f32⟩
  | _ => ⟨S50000x128, .f32⟩

abbrev hbmTy0_1 (i : Nat) : BufTy := match i % 128 with
  | 0 => ⟨S544x256, .f32⟩
  | 1 => ⟨S1x256, .f32⟩
  | 2 => ⟨S256, .f32⟩
  | 3 => ⟨S1x512x256, .f32⟩
  | 4 => ⟨S512x256, .f32⟩
  | 5 => ⟨S1x256, .f32⟩
  | 6 => ⟨S256, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x256, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x256, .f32⟩
  | 25 => ⟨S400000x544, .f32⟩
  | 26 => ⟨S400000x256, .f32⟩
  | 27 => ⟨S1x256, .f32⟩
  | 28 => ⟨S400000x256, .f32⟩
  | 29 => ⟨S400000x256, .f32⟩
  | 30 => ⟨S_, .f32⟩
  | 31 => ⟨S400000x256, .f32⟩
  | 32 => ⟨S400000x256, .f32⟩
  | 33 => ⟨S_, .f32⟩
  | 34 => ⟨S50000x256, .f32⟩
  | 35 => ⟨S400000x1, .i32⟩
  | 36 => ⟨S50000x256, .f32⟩
  | 37 => ⟨S_, .f32⟩
  | 38 => ⟨S400000, .f32⟩
  | 39 => ⟨S_, .f32⟩
  | 40 => ⟨S50000, .f32⟩
  | 41 => ⟨S400000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x256, .f32⟩
  | 48 => ⟨S50000x256, .f32⟩
  | 49 => ⟨S50000x512, .f32⟩
  | 50 => ⟨S50000x256, .f32⟩
  | 51 => ⟨S1x256, .f32⟩
  | 52 => ⟨S50000x256, .f32⟩
  | 53 => ⟨S50000x256, .f32⟩
  | 54 => ⟨S_, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S50000x1, .f32⟩
  | 65 => ⟨S1x1, .f32⟩
  | 66 => ⟨S50000x1, .f32⟩
  | 67 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_cst : Ref sig .tc := ⟨.hbm, 66, rfl⟩
abbrev main_call1_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_6 : Ref sig .tc := ⟨.hbm, 77, rfl⟩
abbrev main_v50 : Ref sig .tc := ⟨.hbm, 78, rfl⟩
abbrev main_v51 : Ref sig .tc := ⟨.hbm, 79, rfl⟩
abbrev main_c_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_8 : Ref sig .tc := ⟨.hbm, 86, rfl⟩
abbrev main_v57 : Ref sig .tc := ⟨.hbm, 87, rfl⟩
abbrev main_v58 : Ref sig .tc := ⟨.hbm, 88, rfl⟩
abbrev main_c_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_cst : Ref sig .tc := ⟨.hbm, 124, rfl⟩
abbrev main_call3_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_14 : Ref sig .tc := ⟨.hbm, 135, rfl⟩
abbrev main_v96 : Ref sig .tc := ⟨.hbm, 136, rfl⟩
abbrev main_v97 : Ref sig .tc := ⟨.hbm, 137, rfl⟩
abbrev main_c_15 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_16 : Ref sig .tc := ⟨.hbm, 144, rfl⟩
abbrev main_v103 : Ref sig .tc := ⟨.hbm, 145, rfl⟩
abbrev main_v104 : Ref sig .tc := ⟨.hbm, 146, rfl⟩
abbrev main_c_17 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call4_cst : Ref sig .tc := ⟨.hbm, 158, rfl⟩
abbrev main_call4_v0 : Ref sig .tc := ⟨.hbm, 159, rfl⟩
abbrev main_v115 : Ref sig .tc := ⟨.hbm, 160, rfl⟩
abbrev main_cst_18 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_19 : Ref sig .tc := ⟨.hbm, 165, rfl⟩
abbrev main_v119 : Ref sig .tc := ⟨.hbm, 166, rfl⟩
abbrev main_cst_20 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_21 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_call5_cst : Ref sig .tc := ⟨.hbm, 182, rfl⟩
abbrev main_call5_v0 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_call6_cst : Ref sig .tc := ⟨.hbm, 189, rfl⟩
abbrev main_call6_v0 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x32_S400000x288_d1 : Shape.Concatenates [S400000x128, S400000x128, S400000x32] S400000x288 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x128_S50000x256_S50000x384_d1 : Shape.Concatenates [S50000x128, S50000x256] S50000x384 1
  bcast_S1x256_S50000x256_0_1 : S1x256.BroadcastsInDim S50000x256 (![0, 1] : Fin 2 → Fin S50000x256.rank)
  slices_S2x544x256_S1x544x256_0_0_0 : S2x544x256.Slices ![0, 0, 0] S1x544x256
  shapeCasts_S1x544x256_S544x256 : S1x544x256.ShapeCasts S544x256
  slices_S2x256_S1x256_0_0 : S2x256.Slices ![0, 0] S1x256
  shapeCasts_S1x256_S256 : S1x256.ShapeCasts S256
  slices_S2x512x256_S1x512x256_0_0_0 : S2x512x256.Slices ![0, 0, 0] S1x512x256
  shapeCasts_S1x512x256_S512x256 : S1x512x256.ShapeCasts S512x256
  concatenates_S400000x256_S400000x256_S400000x32_S400000x544_d1 : Shape.Concatenates [S400000x256, S400000x256, S400000x32] S400000x544 1
  concatenates_S50000x256_S50000x256_S50000x512_d1 : Shape.Concatenates [S50000x256, S50000x256] S50000x512 1
  slices_S2x544x256_S1x544x256_1_0_0 : S2x544x256.Slices ![1, 0, 0] S1x544x256
  slices_S2x256_S1x256_1_0 : S2x256.Slices ![1, 0] S1x256
  slices_S2x512x256_S1x512x256_1_0_0 : S2x512x256.Slices ![1, 0, 0] S1x512x256
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S400000x1_S400000x128_1_0_n_n_0_1_1128_wf : GatherDims.WF S50000x128 S400000x1 S400000x128 [1] [0] [] [0] [] 1 ![1, 128]
  dot_S400000x288_S288x256_S400000x256_1_0_0_1_n_n_wf : DotDims.WF S400000x288 S288x256 S400000x256 [1] [0] [0] [1] [] []
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S50000x384_S384x256_S50000x256_1_0_0_1_n_n_wf : DotDims.WF S50000x384 S384x256 S50000x256 [1] [0] [0] [1] [] []
  gather_S50000x256_S400000x1_S400000x256_1_0_n_n_0_1_1256_wf : GatherDims.WF S50000x256 S400000x1 S400000x256 [1] [0] [] [0] [] 1 ![1, 256]
  dot_S400000x544_S544x256_S400000x256_1_0_0_1_n_n_wf : DotDims.WF S400000x544 S544x256 S400000x256 [1] [0] [0] [1] [] []
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x288_S288x256_S400000x256_1_0_0_1_n_n : DotDims S400000x288 S288x256 S400000x256 where
  lhsContracting := [1]
  rhsContracting := [0]
  lhsNonContracting := [0]
  rhsNonContracting := [1]
  lhsBatch := []
  rhsBatch := []
  wf := dot_S400000x288_S288x256_S400000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x544_S544x256_S400000x256_1_0_0_1_n_n : DotDims S400000x544 S544x256 S400000x256 where
  lhsContracting := [1]
  rhsContracting := [0]
  lhsNonContracting := [0]
  rhsNonContracting := [1]
  lhsBatch := []
  rhsBatch := []
  wf := dot_S400000x544_S544x256_S400000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The idealized kernel's run with its result named.
  Every weakly fair execution of @main terminates without a fault, the result array ends at what the last of the twelve
  segments (six stretches of host operations, six regions) leaves in it, and the fifteen argument arrays end as launched:
  no host operation and no region writes an argument.
-/
import proofs.«100581_j48619029791202_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_main : θ_run defs (onTc (τ := τ) (main (F := F))) ⟨m, fun _ => 0, ρ⟩ (fun r => ∀ c : Dev nD,
      r.2.mem ((c.tc : Thread nD τ).loc main_v121) = W12 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v121 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.KRun

end
-- ==== Proof.Spec.lean ====
/-
  The three layer functions of the network, index by index on the extended reals, over literal shapes.

  * `edgeG C`: the edge message. For edge `e` and output channel `j`,
    `max (x_src[e,:]·W_src[:,j] + x_dst[e,:]·W_dst[:,j] + attr[e,:]·W_e[:,j] + b[j]) 0`,
    the sum of three row-by-column products (over `C`, `C` and `32` terms), the bias, and a rectifier.
  * `nodeG C`: the node update, `max (x[n,:]·W_x[:,j] + agg[n,:]·W_agg[:,j] + b[j]) 0`.
  * `denseG`, `outG`: the two layers of the head, `max (h[n,:]·W1[:,j] + b1[j]) 0` and `hid[n,:]·W2[:,0] + b2[0]`.

  `matmul_zero_plain`: a matrix unit's product of an [M,K] block with a [K,N] block into a zero accumulator is, at
  row `p` and column `q`, the sum over `k` of `lhs[p,k] * rhs[k,q]`: the contraction index of a one-axis contraction
  is its one coordinate.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The shape of an `[a, b]` array. -/
abbrev Sh2 (a b : ℕ) : Shape := ⟨2, ![a, b]⟩

/-- Row coordinate of an index of an `[a, b]` array, as a literal `Fin a`. -/
abbrev row {a b : ℕ} (i : (Sh2 a b).Idx) : Fin a := ⟨(i 0).val, (i 0).isLt⟩
/-- Column coordinate, as a literal `Fin b`. -/
abbrev col {a b : ℕ} (i : (Sh2 a b).Idx) : Fin b := ⟨(i 1).val, (i 1).isLt⟩

theorem eq_ix2_row_col {a b : ℕ} (i : (Sh2 a b).Idx) : i = ix2 (row i) (col i) := by
  funext d
  match d with
  | ⟨0, _⟩ => rfl
  | ⟨1, _⟩ => rfl

/-- Row `p` of `x` times column `q` of `w`. -/
def dotRC {M K N : ℕ} (x : (Sh2 M K).Idx → EReal) (w : (Sh2 K N).Idx → EReal) (p : Fin M) (q : Fin N) : EReal :=
  ∑ k : Fin K, x (ix2 p k) * w (ix2 k q)

/-- The edge message (see the header). -/
def edgeG (E C D : ℕ) (xs xd : (Sh2 E C).Idx → EReal) (ea : (Sh2 E D).Idx → EReal)
    (ws wd : (Sh2 C 256).Idx → EReal) (we : (Sh2 D 256).Idx → EReal) (b : (Sh2 1 256).Idx → EReal) :
    (Sh2 E 256).Idx → EReal :=
  fun i => max (((dotRC xs ws (row i) (col i) + dotRC xd wd (row i) (col i)) + dotRC ea we (row i) (col i)) + b (ix2 0 (col i))) 0

/-- The node update (see the header). -/
def nodeG (Nn C : ℕ) (x : (Sh2 Nn C).Idx → EReal) (agg : (Sh2 Nn 256).Idx → EReal)
    (wx : (Sh2 C 256).Idx → EReal) (wa : (Sh2 256 256).Idx → EReal) (b : (Sh2 1 256).Idx → EReal) :
    (Sh2 Nn 256).Idx → EReal :=
  fun i => max ((dotRC x wx (row i) (col i) + dotRC agg wa (row i) (col i)) + b (ix2 0 (col i))) 0

/-- The head's hidden layer. -/
def denseG (Nn : ℕ) (h : (Sh2 Nn 256).Idx → EReal) (w : (Sh2 256 256).Idx → EReal) (b : (Sh2 1 256).Idx → EReal) :
    (Sh2 Nn 256).Idx → EReal :=
  fun i => max (dotRC h w (row i) (col i) + b (ix2 0 (col i))) 0

/-- The head's output layer. -/
def outG (Nn : ℕ) (h : (Sh2 Nn 256).Idx → EReal) (w : (Sh2 256 1).Idx → EReal) (b : (Sh2 1 1).Idx → EReal) :
    (Sh2 Nn 1).Idx → EReal :=
  fun i => dotRC h w (row i) (col i) + b (ix2 0 (col i))

/-! ## Row blocks

A kernel's grid point stages a block of consecutive rows of each row-blocked array and the whole of every other
array. Each layer function reads, for output row `p`, only row `p` of its row-blocked operands, so the layer function
of the row blocks is the row block of the layer function of the whole arrays. -/

/-- The rows `sel p` of `x`, as an array of their own. -/
def rowsOf {Mb M N : ℕ} (sel : Fin Mb → Fin M) (x : (Sh2 M N).Idx → EReal) : (Sh2 Mb N).Idx → EReal :=
  fun i => x (ix2 (sel (row i)) (col i))

theorem edgeG_rows {Mb M C D : ℕ} (sel : Fin Mb → Fin M) (xs xd : (Sh2 M C).Idx → EReal) (ea : (Sh2 M D).Idx → EReal)
    (ws wd : (Sh2 C 256).Idx → EReal) (we : (Sh2 D 256).Idx → EReal) (b : (Sh2 1 256).Idx → EReal) :
    edgeG Mb C D (rowsOf sel xs) (rowsOf sel xd) (rowsOf sel ea) ws wd we b = rowsOf sel (edgeG M C D xs xd ea ws wd we b) := rfl

theorem nodeG_rows {Mb M C : ℕ} (sel : Fin Mb → Fin M) (x : (Sh2 M C).Idx → EReal) (agg : (Sh2 M 256).Idx → EReal)
    (wx : (Sh2 C 256).Idx → EReal) (wa : (Sh2 256 256).Idx → EReal) (b : (Sh2 1 256).Idx → EReal) :
    nodeG Mb C (rowsOf sel x) (rowsOf sel agg) wx wa b = rowsOf sel (nodeG M C x agg wx wa b) := rfl

theorem denseG_rows {Mb M : ℕ} (sel : Fin Mb → Fin M) (h : (Sh2 M 256).Idx → EReal) (w : (Sh2 256 256).Idx → EReal)
    (b : (Sh2 1 256).Idx → EReal) :
    denseG Mb (rowsOf sel h) w b = rowsOf sel (denseG M h w b) := rfl

theorem outG_rows {Mb M : ℕ} (sel : Fin Mb → Fin M) (h : (Sh2 M 256).Idx → EReal) (w : (Sh2 256 1).Idx → EReal)
    (b : (Sh2 1 1).Idx → EReal) :
    outG Mb (rowsOf sel h) w b = rowsOf sel (outG M h w b) := rfl

/-! ## Bands of a stacked weight matrix, a bias as a row -/

/-- Rows `off … off + R - 1` of a stacked weight matrix. -/
def band {T N : ℕ} (R off : ℕ) (hb : off + R ≤ T) (w : (Sh2 T N).Idx → EReal) : (Sh2 R N).Idx → EReal :=
  fun i => w (ix2 (⟨off + (i 0).val, by have := (i 0).isLt; have : (i 0).val < R := this; omega⟩ : Fin T) (col i))

theorem band_apply {T N : ℕ} (R off : ℕ) (hb : off + R ≤ T) (w : (Sh2 T N).Idx → EReal) (k : Fin R) (q : Fin N) :
    band R off hb w (ix2 k q) = w (ix2 (⟨off + k.val, by have := k.isLt; omega⟩ : Fin T) q) := rfl

theorem band0_apply {T N : ℕ} (R : ℕ) (hb : 0 + R ≤ T) (w : (Sh2 T N).Idx → EReal) (k : Fin R) (q : Fin N) :
    band R 0 hb w (ix2 k q) = w (ix2 (⟨k.val, by have := k.isLt; omega⟩ : Fin T) q) :=
  congrArg (fun r : Fin T => w (ix2 r q)) (Fin.ext (Nat.zero_add _))

/-- A slice of whole rows `off … off + R - 1` of a matrix is that band. -/
theorem slice_eq_band {T N : ℕ} (R off : ℕ) (hb : off + R ≤ T) (w : (Sh2 T N).Idx → EReal)
    (h : (Sh2 T N).Slices ![off, 0] (Sh2 R N)) :
    extractStridedSlice (Sh2 R N) ![off, 0] w h = band R off hb w := by
  funext i
  exact extractStridedSlice_apply ![off, 0] w h i _ (fun a => match a with
    | ⟨0, _⟩ => rfl
    | ⟨1, _⟩ => (Nat.zero_add _).symm)

/-- A bias vector as a one-row matrix. -/
def rowvec {N : ℕ} (b : (⟨1, ![N]⟩ : Shape).Idx → EReal) : (Sh2 1 N).Idx → EReal :=
  fun i => b (ix1 (col i))

/-- A vector recast as a one-row matrix is that row. -/
theorem reshape_eq_rowvec {N : ℕ} (b : (⟨1, ![N]⟩ : Shape).Idx → EReal) (h : (⟨1, ![N]⟩ : Shape).ShapeCasts (Sh2 1 N)) :
    shapeCast (Sh2 1 N) b h = rowvec b := by
  funext i
  refine shapeCast_apply b h i (ix1 (col i)) ?_
  rw [Shape.rowMajor_val_two, Shape.rowMajor_val_one]
  have h0 : (i 0).val < 1 := (i 0).isLt
  show (i 1).val = (i 0).val * N + (i 1).val
  have : (i 0).val = 0 := by omega
  rw [this]; omega

/-- A plain [M,K] × [K,N] product on the matrix unit into a zero accumulator, at row `p`, column `q`. The four
    hypotheses say what the dimension numbers' operand indices are at an output index and a contraction position. -/
theorem matmul_zero_plain {M K N : ℕ} {φ₁ φ₂ : FTy} (d : DotDims (Sh2 M K) (Sh2 K N) (Sh2 M N))
    (hr : d.contr.rank = 1) (hs : d.contr.size ⟨0, by omega⟩ = K)
    (hl0 : ∀ (j : (Sh2 M N).Idx) (k : d.contr.Idx), (d.lhsIdx j k 0).val = (j 0).val)
    (hl1 : ∀ (j : (Sh2 M N).Idx) (k : d.contr.Idx), (d.lhsIdx j k 1).val = (k ⟨0, by omega⟩).val)
    (hr0 : ∀ (j : (Sh2 M N).Idx) (k : d.contr.Idx), (d.rhsIdx j k 0).val = (k ⟨0, by omega⟩).val)
    (hr1 : ∀ (j : (Sh2 M N).Idx) (k : d.contr.Idx), (d.rhsIdx j k 1).val = (j 1).val)
    (prec : Option ContractPrecision) (lhs : FVec Ideal (Sh2 M K) φ₁) (rhs : FVec Ideal (Sh2 K N) φ₂)
    (p : Fin M) (q : Fin N) :
    FloatOps.matmul d prec lhs rhs (constant (Sh2 M N) .f32 0x00000000#32) (ix2 p q) = dotRC lhs rhs p q := by
  rw [Ideal.matmul_constant_zero_apply, ← Equiv.sum_comp (contrEquiv1 d K hr hs).symm]
  unfold dotRC
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Spec

end
-- ==== Proof.Region5.lean ====
/-
  Region 5, the last node update fused with the two-layer head, as one function of the arrays it finds.
  Grid point `t` of 10 stages rows `5000 t … 5000 t + 4999` of the node features and of the aggregated messages and
  every weight and bias whole, and writes rows `5000 t …` of the result. For a row of the block the body computes the
  node update (`Spec.nodeG`), the hidden layer (`Spec.denseG`) and the output layer (`Spec.outG`), each reading only
  that row of the layer before: the three layers of the staged blocks are the row block of the three layers of the
  whole arrays. The 10 blocks tile the 50000 rows.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R5

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S5000x256_S256x256_S5000x256_1_0_0_1_n_n.contr.Idx) : (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dA_l1 (j : _) (k : dot_S5000x256_S256x256_S5000x256_1_0_0_1_n_n.contr.Idx) : (dot_S5000x256_S256x256_S5000x256_1_0_0_1_n_n.lhsIdx j k 1).val = (k ⟨0, by decide⟩).val :=
  dot_S5000x256_S256x256_S5000x256_1_0_0_1_n_n.lhsIdx_val_of_single rfl j k
theorem dA_r0 (j : _) (k : dot_S5000x256_S256x256_S5000x256_1_0_0_1_n_n.contr.Idx) : (dot_S5000x256_S256x256_S5000x256_1_0_0_1_n_n.rhsIdx j k 0).val = (k ⟨0, by decide⟩).val :=
  dot_S5000x256_S256x256_S5000x256_1_0_0_1_n_n.rhsIdx_val_of_single rfl j k
theorem dA_r1 (j : _) (k : dot_S5000x256_S256x256_S5000x256_1_0_0_1_n_n.contr.Idx) : (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem dB_l0 (j : _) (k : dot_S5000x256_S256x1_S5000x1_1_0_0_1_n_n.contr.Idx) : (dot_S5000x256_S256x1_S5000x1_1_0_0_1_n_n.lhsIdx j k 0).val = (j 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem dB_l1 (j : _) (k : dot_S5000x256_S256x1_S5000x1_1_0_0_1_n_n.contr.Idx) : (dot_S5000x256_S256x1_S5000x1_1_0_0_1_n_n.lhsIdx j k 1).val = (k ⟨0, by decide⟩).val :=
  dot_S5000x256_S256x1_S5000x1_1_0_0_1_n_n.lhsIdx_val_of_single rfl j k
theorem dB_r0 (j : _) (k : dot_S5000x256_S256x1_S5000x1_1_0_0_1_n_n.contr.Idx) : (dot_S5000x256_S256x1_S5000x1_1_0_0_1_n_n.rhsIdx j k 0).val = (k ⟨0, by decide⟩).val :=
  dot_S5000x256_S256x1_S5000x1_1_0_0_1_n_n.rhsIdx_val_of_single rfl j k
theorem dB_r1 (j : _) (k : dot_S5000x256_S256x1_S5000x1_1_0_0_1_n_n.contr.Idx) : (dot_S5000x256_S256x1_S5000x1_1_0_0_1_n_n.rhsIdx j k 1).val = (j 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

theorem zero_f32 : (Scalar.ofBits .f32 0x00000000#32 : Ideal .f32) = 0 := Ideal.ofBits_zero_f32

/-! ## The body's value: node update, hidden layer and output layer of the staged blocks -/

theorem bias_apply (x4 : Vec Ideal S1x256 .f32) (p : Fin 5000) (q : Fin 256) :
    broadcastTo S5000x256 (shapeCast S1x256 x4 shapeCasts_S1x256_S1x256) broadcasts_S1x256_S5000x256 (ix2 p q) = x4 (ix2 0 q) := by
  rw [shapeCast_self]
  exact broadcastTo_apply x4 broadcasts_S1x256_S5000x256 (ix2 p q) (ix2 0 q) (fun a => match a with
    | ⟨0, _⟩ => rfl
    | ⟨1, _⟩ => rfl)

theorem bias1_apply (x8 : Vec Ideal S1x1 .f32) (p : Fin 5000) (q : Fin 1) :
    broadcastTo S5000x1 (shapeCast S1x1 x8 shapeCasts_S1x1_S1x1) broadcasts_S1x1_S5000x1 (ix2 p q) = x8 (ix2 0 q) := by
  rw [shapeCast_self]
  exact broadcastTo_apply x8 broadcasts_S1x1_S5000x1 (ix2 p q) (ix2 0 q) (fun a => match a with
    | ⟨0, _⟩ => rfl
    | ⟨1, _⟩ => by have := q.isLt; show q.val = 0; omega)

/-- The node update, as the body spells it, is `nodeG` of the blocks. -/
theorem node_fun (x0 x1 : Vec Ideal S5000x256 .bf16) (x2 x3 : Vec Ideal S256x256 .f32) (x4 : Vec Ideal S1x256 .f32) :
    maximumf (addf (addf
        (matmul (F := Ideal) (φ₁ := .bf16) (φ₂ := .bf16) dot_S5000x256_S256x256_S5000x256_1_0_0_1_n_n none (shapeCast S5000x256 x0 shapeCasts_S5000x256_S5000x256)
          (truncf .bf16 (shapeCast S256x256 x2 shapeCasts_S256x256_S256x256) bitsLt_bf16_f32) (constant (F := Ideal) S5000x256 .f32 0x00000000#32))
        (matmul (F := Ideal) (φ₁ := .bf16) (φ₂ := .bf16) dot_S5000x256_S256x256_S5000x256_1_0_0_1_n_n none (shapeCast S5000x256 x1 shapeCasts_S5000x256_S5000x256)
          (truncf .bf16 (shapeCast S256x256 x3 shapeCasts_S256x256_S256x256) bitsLt_bf16_f32) (constant (F := Ideal) S5000x256 .f32 0x00000000#32)))
        (broadcastTo S5000x256 (shapeCast S1x256 x4 shapeCasts_S1x256_S1x256) broadcasts_S1x256_S5000x256))
      (broadcast S5000x256 (Scalar.ofBits .f32 0x00000000#32))
    = nodeG 5000 256 x0 x1 x2 x3 x4 := by
  funext y
  rw [eq_ix2_row_col y]
  simp only [matmul, maximumf_apply, addf_apply, broadcast_apply]
  rw [matmul_zero_plain dot_S5000x256_S256x256_S5000x256_1_0_0_1_n_n rfl rfl dA_l0 dA_l1 dA_r0 dA_r1 none _ _ (row y) (col y),
    matmul_zero_plain dot_S5000x256_S256x256_S5000x256_1_0_0_1_n_n rfl rfl dA_l0 dA_l1 dA_r0 dA_r1 none _ _ (row y) (col y), bias_apply, zero_f32,
    shapeCast_self, shapeCast_self, shapeCast_self, shapeCast_self]
  rfl

/-- The head's hidden layer, as the body spells it, is `denseG` of its operands. -/
theorem dense_fun (h : FVec Ideal S5000x256 .f32) (x5 : Vec Ideal S256x256 .f32) (x6 : Vec Ideal S1x256 .f32) :
    maximumf (addf
        (matmul (F := Ideal) (φ₁ := .bf16) (φ₂ := .bf16) dot_S5000x256_S256x256_S5000x256_1_0_0_1_n_n none (truncf .bf16 h bitsLt_bf16_f32) (truncf .bf16 x5 bitsLt_bf16_f32) (constant (F := Ideal) S5000x256 .f32 0x00000000#32))
        (broadcastTo S5000x256 (shapeCast S1x256 x6 shapeCasts_S1x256_S1x256) broadcasts_S1x256_S5000x256))
      (broadcast S5000x256 (Scalar.ofBits .f32 0x00000000#32))
    = denseG 5000 h x5 x6 := by
  funext y
  rw [eq_ix2_row_col y]
  simp only [matmul, maximumf_apply, addf_apply, broadcast_apply]
  rw [matmul_zero_plain dot_S5000x256_S256x256_S5000x256_1_0_0_1_n_n rfl rfl dA_l0 dA_l1 dA_r0 dA_r1 none _ _ (row y) (col y), bias_apply, zero_f32]
  rfl

/-- The head's output layer, as the body spells it, is `outG` of its operands. -/
theorem out_fun (h : FVec Ideal S5000x256 .f32) (x7 : Vec Ideal S256x1 .f32) (x8 : Vec Ideal S1x1 .f32) :
    addf (matmul (F := Ideal) (φ₁ := .bf16) (φ₂ := .bf16) dot_S5000x256_S256x1_S5000x1_1_0_0_1_n_n none (truncf .bf16 h bitsLt_bf16_f32) (truncf .bf16 x7 bitsLt_bf16_f32) (constant (F := Ideal) S5000x1 .f32 0x00000000#32))
      (broadcastTo S5000x1 (shapeCast S1x1 x8 shapeCasts_S1x1_S1x1) broadcasts_S1x1_S5000x1)
    = outG 5000 h x7 x8 := by
  funext y
  rw [eq_ix2_row_col y]
  simp only [matmul, addf_apply]
  rw [matmul_zero_plain dot_S5000x256_S256x1_S5000x1_1_0_0_1_n_n rfl rfl dB_l0 dB_l1 dB_r0 dB_r1 none _ _ (row y) (col y), bias1_apply]
  rfl

theorem pay_eq (x0 x1 : Vec Ideal S5000x256 .bf16) (x2 x3 : Vec Ideal S256x256 .f32) (x4 : Vec Ideal S1x256 .f32)
    (x5 : Vec Ideal S256x256 .f32) (x6 : Vec Ideal S1x256 .f32) (x7 : Vec Ideal S256x1 .f32) (x8 : Vec Ideal S1x1 .f32) :
    k5_pay1 (F := Ideal) (k5_pay2 x0 x1 x2 x3 x4 x5 x6 x7) (k5_pay3 x8)
      = outG 5000 (denseG 5000 (nodeG 5000 256 x0 x1 x2 x3 x4) x5 x6) x7 x8 := by
  unfold k5_pay1 k5_pay2 k5_pay3
  simp only [matmul]
  rw [node_fun, dense_fun, out_fun]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg5.N) : t.val < 10 := lt_of_lt_of_eq t.isLt N_5

/-- The rows of the arrays that grid point `t` works on. -/
def sel (t : Fin cfg5.N) : Fin 5000 → Fin 50000 := fun p => ⟨t.val * 5000 + p.val, by have := tlt t; omega⟩

/-! The printed index maps, decided over the 10 grid points: the row-blocked windows move with the point along the
    rows; the weights and the biases stay. -/

theorem idx_facts0 : ∀ t : Fin cfg5.N, win5_0.index t (0 : Fin 2) = t.val ∧ win5_0.index t (1 : Fin 2) = 0 :=
  (by decide +kernel : ∀ t : Fin grid5.N, _)

theorem idx_facts1 : ∀ t : Fin cfg5.N, win5_1.index t (0 : Fin 2) = t.val ∧ win5_1.index t (1 : Fin 2) = 0 :=
  (by decide +kernel : ∀ t : Fin grid5.N, _)

theorem idx_facts9 : ∀ t : Fin cfg5.N, win5_9.index t (0 : Fin 2) = t.val ∧ win5_9.index t (1 : Fin 2) = 0 :=
  (by decide +kernel : ∀ t : Fin grid5.N, _)

theorem idx_facts2 : ∀ t : Fin cfg5.N, win5_2.index t (0 : Fin 2) = 0 ∧ win5_2.index t (1 : Fin 2) = 0 :=
  (by decide +kernel : ∀ t : Fin grid5.N, _)

theorem idx_facts3 : ∀ t : Fin cfg5.N, win5_3.index t (0 : Fin 2) = 0 ∧ win5_3.index t (1 : Fin 2) = 0 :=
  (by decide +kernel : ∀ t : Fin grid5.N, _)

theorem idx_facts4 : ∀ t : Fin cfg5.N, win5_4.index t (0 : Fin 2) = 0 ∧ win5_4.index t (1 : Fin 2) = 0 :=
  (by decide +kernel : ∀ t : Fin grid5.N, _)

theorem idx_facts5 : ∀ t : Fin cfg5.N, win5_5.index t (0 : Fin 2) = 0 ∧ win5_5.index t (1 : Fin 2) = 0 :=
  (by decide +kernel : ∀ t : Fin grid5.N, _)

theorem idx_facts6 : ∀ t : Fin cfg5.N, win5_6.index t (0 : Fin 2) = 0 ∧ win5_6.index t (1 : Fin 2) = 0 :=
  (by decide +kernel : ∀ t : Fin grid5.N, _)

theorem idx_facts7 : ∀ t : Fin cfg5.N, win5_7.index t (0 : Fin 2) = 0 ∧ win5_7.index t (1 : Fin 2) = 0 :=
  (by decide +kernel : ∀ t : Fin grid5.N, _)

theorem idx_facts8 : ∀ t : Fin cfg5.N, win5_8.index t (0 : Fin 2) = 0 ∧ win5_8.index t (1 : Fin 2) = 0 :=
  (by decide +kernel : ∀ t : Fin grid5.N, _)

/-! A row-blocked window's block is the row block of its array; a weight's or a bias's block is the whole array. -/

theorem blk0 (c : Dev nD) (t : Fin cfg5.N) :
    (iblk5 V c 0 t : (Sh2 5000 256).Idx → EReal) = rowsOf (sel t) (V c main_v81) := by
  obtain ⟨e0, e1⟩ := idx_facts0 t
  funext y
  show V c main_v81 (((cfg5.win 0).blk t).view.emb y) = V c main_v81 (ix2 (sel t (row y)) (col y))
  refine congrArg (V c main_v81) (funext fun a => Fin.ext ?_)
  match a with
  | ⟨0, _⟩ =>
    show win5_0.index t (0 : Fin 2) * 5000 + 1 * (y 0).val = t.val * 5000 + (y 0).val
    rw [e0]; omega
  | ⟨1, _⟩ =>
    show win5_0.index t (1 : Fin 2) * 256 + 1 * (y 1).val = (y 1).val
    rw [e1]; omega

theorem blk1 (c : Dev nD) (t : Fin cfg5.N) :
    (iblk5 V c 1 t : (Sh2 5000 256).Idx → EReal) = rowsOf (sel t) (V c main_v115) := by
  obtain ⟨e0, e1⟩ := idx_facts1 t
  funext y
  show V c main_v115 (((cfg5.win 1).blk t).view.emb y) = V c main_v115 (ix2 (sel t (row y)) (col y))
  refine congrArg (V c main_v115) (funext fun a => Fin.ext ?_)
  match a with
  | ⟨0, _⟩ =>
    show win5_1.index t (0 : Fin 2) * 5000 + 1 * (y 0).val = t.val * 5000 + (y 0).val
    rw [e0]; omega
  | ⟨1, _⟩ =>
    show win5_1.index t (1 : Fin 2) * 256 + 1 * (y 1).val = (y 1).val
    rw [e1]; omega

theorem blk2 (c : Dev nD) (t : Fin cfg5.N) :
    (iblk5 V c 2 t : (Sh2 256 256).Idx → EReal) = V c main_v116 := by
  obtain ⟨e0, e1⟩ := idx_facts2 t
  funext y
  show V c main_v116 (((cfg5.win 2).blk t).view.emb y) = V c main_v116 y
  refine congrArg (V c main_v116) (funext fun a => Fin.ext ?_)
  match a with
  | ⟨0, _⟩ =>
    show win5_2.index t (0 : Fin 2) * 256 + 1 * (y 0).val = (y 0).val
    rw [e0]; omega
  | ⟨1, _⟩ =>
    show win5_2.index t (1 : Fin 2) * 256 + 1 * (y 1).val = (y 1).val
    rw [e1]; omega

theorem blk3 (c : Dev nD) (t : Fin cfg5.N) :
    (iblk5 V c 3 t : (Sh2 256 256).Idx → EReal) = V c main_v117 := by
  obtain ⟨e0, e1⟩ := idx_facts3 t
  funext y
  show V c main_v117 (((cfg5.win 3).blk t).view.emb y) = V c main_v117 y
  refine congrArg (V c main_v117) (funext fun a => Fin.ext ?_)
  match a with
  | ⟨0, _⟩ =>
    show win5_3.index t (0 : Fin 2) * 256 + 1 * (y 0).val = (y 0).val
    rw [e0]; omega
  | ⟨1, _⟩ =>
    show win5_3.index t (1 : Fin 2) * 256 + 1 * (y 1).val = (y 1).val
    rw [e1]; omega

theorem blk4 (c : Dev nD) (t : Fin cfg5.N) :
    (iblk5 V c 4 t : (Sh2 1 256).Idx → EReal) = V c main_v118 := by
  obtain ⟨e0, e1⟩ := idx_facts4 t
  funext y
  show V c main_v118 (((cfg5.win 4).blk t).view.emb y) = V c main_v118 y
  refine congrArg (V c main_v118) (funext fun a => Fin.ext ?_)
  match a with
  | ⟨0, _⟩ =>
    show win5_4.index t (0 : Fin 2) * 1 + 1 * (y 0).val = (y 0).val
    rw [e0]; omega
  | ⟨1, _⟩ =>
    show win5_4.index t (1 : Fin 2) * 256 + 1 * (y 1).val = (y 1).val
    rw [e1]; omega

theorem blk5 (c : Dev nD) (t : Fin cfg5.N) :
    (iblk5 V c 5 t : (Sh2 256 256).Idx → EReal) = V c main_arg11 := by
  obtain ⟨e0, e1⟩ := idx_facts5 t
  funext y
  show V c main_arg11 (((cfg5.win 5).blk t).view.emb y) = V c main_arg11 y
  refine congrArg (V c main_arg11) (funext fun a => Fin.ext ?_)
  match a with
  | ⟨0, _⟩ =>
    show win5_5.index t (0 : Fin 2) * 256 + 1 * (y 0).val = (y 0).val
    rw [e0]; omega
  | ⟨1, _⟩ =>
    show win5_5.index t (1 : Fin 2) * 256 + 1 * (y 1).val = (y 1).val
    rw [e1]; omega

theorem blk6 (c : Dev nD) (t : Fin cfg5.N) :
    (iblk5 V c 6 t : (Sh2 1 256).Idx → EReal) = V c main_v119 := by
  obtain ⟨e0, e1⟩ := idx_facts6 t
  funext y
  show V c main_v119 (((cfg5.win 6).blk t).view.emb y) = V c main_v119 y
  refine congrArg (V c main_v119) (funext fun a => Fin.ext ?_)
  match a with
  | ⟨0, _⟩ =>
    show win5_6.index t (0 : Fin 2) * 1 + 1 * (y 0).val = (y 0).val
    rw [e0]; omega
  | ⟨1, _⟩ =>
    show win5_6.index t (1 : Fin 2) * 256 + 1 * (y 1).val = (y 1).val
    rw [e1]; omega

theorem blk7 (c : Dev nD) (t : Fin cfg5.N) :
    (iblk5 V c 7 t : (Sh2 256 1).Idx → EReal) = V c main_arg13 := by
  obtain ⟨e0, e1⟩ := idx_facts7 t
  funext y
  show V c main_arg13 (((cfg5.win 7).blk t).view.emb y) = V c main_arg13 y
  refine congrArg (V c main_arg13) (funext fun a => Fin.ext ?_)
  match a with
  | ⟨0, _⟩ =>
    show win5_7.index t (0 : Fin 2) * 256 + 1 * (y 0).val = (y 0).val
    rw [e0]; omega
  | ⟨1, _⟩ =>
    show win5_7.index t (1 : Fin 2) * 1 + 1 * (y 1).val = (y 1).val
    rw [e1]; omega

theorem blk8 (c : Dev nD) (t : Fin cfg5.N) :
    (iblk5 V c 8 t : (Sh2 1 1).Idx → EReal) = V c main_v120 := by
  obtain ⟨e0, e1⟩ := idx_facts8 t
  funext y
  show V c main_v120 (((cfg5.win 8).blk t).view.emb y) = V c main_v120 y
  refine congrArg (V c main_v120) (funext fun a => Fin.ext ?_)
  match a with
  | ⟨0, _⟩ =>
    show win5_8.index t (0 : Fin 2) * 1 + 1 * (y 0).val = (y 0).val
    rw [e0]; omega
  | ⟨1, _⟩ =>
    show win5_8.index t (1 : Fin 2) * 1 + 1 * (y 1).val = (y 1).val
    rw [e1]; omega

/-- Reading the output window's block `t` of an array is taking its rows `sel t`. -/
theorem read_out (t : Fin cfg5.N) (G : (Sh2 50000 1).Idx → EReal) :
    (((cfg5.win 9).blk t).view.read (Elt Ideal) G : (Sh2 5000 1).Idx → EReal) = rowsOf (sel t) G := by
  obtain ⟨e0, e1⟩ := idx_facts9 t
  funext y
  show G (((cfg5.win 9).blk t).view.emb y) = G (ix2 (sel t (row y)) (col y))
  refine congrArg G (funext fun a => Fin.ext ?_)
  match a with
  | ⟨0, _⟩ =>
    show win5_9.index t (0 : Fin 2) * 5000 + 1 * (y 0).val = t.val * 5000 + (y 0).val
    rw [e0]; omega
  | ⟨1, _⟩ =>
    show win5_9.index t (1 : Fin 2) * 1 + 1 * (y 1).val = (y 1).val
    rw [e1]; omega

/-- The result as one function of the arrays the region finds: node update, then the two layers of the head. -/
def G (c : Dev nD) : (Sh2 50000 1).Idx → EReal :=
  outG 50000 (denseG 50000 (nodeG 50000 256 (V c main_v81) (V c main_v115) (V c main_v116) (V c main_v117) (V c main_v118)) (V c main_arg11) (V c main_v119)) (V c main_arg13) (V c main_v120)

/-- The three layers of the row blocks are the row block of the three layers. -/
theorem G_rows (c : Dev nD) (t : Fin cfg5.N) :
    outG 5000 (denseG 5000 (nodeG 5000 256 (rowsOf (sel t) (V c main_v81)) (rowsOf (sel t) (V c main_v115)) (V c main_v116) (V c main_v117) (V c main_v118)) (V c main_arg11) (V c main_v119)) (V c main_arg13) (V c main_v120)
      = rowsOf (sel t) (G V c) := rfl

/-- What point `t` writes back is block `t` of `G`. -/
theorem flushed_eq (c : Dev nD) (t : Fin cfg5.N) :
    (dat5 (F := Ideal) V c).flushed 9 t = ((cfg5.win 9).blk t).view.read (Elt Ideal) (G V c) := by
  show (cfg5.win 9).cut (grid5.coords t) ((dat5 (F := Ideal) V c).after 9 t) = _
  rw [after5_9]
  unfold out5_9
  rw [View.canon_unit_zero hz]
  simp only [View.ld_unit_zero (S := S5000x256) hz, View.ld_unit_zero (S := S256x256) hz, View.ld_unit_zero (S := S1x256) hz, View.ld_unit_zero (S := S256x1) hz, View.ld_unit_zero (S := S1x1) hz]
  rw [pay_eq, blk0 V c t, blk1 V c t, blk2 V c t, blk3 V c t, blk4 V c t, blk5 V c t, blk6 V c t, blk7 V c t, blk8 V c t]
  exact (congrArg ((cfg5.win 9).cut (grid5.coords t)) (G_rows V c t)).trans (read_out t (G V c)).symm

/-- An index of the array is in point `t`'s block iff each coordinate is in the block's range on its axis. -/
theorem mem_blk (t : Fin cfg5.N) (i : S50000x1.Idx) :
    i ∈ ((cfg5.win 9).blk t).view.set ↔ ∀ a : Fin 2, win5_9.index t a * S5000x1.size a ≤ (i a).val ∧ (i a).val < win5_9.index t a * S5000x1.size a + S5000x1.size a := by
  show i ∈ ((View.whole main_v121).slice (win5_9.rect t)).set ↔ _
  rw [View.set_slice_whole, Rect.mem_set_unit]
  exact Iff.rfl

/-- Row `r` is in the block of point `r / 5000`: the 10 blocks tile the 50000 rows. -/
theorem cover (i : S50000x1.Idx) : ∃ t : Fin cfg5.N, (cfg5.win 9).flush t = true ∧ i ∈ ((cfg5.win 9).blk t).view.set := by
  have hi0 : (i 0).val < 50000 := (i 0).isLt
  have hi1 : (i 1).val < 1 := (i 1).isLt
  have hN : cfg5.N = 10 := N_5
  refine ⟨⟨(i 0).val / 5000, by rw [hN]; omega⟩, flush5_9 _, ?_⟩
  obtain ⟨e0, e1⟩ := idx_facts9 ⟨(i 0).val / 5000, by rw [hN]; omega⟩
  rw [mem_blk]
  intro a
  match a with
  | ⟨0, _⟩ =>
    show win5_9.index _ (0 : Fin 2) * 5000 ≤ (i 0).val ∧ (i 0).val < win5_9.index _ (0 : Fin 2) * 5000 + 5000
    rw [e0]
    show (i 0).val / 5000 * 5000 ≤ (i 0).val ∧ (i 0).val < (i 0).val / 5000 * 5000 + 5000
    omega
  | ⟨1, _⟩ =>
    show win5_9.index _ (1 : Fin 2) * 1 ≤ (i 1).val ∧ (i 1).val < win5_9.index _ (1 : Fin 2) * 1 + 1
    rw [e1]; omega

/-- The output array after the region: `G` of the arrays the region found. -/
theorem final (c : Dev nD) : (dat5 (F := Ideal) V c).arrAt 9 cfg5.N = G V c :=
  (dat5 (F := Ideal) V c).arrAt_eq_of_cover 9 (G V c) (fun t _ => flushed_eq V c t) (cover)

end Cert.KernelIdeal.R5

end
-- ==== Proof.Concat.lean ====
/-
  A concatenation along the columns, read at a row and a column.
  `[x_a | x_b | x_d]` at column `k` of the first band is `x_a` at column `k`; at column `A + k` it is `x_b` at column
  `k`; at column `A + B + k` it is `x_d` at column `k`. The same for two pieces.
-/
import Idealize.ShloMosaic.Lib.Pipeline.Value
import Idealize.ShloMosaic.Lib.ValueIdx

noncomputable section

namespace Cert.Concat

open Idealize.ShloMosaic Idealize.ShloMosaic.ValueIdx

variable {α : Type}

abbrev Sh2 (a b : ℕ) : Shape := ⟨2, ![a, b]⟩

theorem cat3_at0 {E A B D T : ℕ} (xa : (Sh2 E A).Idx → α) (xb : (Sh2 E B).Idx → α) (xd : (Sh2 E D).Idx → α)
    (h : Shape.Concatenates (([⟨Sh2 E A, xa⟩, ⟨Sh2 E B, xb⟩, ⟨Sh2 E D, xd⟩] : List ((s : Shape) × (s.Idx → α))).map (·.1)) (Sh2 E T) 1)
    (e : Fin E) (k : Fin A) (hk : k.val < T) :
    concatenate (Sh2 E T) 1 [⟨Sh2 E A, xa⟩, ⟨Sh2 E B, xb⟩, ⟨Sh2 E D, xd⟩] h (ix2 e ⟨k.val, hk⟩) = xa (ix2 e k) :=
  concatenate_apply_piece 1 _ h _ 0 (by simp) (Sh2 E A) xa rfl rfl 0 rfl (ix2 e k)
    (fun b hb => match b with | ⟨0, _⟩ => rfl | ⟨1, _⟩ => absurd rfl hb) (Nat.zero_add _)

theorem cat3_at1 {E A B D T : ℕ} (xa : (Sh2 E A).Idx → α) (xb : (Sh2 E B).Idx → α) (xd : (Sh2 E D).Idx → α)
    (h : Shape.Concatenates (([⟨Sh2 E A, xa⟩, ⟨Sh2 E B, xb⟩, ⟨Sh2 E D, xd⟩] : List ((s : Shape) × (s.Idx → α))).map (·.1)) (Sh2 E T) 1)
    (e : Fin E) (k : Fin B) (hk : A + k.val < T) :
    concatenate (Sh2 E T) 1 [⟨Sh2 E A, xa⟩, ⟨Sh2 E B, xb⟩, ⟨Sh2 E D, xd⟩] h (ix2 e ⟨A + k.val, hk⟩) = xb (ix2 e k) :=
  concatenate_apply_piece 1 _ h _ 1 (by simp) (Sh2 E B) xb rfl rfl A (by simp) (ix2 e k)
    (fun b hb => match b with | ⟨0, _⟩ => rfl | ⟨1, _⟩ => absurd rfl hb) rfl

theorem cat3_at2 {E A B D T : ℕ} (xa : (Sh2 E A).Idx → α) (xb : (Sh2 E B).Idx → α) (xd : (Sh2 E D).Idx → α)
    (h : Shape.Concatenates (([⟨Sh2 E A, xa⟩, ⟨Sh2 E B, xb⟩, ⟨Sh2 E D, xd⟩] : List ((s : Shape) × (s.Idx → α))).map (·.1)) (Sh2 E T) 1)
    (e : Fin E) (k : Fin D) (hk : A + B + k.val < T) :
    concatenate (Sh2 E T) 1 [⟨Sh2 E A, xa⟩, ⟨Sh2 E B, xb⟩, ⟨Sh2 E D, xd⟩] h (ix2 e ⟨A + B + k.val, hk⟩) = xd (ix2 e k) :=
  concatenate_apply_piece 1 _ h _ 2 (by simp) (Sh2 E D) xd rfl rfl (A + B) (by simp) (ix2 e k)
    (fun b hb => match b with | ⟨0, _⟩ => rfl | ⟨1, _⟩ => absurd rfl hb) rfl

theorem cat2_at0 {E A B T : ℕ} (xa : (Sh2 E A).Idx → α) (xb : (Sh2 E B).Idx → α)
    (h : Shape.Concatenates (([⟨Sh2 E A, xa⟩, ⟨Sh2 E B, xb⟩] : List ((s : Shape) × (s.Idx → α))).map (·.1)) (Sh2 E T) 1)
    (e : Fin E) (k : Fin A) (hk : k.val < T) :
    concatenate (Sh2 E T) 1 [⟨Sh2 E A, xa⟩, ⟨Sh2 E B, xb⟩] h (ix2 e ⟨k.val, hk⟩) = xa (ix2 e k) :=
  concatenate_apply_piece 1 _ h _ 0 (by simp) (Sh2 E A) xa rfl rfl 0 rfl (ix2 e k)
    (fun b hb => match b with | ⟨0, _⟩ => rfl | ⟨1, _⟩ => absurd rfl hb) (Nat.zero_add _)

theorem cat2_at1 {E A B T : ℕ} (xa : (Sh2 E A).Idx → α) (xb : (Sh2 E B).Idx → α)
    (h : Shape.Concatenates (([⟨Sh2 E A, xa⟩, ⟨Sh2 E B, xb⟩] : List ((s : Shape) × (s.Idx → α))).map (·.1)) (Sh2 E T) 1)
    (e : Fin E) (k : Fin B) (hk : A + k.val < T) :
    concatenate (Sh2 E T) 1 [⟨Sh2 E A, xa⟩, ⟨Sh2 E B, xb⟩] h (ix2 e ⟨A + k.val, hk⟩) = xb (ix2 e k) :=
  concatenate_apply_piece 1 _ h _ 1 (by simp) (Sh2 E B) xb rfl rfl A (by simp) (ix2 e k)
    (fun b hb => match b with | ⟨0, _⟩ => rfl | ⟨1, _⟩ => absurd rfl hb) rfl

end Cert.Concat

end
-- ==== Proof.Law.lean ====
/-
  The three laws that join the two programs on the extended reals.

  * A sum over a concatenated axis is the sum of the sums over its pieces (`sum_fin_split2`, `sum_fin_split3`):
    a product of `[x_src, x_dst, e]` with a stacked weight matrix is the sum of the three products with the matrix's
    three row bands. Addition of extended reals is commutative and associative, so no finiteness is needed.
  * The mean over incoming edges: the sum times the reciprocal of `max deg 1` is the sum divided by `max deg 1`
    (`mul_recip_eq_div`), because the divisor is never zero; this holds at the infinities too.
-/
import Idealize.ShloMosaic.PureOps.Ideal
import Idealize.ShloMosaic.PureOps.Ideal.Laws

noncomputable section

namespace Cert.Law

open Idealize.ShloMosaic

/-- A sum over `Fin n` with `n = a + b` is the sum over the first `a` positions plus the sum over the last `b`. -/
theorem sum_fin_split2 {M : Type*} [AddCommMonoid M] (a b n : ℕ) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- The same for three consecutive bands. -/
theorem sum_fin_split3 {M : Type*} [AddCommMonoid M] (a b c n : ℕ) (h : a + b + c = n) (f : Fin n → M) :
    ∑ k : Fin n, f k
      = ((∑ k : Fin a, f ⟨k.val, by omega⟩) + ∑ k : Fin b, f ⟨a + k.val, by omega⟩) + ∑ k : Fin c, f ⟨a + b + k.val, by omega⟩ := by
  rw [sum_fin_split2 (a + b) c n h f, sum_fin_split2 a b (a + b) rfl (fun k => f ⟨k.val, by omega⟩)]

/-- The single-precision pattern of one is the real number one. -/
theorem ofBits_one_f32 : Ideal.ofBits .f32 0x3F800000#32 = 1 := by
  simp [Ideal.ofBits, Ideal.ieee, -EReal.coe_mul]; norm_num

/-- `max x 1` is never zero. -/
theorem max_one_ne_zero (x : EReal) : max x 1 ≠ 0 :=
  ne_of_gt (lt_of_lt_of_le zero_lt_one (le_max_right x 1))

/-- Off a zero divisor, multiplying by the reciprocal `1 / d` is dividing by `d`, for every extended real `s`. -/
theorem mul_recip_eq_div (s d : EReal) (hd : d ≠ 0) : s * Ideal.div 1 d = Ideal.div s d := by
  rw [Ideal.div, Ideal.div, if_neg hd, if_neg hd, one_mul]

end Cert.Law

end
-- ==== Proof.DotCat.lean ====
/-
  A row of a column-wise concatenation times a column of a stacked weight matrix is the sum of the pieces' rows times
  the matching bands of the matrix: the sum over the joined axis splits at the pieces' boundaries, and in each part
  the concatenation reads one piece. On the extended reals this needs only that addition is commutative and
  associative.
-/
import proofs.«100581_j48619029791202_2_alg».proof.Proof.Spec
import proofs.«100581_j48619029791202_2_alg».proof.Proof.Concat
import proofs.«100581_j48619029791202_2_alg».proof.Proof.Law

noncomputable section

namespace Cert.Spec

open Idealize.ShloMosaic Idealize.ShloMosaic.ValueIdx Cert.Law Cert.Concat

theorem dot_cat3 {E A B D T N : ℕ} (hT : A + B + D = T) (oB oD : ℕ) (hoB : A = oB) (hoD : A + B = oD)
    (xa : (Sh2 E A).Idx → EReal) (xb : (Sh2 E B).Idx → EReal) (xd : (Sh2 E D).Idx → EReal)
    (h : Shape.Concatenates (([⟨Sh2 E A, xa⟩, ⟨Sh2 E B, xb⟩, ⟨Sh2 E D, xd⟩] : List ((s : Shape) × (s.Idx → EReal))).map (·.1)) (Sh2 E T) 1)
    (W : (Sh2 T N).Idx → EReal) (e : Fin E) (q : Fin N) :
    (∑ k : Fin T, concatenate (Sh2 E T) 1 [⟨Sh2 E A, xa⟩, ⟨Sh2 E B, xb⟩, ⟨Sh2 E D, xd⟩] h (ix2 e k) * W (ix2 k q))
      = (dotRC xa (band A 0 (by omega) W) e q + dotRC xb (band B oB (by omega) W) e q) + dotRC xd (band D oD (by omega) W) e q := by
  subst hoB hoD
  rw [sum_fin_split3 A B D T hT]
  unfold dotRC
  refine congrArg₂ (· + ·) (congrArg₂ (· + ·) ?_ ?_) ?_
  · refine Finset.sum_congr rfl fun k _ => ?_
    rw [band0_apply, cat3_at0]
  · refine Finset.sum_congr rfl fun k _ => ?_
    rw [band_apply, cat3_at1]
  · refine Finset.sum_congr rfl fun k _ => ?_
    rw [band_apply, cat3_at2]

theorem dot_cat2 {E A B T N : ℕ} (hT : A + B = T) (oB : ℕ) (hoB : A = oB)
    (xa : (Sh2 E A).Idx → EReal) (xb : (Sh2 E B).Idx → EReal)
    (h : Shape.Concatenates (([⟨Sh2 E A, xa⟩, ⟨Sh2 E B, xb⟩] : List ((s : Shape) × (s.Idx → EReal))).map (·.1)) (Sh2 E T) 1)
    (W : (Sh2 T N).Idx → EReal) (e : Fin E) (q : Fin N) :
    (∑ k : Fin T, concatenate (Sh2 E T) 1 [⟨Sh2 E A, xa⟩, ⟨Sh2 E B, xb⟩] h (ix2 e k) * W (ix2 k q))
      = dotRC xa (band A 0 (by omega) W) e q + dotRC xb (band B oB (by omega) W) e q := by
  subst hoB
  rw [sum_fin_split2 A B T hT]
  unfold dotRC
  refine congrArg₂ (· + ·) ?_ ?_
  · refine Finset.sum_congr rfl fun k _ => ?_
    rw [band0_apply, cat2_at0]
  · refine Finset.sum_congr rfl fun k _ => ?_
    rw [band_apply, cat2_at1]

end Cert.Spec

end
-- ==== Proof.RefForms.lean ====
/-
  The reference, layer by layer, in the network's own terms (Spec): each edge message is `edgeG` of the gathered
  features, the edge attributes and the three bands of the stacked weight matrix; each mean is the scattered sum
  divided by `max deg 1`; each node update is `nodeG` of the features, the mean and the two bands; the head is
  `denseG` then `outG`. The only law used is that a sum over a concatenated axis splits at the pieces' boundaries.
-/
import proofs.«100581_j48619029791202_2_alg».proof.Proof.RefRead
import proofs.«100581_j48619029791202_2_alg».proof.Proof.Spec
import proofs.«100581_j48619029791202_2_alg».proof.Proof.DotCat
import proofs.«100581_j48619029791202_2_alg».proof.Proof.Law

set_option maxRecDepth 16384

noncomputable section

namespace Cert.ReferenceIdeal.Forms

open Cert.ReferenceIdeal Cert.ReferenceIdeal.ReadP Idealize.ShloMosaic Idealize.ShloMosaic.ValueIdx Cert.Spec Cert.Law

/-- Layer 1's edge message in the reference: the product with the stacked weight matrix splits into the three bands. -/
theorem edge1 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) :
    (val_main_v23 (F := Ideal) x0 x1 x2 x3 x4) = edgeG 400000 128 32 (val_main_v10 (F := Ideal) x0 x1) (val_main_v17 (F := Ideal) x0 x1) x2
      (band 128 0 (by decide) x3) (band 128 128 (by decide) x3) (band 32 256 (by decide) x3) (rowvec x4) := by
  funext i
  rw [val_main_v23_apply, val_main_v22_apply, val_main_v19_apply, val_main_v21_apply, val_main_v20_apply,
    val_main_call0_v0_apply, val_main_call0_cst_apply]
  have hl : ∀ k : Fin 288, lidx_main_v19 i k = ix2 (row i) k := fun k => funext fun a => match a with
    | ⟨0, _⟩ => rfl
    | ⟨1, _⟩ => rfl
  have hr : ∀ k : Fin 288, ridx_main_v19 i k = ix2 k (col i) := fun k => funext fun a => match a with
    | ⟨0, _⟩ => rfl
    | ⟨1, _⟩ => rfl
  have hb : idx_main_v20 (idx_main_v21 i) = ix1 (col i) := funext fun a => match a with
    | ⟨0, _⟩ => rfl
  simp only [hl, hr, hb]
  unfold val_main_v18
  rw [dot_cat3 (by rfl) 128 256 rfl rfl]
  show max (_ + _) (Ideal.ofBits .f32 0x00000000#32) = _
  rw [Ideal.ofBits_zero_f32]
  rfl

/-- Layer 1's mean over incoming edges in the reference, index by index: the sum divided by `max deg 1`. -/
theorem agg1 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (i : S50000x256.Idx) :
    (val_main_v35 (F := Ideal) x0 x1 x2 x3 x4) i = Ideal.div ((val_main_v26 (F := Ideal) x0 x1 x2 x3 x4) i) (max ((val_main_v30 (F := Ideal) x1) (ix1 (row i))) 1) := by
  rw [val_main_v35_apply, val_main_v34_apply, val_main_v33_apply, val_main_v32_apply, val_main_v31_apply, val_main_cst_5_apply]
  have hi : idx_main_v33 (idx_main_v34 i) = ix1 (row i) := funext fun a => match a with
    | ⟨0, _⟩ => rfl
  rw [hi]
  show Ideal.div _ (max _ (Ideal.ofBits .f32 0x3F800000#32)) = _
  rw [ofBits_one_f32]

/-- Layer 1's node update in the reference: the product with the stacked weight matrix splits into the two bands. -/
theorem node1 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) :
    (val_main_v41 (F := Ideal) x0 x1 x2 x3 x4 x5 x6) = nodeG 50000 128 x0 (val_main_v35 (F := Ideal) x0 x1 x2 x3 x4)
      (band 128 0 (by decide) x5) (band 256 128 (by decide) x5) (rowvec x6) := by
  funext i
  rw [val_main_v41_apply, val_main_v40_apply, val_main_v37_apply, val_main_v39_apply, val_main_v38_apply,
    val_main_call1_v0_apply, val_main_call1_cst_apply]
  have hl : ∀ k : Fin 384, lidx_main_v37 i k = ix2 (row i) k := fun k => funext fun a => match a with
    | ⟨0, _⟩ => rfl
    | ⟨1, _⟩ => rfl
  have hr : ∀ k : Fin 384, ridx_main_v37 i k = ix2 k (col i) := fun k => funext fun a => match a with
    | ⟨0, _⟩ => rfl
    | ⟨1, _⟩ => rfl
  have hb : idx_main_v38 (idx_main_v39 i) = ix1 (col i) := funext fun a => match a with
    | ⟨0, _⟩ => rfl
  simp only [hl, hr, hb]
  unfold val_main_v36
  rw [dot_cat2 (by rfl) 128 rfl]
  show max (_ + _) (Ideal.ofBits .f32 0x00000000#32) = _
  rw [Ideal.ofBits_zero_f32]
  rfl

/-- Layer 2's edge message in the reference: the product with the stacked weight matrix splits into the three bands. -/
theorem edge2 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) :
    (val_main_v69 (F := Ideal) x0 x1 x2 x3 x4 x5 x6 x7 x8) = edgeG 400000 256 32 (val_main_v56 (F := Ideal) x0 x1 x2 x3 x4 x5 x6) (val_main_v63 (F := Ideal) x0 x1 x2 x3 x4 x5 x6) x2
      (band 256 0 (by decide) (val_main_v43 (F := Ideal) x7)) (band 256 256 (by decide) (val_main_v43 (F := Ideal) x7)) (band 32 512 (by decide) (val_main_v43 (F := Ideal) x7)) (rowvec (val_main_v45 (F := Ideal) x8)) := by
  funext i
  rw [val_main_v69_apply, val_main_v68_apply, val_main_v65_apply, val_main_v67_apply, val_main_v66_apply,
    val_main_call2_v0_apply, val_main_call2_cst_apply]
  have hl : ∀ k : Fin 544, lidx_main_v65 i k = ix2 (row i) k := fun k => funext fun a => match a with
    | ⟨0, _⟩ => rfl
    | ⟨1, _⟩ => rfl
  have hr : ∀ k : Fin 544, ridx_main_v65 i k = ix2 k (col i) := fun k => funext fun a => match a with
    | ⟨0, _⟩ => rfl
    | ⟨1, _⟩ => rfl
  have hb : idx_main_v66 (idx_main_v67 i) = ix1 (col i) := funext fun a => match a with
    | ⟨0, _⟩ => rfl
  simp only [hl, hr, hb]
  unfold val_main_v64
  rw [dot_cat3 (by rfl) 256 512 rfl rfl]
  show max (_ + _) (Ideal.ofBits .f32 0x00000000#32) = _
  rw [Ideal.ofBits_zero_f32]
  rfl

/-- Layer 2's mean over incoming edges in the reference, index by index: the sum divided by `max deg 1`. -/
theorem agg2 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (i : S50000x256.Idx) :
    (val_main_v81 (F := Ideal) x0 x1 x2 x3 x4 x5 x6 x7 x8) i = Ideal.div ((val_main_v72 (F := Ideal) x0 x1 x2 x3 x4 x5 x6 x7 x8) i) (max ((val_main_v76 (F := Ideal) x1) (ix1 (row i))) 1) := by
  rw [val_main_v81_apply, val_main_v80_apply, val_main_v79_apply, val_main_v78_apply, val_main_v77_apply, val_main_cst_13_apply]
  have hi : idx_main_v79 (idx_main_v80 i) = ix1 (row i) := funext fun a => match a with
    | ⟨0, _⟩ => rfl
  rw [hi]
  show Ideal.div _ (max _ (Ideal.ofBits .f32 0x3F800000#32)) = _
  rw [ofBits_one_f32]

/-- Layer 2's node update in the reference: the product with the stacked weight matrix splits into the two bands. -/
theorem node2 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) :
    (val_main_v87 (F := Ideal) x0 x1 x2 x3 x4 x5 x6 x7 x8 x9 x10) = nodeG 50000 256 (val_main_v41 (F := Ideal) x0 x1 x2 x3 x4 x5 x6) (val_main_v81 (F := Ideal) x0 x1 x2 x3 x4 x5 x6 x7 x8)
      (band 256 0 (by decide) (val_main_v47 (F := Ideal) x9)) (band 256 256 (by decide) (val_main_v47 (F := Ideal) x9)) (rowvec (val_main_v49 (F := Ideal) x10)) := by
  funext i
  rw [val_main_v87_apply, val_main_v86_apply, val_main_v83_apply, val_main_v85_apply, val_main_v84_apply,
    val_main_call3_v0_apply, val_main_call3_cst_apply]
  have hl : ∀ k : Fin 512, lidx_main_v83 i k = ix2 (row i) k := fun k => funext fun a => match a with
    | ⟨0, _⟩ => rfl
    | ⟨1, _⟩ => rfl
  have hr : ∀ k : Fin 512, ridx_main_v83 i k = ix2 k (col i) := fun k => funext fun a => match a with
    | ⟨0, _⟩ => rfl
    | ⟨1, _⟩ => rfl
  have hb : idx_main_v84 (idx_main_v85 i) = ix1 (col i) := funext fun a => match a with
    | ⟨0, _⟩ => rfl
  simp only [hl, hr, hb]
  unfold val_main_v82
  rw [dot_cat2 (by rfl) 256 rfl]
  show max (_ + _) (Ideal.ofBits .f32 0x00000000#32) = _
  rw [Ideal.ofBits_zero_f32]
  rfl

/-- Layer 3's edge message in the reference: the product with the stacked weight matrix splits into the three bands. -/
theorem edge3 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) :
    (val_main_v115 (F := Ideal) x0 x1 x2 x3 x4 x5 x6 x7 x8 x9 x10) = edgeG 400000 256 32 (val_main_v102 (F := Ideal) x0 x1 x2 x3 x4 x5 x6 x7 x8 x9 x10) (val_main_v109 (F := Ideal) x0 x1 x2 x3 x4 x5 x6 x7 x8 x9 x10) x2
      (band 256 0 (by decide) (val_main_v89 (F := Ideal) x7)) (band 256 256 (by decide) (val_main_v89 (F := Ideal) x7)) (band 32 512 (by decide) (val_main_v89 (F := Ideal) x7)) (rowvec (val_main_v91 (F := Ideal) x8)) := by
  funext i
  rw [val_main_v115_apply, val_main_v114_apply, val_main_v111_apply, val_main_v113_apply, val_main_v112_apply,
    val_main_call4_v0_apply, val_main_call4_cst_apply]
  have hl : ∀ k : Fin 544, lidx_main_v111 i k = ix2 (row i) k := fun k => funext fun a => match a with
    | ⟨0, _⟩ => rfl
    | ⟨1, _⟩ => rfl
  have hr : ∀ k : Fin 544, ridx_main_v111 i k = ix2 k (col i) := fun k => funext fun a => match a with
    | ⟨0, _⟩ => rfl
    | ⟨1, _⟩ => rfl
  have hb : idx_main_v112 (idx_main_v113 i) = ix1 (col i) := funext fun a => match a with
    | ⟨0, _⟩ => rfl
  simp only [hl, hr, hb]
  unfold val_main_v110
  rw [dot_cat3 (by rfl) 256 512 rfl rfl]
  show max (_ + _) (Ideal.ofBits .f32 0x00000000#32) = _
  rw [Ideal.ofBits_zero_f32]
  rfl

/-- Layer 3's mean over incoming edges in the reference, index by index: the sum divided by `max deg 1`. -/
theorem agg3 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) (i : S50000x256.Idx) :
    (val_main_v127 (F := Ideal) x0 x1 x2 x3 x4 x5 x6 x7 x8 x9 x10) i = Ideal.div ((val_main_v118 (F := Ideal) x0 x1 x2 x3 x4 x5 x6 x7 x8 x9 x10) i) (max ((val_main_v122 (F := Ideal) x1) (ix1 (row i))) 1) := by
  rw [val_main_v127_apply, val_main_v126_apply, val_main_v125_apply, val_main_v124_apply, val_main_v123_apply, val_main_cst_21_apply]
  have hi : idx_main_v125 (idx_main_v126 i) = ix1 (row i) := funext fun a => match a with
    | ⟨0, _⟩ => rfl
  rw [hi]
  show Ideal.div _ (max _ (Ideal.ofBits .f32 0x3F800000#32)) = _
  rw [ofBits_one_f32]

/-- Layer 3's node update in the reference: the product with the stacked weight matrix splits into the two bands. -/
theorem node3 (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) :
    (val_main_v133 (F := Ideal) x0 x1 x2 x3 x4 x5 x6 x7 x8 x9 x10) = nodeG 50000 256 (val_main_v87 (F := Ideal) x0 x1 x2 x3 x4 x5 x6 x7 x8 x9 x10) (val_main_v127 (F := Ideal) x0 x1 x2 x3 x4 x5 x6 x7 x8 x9 x10)
      (band 256 0 (by decide) (val_main_v93 (F := Ideal) x9)) (band 256 256 (by decide) (val_main_v93 (F := Ideal) x9)) (rowvec (val_main_v95 (F := Ideal) x10)) := by
  funext i
  rw [val_main_v133_apply, val_main_v132_apply, val_main_v129_apply, val_main_v131_apply, val_main_v130_apply,
    val_main_call5_v0_apply, val_main_call5_cst_apply]
  have hl : ∀ k : Fin 512, lidx_main_v129 i k = ix2 (row i) k := fun k => funext fun a => match a with
    | ⟨0, _⟩ => rfl
    | ⟨1, _⟩ => rfl
  have hr : ∀ k : Fin 512, ridx_main_v129 i k = ix2 k (col i) := fun k => funext fun a => match a with
    | ⟨0, _⟩ => rfl
    | ⟨1, _⟩ => rfl
  have hb : idx_main_v130 (idx_main_v131 i) = ix1 (col i) := funext fun a => match a with
    | ⟨0, _⟩ => rfl
  simp only [hl, hr, hb]
  unfold val_main_v128
  rw [dot_cat2 (by rfl) 256 rfl]
  show max (_ + _) (Ideal.ofBits .f32 0x00000000#32) = _
  rw [Ideal.ofBits_zero_f32]
  rfl

/-- The head's hidden layer in the reference. -/
theorem dense (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) (x11 : (⟨S256x256, .f32⟩ : BufTy).Contents (Elt Ideal)) (x12 : (⟨S256, .f32⟩ : BufTy).Contents (Elt Ideal)) :
    (val_main_v138 (F := Ideal) x0 x1 x2 x3 x4 x5 x6 x7 x8 x9 x10 x11 x12) = denseG 50000 (val_main_v133 (F := Ideal) x0 x1 x2 x3 x4 x5 x6 x7 x8 x9 x10) x11 (rowvec x12) := by
  funext i
  rw [val_main_v138_apply, val_main_v137_apply, val_main_v134_apply, val_main_v136_apply, val_main_v135_apply,
    val_main_call6_v0_apply, val_main_call6_cst_apply]
  have hl : ∀ k : Fin 256, lidx_main_v134 i k = ix2 (row i) k := fun k => funext fun a => match a with
    | ⟨0, _⟩ => rfl
    | ⟨1, _⟩ => rfl
  have hr : ∀ k : Fin 256, ridx_main_v134 i k = ix2 k (col i) := fun k => funext fun a => match a with
    | ⟨0, _⟩ => rfl
    | ⟨1, _⟩ => rfl
  have hb : idx_main_v135 (idx_main_v136 i) = ix1 (col i) := funext fun a => match a with
    | ⟨0, _⟩ => rfl
  simp only [hl, hr, hb]
  show max (_ + _) (Ideal.ofBits .f32 0x00000000#32) = _
  rw [Ideal.ofBits_zero_f32]
  rfl

/-- The head's output layer in the reference. -/
theorem out (x0 : (⟨S50000x128, .f32⟩ : BufTy).Contents (Elt Ideal)) (x1 : (⟨S2x400000, .i32⟩ : BufTy).Contents (Elt Ideal)) (x2 : (⟨S400000x32, .f32⟩ : BufTy).Contents (Elt Ideal)) (x3 : (⟨S288x256, .f32⟩ : BufTy).Contents (Elt Ideal)) (x4 : (⟨S256, .f32⟩ : BufTy).Contents (Elt Ideal)) (x5 : (⟨S384x256, .f32⟩ : BufTy).Contents (Elt Ideal)) (x6 : (⟨S256, .f32⟩ : BufTy).Contents (Elt Ideal)) (x7 : (⟨S2x544x256, .f32⟩ : BufTy).Contents (Elt Ideal)) (x8 : (⟨S2x256, .f32⟩ : BufTy).Contents (Elt Ideal)) (x9 : (⟨S2x512x256, .f32⟩ : BufTy).Contents (Elt Ideal)) (x10 : (⟨S2x256, .f32⟩ : BufTy).Contents (Elt Ideal)) (x11 : (⟨S256x256, .f32⟩ : BufTy).Contents (Elt Ideal)) (x12 : (⟨S256, .f32⟩ : BufTy).Contents (Elt Ideal)) (x13 : (⟨S256x1, .f32⟩ : BufTy).Contents (Elt Ideal)) (x14 : (⟨S1, .f32⟩ : BufTy).Contents (Elt Ideal)) :
    (val_main_v142 (F := Ideal) x0 x1 x2 x3 x4 x5 x6 x7 x8 x9 x10 x11 x12 x13 x14) = outG 50000 (val_main_v138 (F := Ideal) x0 x1 x2 x3 x4 x5 x6 x7 x8 x9 x10 x11 x12) x13 (rowvec x14) := by
  funext i
  rw [val_main_v142_apply, val_main_v139_apply, val_main_v141_apply, val_main_v140_apply]
  have hl : ∀ k : Fin 256, lidx_main_v139 i k = ix2 (row i) k := fun k => funext fun a => match a with
    | ⟨0, _⟩ => rfl
    | ⟨1, _⟩ => rfl
  have hr : ∀ k : Fin 256, ridx_main_v139 i k = ix2 k (col i) := fun k => funext fun a => match a with
    | ⟨0, _⟩ => rfl
    | ⟨1, _⟩ => rfl
  have hb : idx_main_v140 (idx_main_v141 i) = ix1 (col i) := funext fun a => match a with
    | ⟨0, _⟩ => Fin.ext (by have h : (i 1).val < 1 := (i 1).isLt; show 0 = (i 1).val; omega)
  simp only [hl, hr, hb]
  rfl

end Cert.ReferenceIdeal.Forms

end
-- ==== Proof.Mean.lean ====
/-
  The mean over incoming edges, in the two spellings.
  The kernel's program multiplies the scattered sum by `1 / max deg 1` (computed once, as a column); the reference
  divides it by `max deg 1`. Row by row the two agree on every extended real, because `max deg 1` is never zero:
  `s * (1 / d) = s / d` off a zero divisor, at the infinities too.
-/
import proofs.«100581_j48619029791202_2_alg».proof.ReferenceIdeal
import proofs.«100581_j48619029791202_2_alg».proof.Proof.Gen.ReferenceIdeal
import proofs.«100581_j48619029791202_2_alg».proof.Proof.Law
import Idealize.ShloMosaic.Lib.Pipeline.Value
import Idealize.ShloMosaic.Lib.ValueIdx

noncomputable section

namespace Cert.ReferenceIdeal.Mean

open Cert.ReferenceIdeal Cert.ReferenceIdeal.Gen Idealize.ShloMosaic Idealize.ShloMosaic.ValueIdx Cert.Law

/-- A per-node column broadcast over the 256 channels reads the node's entry. -/
theorem bcast_col (v : FVec Ideal S50000 .f32) (i : S50000x256.Idx) :
    broadcastInDim S50000x256 ![0, 1] bcast_S50000x1_S50000x256_0_1 (broadcastInDim S50000x1 ![0] bcast_S50000_S50000x1_0 v) i
      = v (ix1 ⟨(i 0).val, (i 0).isLt⟩) := by
  refine (broadcastInDim_apply _ bcast_S50000x1_S50000x256_0_1 _ i (ix2 ⟨(i 0).val, (i 0).isLt⟩ 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 v _ (ix1 ⟨(i 0).val, (i 0).isLt⟩) (fun a => match a with
    | ⟨0, _⟩ => by show (i 0).val = if (50000 : Nat) = 1 then 0 else (i 0).val; rw [if_neg (by decide)])

/-- The splat of one reads one. -/
theorem ones_apply (j : S50000.Idx) :
    broadcastInDim S50000 ![] bcast_S_S50000 (constant (F := Ideal) S_ .f32 0x3F800000#32) j = 1 := by
  refine (broadcastInDim_apply _ bcast_S_S50000 _ j ix0 (fun a => a.elim0)).trans ?_
  exact ofBits_one_f32

/-- Sum times the reciprocal column is sum over the divisor column. -/
theorem mean_eq (S : FVec Ideal S50000x256 .f32) (d : FVec Ideal S50000 .f32) (h : FTy.bf16.bits < FTy.f32.bits) :
    truncf .bf16 (mulf S (broadcastInDim S50000x256 ![0, 1] bcast_S50000x1_S50000x256_0_1 (broadcastInDim S50000x1 ![0] bcast_S50000_S50000x1_0
      (Host.divf (broadcastInDim S50000 ![] bcast_S_S50000 (constant S_ .f32 0x3F800000#32))
        (maximumf d (broadcastInDim S50000 ![] bcast_S_S50000 (constant S_ .f32 0x3F800000#32))))))) h
    = Host.divf S (broadcastInDim S50000x256 ![0, 1] bcast_S50000x1_S50000x256_0_1 (broadcastInDim S50000x1 ![0] bcast_S50000_S50000x1_0
        (maximumf d (broadcastInDim S50000 ![] bcast_S_S50000 (constant S_ .f32 0x3F800000#32))))) := by
  funext i
  show S i * _ = Ideal.div (S i) _
  rw [bcast_col, bcast_col]
  show S i * Ideal.div (broadcastInDim S50000 ![] bcast_S_S50000 (constant (F := Ideal) S_ .f32 0x3F800000#32) _)
      (max (d _) (broadcastInDim S50000 ![] bcast_S_S50000 (constant (F := Ideal) S_ .f32 0x3F800000#32) _))
    = Ideal.div (S i) (max (d _) (broadcastInDim S50000 ![] bcast_S_S50000 (constant (F := Ideal) S_ .f32 0x3F800000#32) _))
  rw [ones_apply]
  exact mul_recip_eq_div _ _ (max_one_ne_zero _)

end Cert.ReferenceIdeal.Mean

end
-- ==== Proof.Region4.lean ====
/-
  Region 4, an edge-message kernel, as one function of the arrays it finds.
  Grid point `t` of 100 stages rows `4000 t … 4000 t + 3999` of the two gathered node-feature arrays and of the edge
  attributes, the three weight bands and the bias whole, and writes rows `4000 t …` of the message array. At row `p`
  of the block and channel `q` the body's value is the rectified sum of three row-by-column products and the bias:
  the edge message (`Spec.edgeG`) of the staged blocks, which is the row block of the edge message of the whole
  arrays. The 100 blocks tile the 400000 rows, so the array ends at `Spec.edgeG` of the arrays the region found.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R4

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S4000x256_S256x256_S4000x256_1_0_0_1_n_n.contr.Idx) : (dot_S4000x256_S256x256_S4000x256_1_0_0_1_n_n.lhsIdx j k 0).val = (j 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dA_l1 (j : _) (k : dot_S4000x256_S256x256_S4000x256_1_0_0_1_n_n.contr.Idx) : (dot_S4000x256_S256x256_S4000x256_1_0_0_1_n_n.lhsIdx j k 1).val = (k ⟨0, by decide⟩).val :=
  dot_S4000x256_S256x256_S4000x256_1_0_0_1_n_n.lhsIdx_val_of_single rfl j k
theorem dA_r0 (j : _) (k : dot_S4000x256_S256x256_S4000x256_1_0_0_1_n_n.contr.Idx) : (dot_S4000x256_S256x256_S4000x256_1_0_0_1_n_n.rhsIdx j k 0).val = (k ⟨0, by decide⟩).val :=
  dot_S4000x256_S256x256_S4000x256_1_0_0_1_n_n.rhsIdx_val_of_single rfl j k
theorem dA_r1 (j : _) (k : dot_S4000x256_S256x256_S4000x256_1_0_0_1_n_n.contr.Idx) : (dot_S4000x256_S256x256_S4000x256_1_0_0_1_n_n.rhsIdx j k 1).val = (j 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

theorem dB_l0 (j : _) (k : dot_S4000x32_S32x256_S4000x256_1_0_0_1_n_n.contr.Idx) : (dot_S4000x32_S32x256_S4000x256_1_0_0_1_n_n.lhsIdx j k 0).val = (j 0).val := by
  unfold DotDims.lhsIdx
  rw [dif_neg (show ¬(0 : Fin S4000x32.rank) ∈ dot_S4000x32_S32x256_S4000x256_1_0_0_1_n_n.lhsBatch by decide), dif_pos (show (0 : Fin S4000x32.rank) ∈ dot_S4000x32_S32x256_S4000x256_1_0_0_1_n_n.lhsNonContracting by decide)]
  rfl
theorem dB_l1 (j : _) (k : dot_S4000x32_S32x256_S4000x256_1_0_0_1_n_n.contr.Idx) : (dot_S4000x32_S32x256_S4000x256_1_0_0_1_n_n.lhsIdx j k 1).val = (k ⟨0, by decide⟩).val :=
  dot_S4000x32_S32x256_S4000x256_1_0_0_1_n_n.lhsIdx_val_of_single rfl j k
theorem dB_r0 (j : _) (k : dot_S4000x32_S32x256_S4000x256_1_0_0_1_n_n.contr.Idx) : (dot_S4000x32_S32x256_S4000x256_1_0_0_1_n_n.rhsIdx j k 0).val = (k ⟨0, by decide⟩).val :=
  dot_S4000x32_S32x256_S4000x256_1_0_0_1_n_n.rhsIdx_val_of_single rfl j k
theorem dB_r1 (j : _) (k : dot_S4000x32_S32x256_S4000x256_1_0_0_1_n_n.contr.Idx) : (dot_S4000x32_S32x256_S4000x256_1_0_0_1_n_n.rhsIdx j k 1).val = (j 1).val := by
  unfold DotDims.rhsIdx
  rw [dif_neg (show ¬(1 : Fin S32x256.rank) ∈ dot_S4000x32_S32x256_S4000x256_1_0_0_1_n_n.rhsBatch by decide), dif_pos (show (1 : Fin S32x256.rank) ∈ dot_S4000x32_S32x256_S4000x256_1_0_0_1_n_n.rhsNonContracting by decide)]
  rfl

theorem zero_f32 : (Scalar.ofBits .f32 0x00000000#32 : Ideal .f32) = 0 := Ideal.ofBits_zero_f32

/-! ## The body's value: the edge message of the staged blocks -/

theorem bias_apply (x6 : Vec Ideal S1x256 .f32) (p : Fin 4000) (q : Fin 256) :
    broadcastTo S4000x256 (shapeCast S1x256 x6 shapeCasts_S1x256_S1x256) broadcasts_S1x256_S4000x256 (ix2 p q) = x6 (ix2 0 q) := by
  rw [shapeCast_self]
  exact broadcastTo_apply x6 broadcasts_S1x256_S4000x256 (ix2 p q) (ix2 0 q) (fun a => match a with
    | ⟨0, _⟩ => rfl
    | ⟨1, _⟩ => rfl)

theorem pay_apply (x0 x1 : Vec Ideal S4000x256 .bf16) (x2 : Vec Ideal S4000x32 .bf16) (x3 x4 : Vec Ideal S256x256 .f32)
    (x5 : Vec Ideal S32x256 .f32) (x6 : Vec Ideal S1x256 .f32) (p : Fin 4000) (q : Fin 256) :
    k4_pay1 (F := Ideal) x0 x1 x2 x3 x4 x5 x6 (ix2 p q)
      = max (((dotRC x0 x3 p q + dotRC x1 x4 p q) + dotRC x2 x5 p q) + x6 (ix2 0 q)) 0 := by
  unfold k4_pay1
  simp only [matmul, maximumf_apply, addf_apply, broadcast_apply]
  rw [matmul_zero_plain dot_S4000x256_S256x256_S4000x256_1_0_0_1_n_n rfl rfl dA_l0 dA_l1 dA_r0 dA_r1, matmul_zero_plain dot_S4000x256_S256x256_S4000x256_1_0_0_1_n_n rfl rfl dA_l0 dA_l1 dA_r0 dA_r1,
    matmul_zero_plain dot_S4000x32_S32x256_S4000x256_1_0_0_1_n_n rfl rfl dB_l0 dB_l1 dB_r0 dB_r1, bias_apply, zero_f32]
  simp only [shapeCast_self]
  rfl

theorem pay_eq (x0 x1 : Vec Ideal S4000x256 .bf16) (x2 : Vec Ideal S4000x32 .bf16) (x3 x4 : Vec Ideal S256x256 .f32)
    (x5 : Vec Ideal S32x256 .f32) (x6 : Vec Ideal S1x256 .f32) :
    k4_pay1 (F := Ideal) x0 x1 x2 x3 x4 x5 x6 = edgeG 4000 256 32 x0 x1 x2 x3 x4 x5 x6 := by
  funext y
  rw [eq_ix2_row_col y]
  exact pay_apply x0 x1 x2 x3 x4 x5 x6 (row y) (col y)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg4.N) : t.val < 100 := lt_of_lt_of_eq t.isLt N_4

/-- The rows of the arrays that grid point `t` works on. -/
def sel (t : Fin cfg4.N) : Fin 4000 → Fin 400000 := fun p => ⟨t.val * 4000 + p.val, by have := tlt t; omega⟩

/-! The printed index maps, decided over the 100 grid points: the row-blocked windows move with the point along the
    rows; the weights and the biases stay. -/

theorem idx_facts0 : ∀ t : Fin cfg4.N, win4_0.index t (0 : Fin 2) = t.val ∧ win4_0.index t (1 : Fin 2) = 0 :=
  (by decide +kernel : ∀ t : Fin grid4.N, _)

theorem idx_facts1 : ∀ t : Fin cfg4.N, win4_1.index t (0 : Fin 2) = t.val ∧ win4_1.index t (1 : Fin 2) = 0 :=
  (by decide +kernel : ∀ t : Fin grid4.N, _)

theorem idx_facts2 : ∀ t : Fin cfg4.N, win4_2.index t (0 : Fin 2) = t.val ∧ win4_2.index t (1 : Fin 2) = 0 :=
  (by decide +kernel : ∀ t : Fin grid4.N, _)

theorem idx_facts7 : ∀ t : Fin cfg4.N, win4_7.index t (0 : Fin 2) = t.val ∧ win4_7.index t (1 : Fin 2) = 0 :=
  (by decide +kernel : ∀ t : Fin grid4.N, _)

theorem idx_facts3 : ∀ t : Fin cfg4.N, win4_3.index t (0 : Fin 2) = 0 ∧ win4_3.index t (1 : Fin 2) = 0 :=
  (by decide +kernel : ∀ t : Fin grid4.N, _)

theorem idx_facts4 : ∀ t : Fin cfg4.N, win4_4.index t (0 : Fin 2) = 0 ∧ win4_4.index t (1 : Fin 2) = 0 :=
  (by decide +kernel : ∀ t : Fin grid4.N, _)

theorem idx_facts5 : ∀ t : Fin cfg4.N, win4_5.index t (0 : Fin 2) = 0 ∧ win4_5.index t (1 : Fin 2) = 0 :=
  (by decide +kernel : ∀ t : Fin grid4.N, _)

theorem idx_facts6 : ∀ t : Fin cfg4.N, win4_6.index t (0 : Fin 2) = 0 ∧ win4_6.index t (1 : Fin 2) = 0 :=
  (by decide +kernel : ∀ t : Fin grid4.N, _)

/-! A row-blocked window's block is the row block of its array; a weight's or a bias's block is the whole array. -/

theorem blk0 (c : Dev nD) (t : Fin cfg4.N) :
    (iblk4 V c 0 t : (Sh2 4000 256).Idx → EReal) = rowsOf (sel t) (V c main_v96) := by
  obtain ⟨e0, e1⟩ := idx_facts0 t
  funext y
  show V c main_v96 (((cfg4.win 0).blk t).view.emb y) = V c main_v96 (ix2 (sel t (row y)) (col y))
  refine congrArg (V c main_v96) (funext fun a => Fin.ext ?_)
  match a with
  | ⟨0, _⟩ =>
    show win4_0.index t (0 : Fin 2) * 4000 + 1 * (y 0).val = t.val * 4000 + (y 0).val
    rw [e0]; omega
  | ⟨1, _⟩ =>
    show win4_0.index t (1 : Fin 2) * 256 + 1 * (y 1).val = (y 1).val
    rw [e1]; omega

theorem blk1 (c : Dev nD) (t : Fin cfg4.N) :
    (iblk4 V c 1 t : (Sh2 4000 256).Idx → EReal) = rowsOf (sel t) (V c main_v103) := by
  obtain ⟨e0, e1⟩ := idx_facts1 t
  funext y
  show V c main_v103 (((cfg4.win 1).blk t).view.emb y) = V c main_v103 (ix2 (sel t (row y)) (col y))
  refine congrArg (V c main_v103) (funext fun a => Fin.ext ?_)
  match a with
  | ⟨0, _⟩ =>
    show win4_1.index t (0 : Fin 2) * 4000 + 1 * (y 0).val = t.val * 4000 + (y 0).val
    rw [e0]; omega
  | ⟨1, _⟩ =>
    show win4_1.index t (1 : Fin 2) * 256 + 1 * (y 1).val = (y 1).val
    rw [e1]; omega

theorem blk2 (c : Dev nD) (t : Fin cfg4.N) :
    (iblk4 V c 2 t : (Sh2 4000 32).Idx → EReal) = rowsOf (sel t) (V c main_v12) := by
  obtain ⟨e0, e1⟩ := idx_facts2 t
  funext y
  show V c main_v12 (((cfg4.win 2).blk t).view.emb y) = V c main_v12 (ix2 (sel t (row y)) (col y))
  refine congrArg (V c main_v12) (funext fun a => Fin.ext ?_)
  match a with
  | ⟨0, _⟩ =>
    show win4_2.index t (0 : Fin 2) * 4000 + 1 * (y 0).val = t.val * 4000 + (y 0).val
    rw [e0]; omega
  | ⟨1, _⟩ =>
    show win4_2.index t (1 : Fin 2) * 32 + 1 * (y 1).val = (y 1).val
    rw [e1]; omega

theorem blk3 (c : Dev nD) (t : Fin cfg4.N) :
    (iblk4 V c 3 t : (Sh2 256 256).Idx → EReal) = V c main_v104 := by
  obtain ⟨e0, e1⟩ := idx_facts3 t
  funext y
  show V c main_v104 (((cfg4.win 3).blk t).view.emb y) = V c main_v104 y
  refine congrArg (V c main_v104) (funext fun a => Fin.ext ?_)
  match a with
  | ⟨0, _⟩ =>
    show win4_3.index t (0 : Fin 2) * 256 + 1 * (y 0).val = (y 0).val
    rw [e0]; omega
  | ⟨1, _⟩ =>
    show win4_3.index t (1 : Fin 2) * 256 + 1 * (y 1).val = (y 1).val
    rw [e1]; omega

theorem blk4 (c : Dev nD) (t : Fin cfg4.N) :
    (iblk4 V c 4 t : (Sh2 256 256).Idx → EReal) = V c main_v105 := by
  obtain ⟨e0, e1⟩ := idx_facts4 t
  funext y
  show V c main_v105 (((cfg4.win 4).blk t).view.emb y) = V c main_v105 y
  refine congrArg (V c main_v105) (funext fun a => Fin.ext ?_)
  match a with
  | ⟨0, _⟩ =>
    show win4_4.index t (0 : Fin 2) * 256 + 1 * (y 0).val = (y 0).val
    rw [e0]; omega
  | ⟨1, _⟩ =>
    show win4_4.index t (1 : Fin 2) * 256 + 1 * (y 1).val = (y 1).val
    rw [e1]; omega

theorem blk5 (c : Dev nD) (t : Fin cfg4.N) :
    (iblk4 V c 5 t : (Sh2 32 256).Idx → EReal) = V c main_v106 := by
  obtain ⟨e0, e1⟩ := idx_facts5 t
  funext y
  show V c main_v106 (((cfg4.win 5).blk t).view.emb y) = V c main_v106 y
  refine congrArg (V c main_v106) (funext fun a => Fin.ext ?_)
  match a with
  | ⟨0, _⟩ =>
    show win4_5.index t (0 : Fin 2) * 32 + 1 * (y 0).val = (y 0).val
    rw [e0]; omega
  | ⟨1, _⟩ =>
    show win4_5.index t (1 : Fin 2) * 256 + 1 * (y 1).val = (y 1).val
    rw [e1]; omega

theorem blk6 (c : Dev nD) (t : Fin cfg4.N) :
    (iblk4 V c 6 t : (Sh2 1 256).Idx → EReal) = V c main_v107 := by
  obtain ⟨e0, e1⟩ := idx_facts6 t
  funext y
  show V c main_v107 (((cfg4.win 6).blk t).view.emb y) = V c main_v107 y
  refine congrArg (V c main_v107) (funext fun a => Fin.ext ?_)
  match a with
  | ⟨0, _⟩ =>
    show win4_6.index t (0 : Fin 2) * 1 + 1 * (y 0).val = (y 0).val
    rw [e0]; omega
  | ⟨1, _⟩ =>
    show win4_6.index t (1 : Fin 2) * 256 + 1 * (y 1).val = (y 1).val
    rw [e1]; omega

/-- Reading the output window's block `t` of an array is taking its rows `sel t`. -/
theorem read_out (t : Fin cfg4.N) (G : (Sh2 400000 256).Idx → EReal) :
    (((cfg4.win 7).blk t).view.read (Elt Ideal) G : (Sh2 4000 256).Idx → EReal) = rowsOf (sel t) G := by
  obtain ⟨e0, e1⟩ := idx_facts7 t
  funext y
  show G (((cfg4.win 7).blk t).view.emb y) = G (ix2 (sel t (row y)) (col y))
  refine congrArg G (funext fun a => Fin.ext ?_)
  match a with
  | ⟨0, _⟩ =>
    show win4_7.index t (0 : Fin 2) * 4000 + 1 * (y 0).val = t.val * 4000 + (y 0).val
    rw [e0]; omega
  | ⟨1, _⟩ =>
    show win4_7.index t (1 : Fin 2) * 256 + 1 * (y 1).val = (y 1).val
    rw [e1]; omega

/-- The message array as one function of the arrays the region finds. -/
def G (c : Dev nD) : (Sh2 400000 256).Idx → EReal :=
  edgeG 400000 256 32 (V c main_v96) (V c main_v103) (V c main_v12) (V c main_v104) (V c main_v105) (V c main_v106) (V c main_v107)

/-- The edge message of the row blocks is the row block of the edge message. -/
theorem G_rows (c : Dev nD) (t : Fin cfg4.N) :
    edgeG 4000 256 32 (rowsOf (sel t) (V c main_v96)) (rowsOf (sel t) (V c main_v103)) (rowsOf (sel t) (V c main_v12)) (V c main_v104) (V c main_v105) (V c main_v106) (V c main_v107)
      = rowsOf (sel t) (G V c) := rfl

/-- What point `t` writes back is block `t` of `G`. -/
theorem flushed_eq (c : Dev nD) (t : Fin cfg4.N) :
    (dat4 (F := Ideal) V c).flushed 7 t = ((cfg4.win 7).blk t).view.read (Elt Ideal) (G V c) := by
  show (cfg4.win 7).cut (grid4.coords t) ((dat4 (F := Ideal) V c).after 7 t) = _
  rw [after4_7]
  unfold out4_7
  rw [View.canon_unit_zero hz]
  simp only [View.ld_unit_zero (S := S4000x256) hz, View.ld_unit_zero (S := S4000x32) hz, View.ld_unit_zero (S := S256x256) hz, View.ld_unit_zero (S := S32x256) hz, View.ld_unit_zero (S := S1x256) hz]
  rw [pay_eq, blk0 V c t, blk1 V c t, blk2 V c t, blk3 V c t, blk4 V c t, blk5 V c t, blk6 V c t]
  exact (congrArg ((cfg4.win 7).cut (grid4.coords t)) (G_rows V c t)).trans (read_out t (G V c)).symm

/-- An index of the array is in point `t`'s block iff each coordinate is in the block's range on its axis. -/
theorem mem_blk (t : Fin cfg4.N) (i : S400000x256.Idx) :
    i ∈ ((cfg4.win 7).blk t).view.set ↔ ∀ a : Fin 2, win4_7.index t a * S4000x256.size a ≤ (i a).val ∧ (i a).val < win4_7.index t a * S4000x256.size a + S4000x256.size a := by
  show i ∈ ((View.whole main_v108).slice (win4_7.rect t)).set ↔ _
  rw [View.set_slice_whole, Rect.mem_set_unit]
  exact Iff.rfl

/-- Row `r` is in the block of point `r / 4000`: the 100 blocks tile the 400000 rows. -/
theorem cover (i : S400000x256.Idx) : ∃ t : Fin cfg4.N, (cfg4.win 7).flush t = true ∧ i ∈ ((cfg4.win 7).blk t).view.set := by
  have hi0 : (i 0).val < 400000 := (i 0).isLt
  have hi1 : (i 1).val < 256 := (i 1).isLt
  have hN : cfg4.N = 100 := N_4
  refine ⟨⟨(i 0).val / 4000, by rw [hN]; omega⟩, flush4_7 _, ?_⟩
  obtain ⟨e0, e1⟩ := idx_facts7 ⟨(i 0).val / 4000, by rw [hN]; omega⟩
  rw [mem_blk]
  intro a
  match a with
  | ⟨0, _⟩ =>
    show win4_7.index _ (0 : Fin 2) * 4000 ≤ (i 0).val ∧ (i 0).val < win4_7.index _ (0 : Fin 2) * 4000 + 4000
    rw [e0]
    show (i 0).val / 4000 * 4000 ≤ (i 0).val ∧ (i 0).val < (i 0).val / 4000 * 4000 + 4000
    omega
  | ⟨1, _⟩ =>
    show win4_7.index _ (1 : Fin 2) * 256 ≤ (i 1).val ∧ (i 1).val < win4_7.index _ (1 : Fin 2) * 256 + 256
    rw [e1]; omega

/-- The output array after the region: `G` of the arrays the region found. -/
theorem final (c : Dev nD) : (dat4 (F := Ideal) V c).arrAt 7 cfg4.N = G V c :=
  (dat4 (F := Ideal) V c).arrAt_eq_of_cover 7 (G V c) (fun t _ => flushed_eq V c t) (cover)

end Cert.KernelIdeal.R4

end
-- ==== Proof.Region3.lean ====
/-
  Region 3, a node-update kernel, as one function of the arrays it finds.
  Grid point `t` of 10 stages rows `5000 t … 5000 t + 4999` of the node features and of the aggregated messages, the
  two weight bands and the bias whole, and writes rows `5000 t …` of the new node features. At row `p` of the block and
  channel `q` the body's value is the rectified sum of two row-by-column products and the bias: the node update
  (`Spec.nodeG`) of the staged blocks, which is the row block of the node update of the whole arrays. The 10 blocks
  tile the 50000 rows, so the array ends at `Spec.nodeG` of the arrays the region found.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S5000x256_S256x256_S5000x256_1_0_0_1_n_n.contr.Idx) : (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dA_l1 (j : _) (k : dot_S5000x256_S256x256_S5000x256_1_0_0_1_n_n.contr.Idx) : (dot_S5000x256_S256x256_S5000x256_1_0_0_1_n_n.lhsIdx j k 1).val = (k ⟨0, by decide⟩).val :=
  dot_S5000x256_S256x256_S5000x256_1_0_0_1_n_n.lhsIdx_val_of_single rfl j k
theorem dA_r0 (j : _) (k : dot_S5000x256_S256x256_S5000x256_1_0_0_1_n_n.contr.Idx) : (dot_S5000x256_S256x256_S5000x256_1_0_0_1_n_n.rhsIdx j k 0).val = (k ⟨0, by decide⟩).val :=
  dot_S5000x256_S256x256_S5000x256_1_0_0_1_n_n.rhsIdx_val_of_single rfl j k
theorem dA_r1 (j : _) (k : dot_S5000x256_S256x256_S5000x256_1_0_0_1_n_n.contr.Idx) : (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem zero_f32 : (Scalar.ofBits .f32 0x00000000#32 : Ideal .f32) = 0 := Ideal.ofBits_zero_f32

/-! ## The body's value: the node update of the staged blocks -/

theorem bias_apply (x4 : Vec Ideal S1x256 .f32) (p : Fin 5000) (q : Fin 256) :
    broadcastTo S5000x256 (shapeCast S1x256 x4 shapeCasts_S1x256_S1x256) broadcasts_S1x256_S5000x256 (ix2 p q) = x4 (ix2 0 q) := by
  rw [shapeCast_self]
  exact broadcastTo_apply x4 broadcasts_S1x256_S5000x256 (ix2 p q) (ix2 0 q) (fun a => match a with
    | ⟨0, _⟩ => rfl
    | ⟨1, _⟩ => rfl)

theorem pay_apply (x0 : Vec Ideal S5000x256 .bf16) (x1 : Vec Ideal S5000x256 .bf16) (x2 : Vec Ideal S256x256 .f32)
    (x3 : Vec Ideal S256x256 .f32) (x4 : Vec Ideal S1x256 .f32) (p : Fin 5000) (q : Fin 256) :
    k3_pay1 (F := Ideal) x0 x1 x2 x3 x4 (ix2 p q)
      = max ((dotRC x0 x2 p q + dotRC x1 x3 p q) + x4 (ix2 0 q)) 0 := by
  unfold k3_pay1
  simp only [matmul, truncf_apply, maximumf_apply, addf_apply, broadcast_apply]
  rw [matmul_zero_plain dot_S5000x256_S256x256_S5000x256_1_0_0_1_n_n rfl rfl dA_l0 dA_l1 dA_r0 dA_r1, matmul_zero_plain dot_S5000x256_S256x256_S5000x256_1_0_0_1_n_n rfl rfl dA_l0 dA_l1 dA_r0 dA_r1,
    bias_apply, zero_f32]
  simp only [shapeCast_self]
  rfl

theorem pay_eq (x0 : Vec Ideal S5000x256 .bf16) (x1 : Vec Ideal S5000x256 .bf16) (x2 : Vec Ideal S256x256 .f32)
    (x3 : Vec Ideal S256x256 .f32) (x4 : Vec Ideal S1x256 .f32) :
    k3_pay1 (F := Ideal) x0 x1 x2 x3 x4 = nodeG 5000 256 x0 x1 x2 x3 x4 := by
  funext y
  rw [eq_ix2_row_col y]
  exact pay_apply x0 x1 x2 x3 x4 (row y) (col y)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg3.N) : t.val < 10 := lt_of_lt_of_eq t.isLt N_3

/-- The rows of the arrays that grid point `t` works on. -/
def sel (t : Fin cfg3.N) : Fin 5000 → Fin 50000 := fun p => ⟨t.val * 5000 + p.val, by have := tlt t; omega⟩

/-! The printed index maps, decided over the 10 grid points: the row-blocked windows move with the point along the
    rows; the weights and the biases stay. -/

theorem idx_facts0 : ∀ t : Fin cfg3.N, win3_0.index t (0 : Fin 2) = t.val ∧ win3_0.index t (1 : Fin 2) = 0 :=
  (by decide +kernel : ∀ t : Fin grid3.N, _)

theorem idx_facts1 : ∀ t : Fin cfg3.N, win3_1.index t (0 : Fin 2) = t.val ∧ win3_1.index t (1 : Fin 2) = 0 :=
  (by decide +kernel : ∀ t : Fin grid3.N, _)

theorem idx_facts5 : ∀ t : Fin cfg3.N, win3_5.index t (0 : Fin 2) = t.val ∧ win3_5.index t (1 : Fin 2) = 0 :=
  (by decide +kernel : ∀ t : Fin grid3.N, _)

theorem idx_facts2 : ∀ t : Fin cfg3.N, win3_2.index t (0 : Fin 2) = 0 ∧ win3_2.index t (1 : Fin 2) = 0 :=
  (by decide +kernel : ∀ t : Fin grid3.N, _)

theorem idx_facts3 : ∀ t : Fin cfg3.N, win3_3.index t (0 : Fin 2) = 0 ∧ win3_3.index t (1 : Fin 2) = 0 :=
  (by decide +kernel : ∀ t : Fin grid3.N, _)

theorem idx_facts4 : ∀ t : Fin cfg3.N, win3_4.index t (0 : Fin 2) = 0 ∧ win3_4.index t (1 : Fin 2) = 0 :=
  (by decide +kernel : ∀ t : Fin grid3.N, _)

/-! A row-blocked window's block is the row block of its array; a weight's or a bias's block is the whole array. -/

theorem blk0 (c : Dev nD) (t : Fin cfg3.N) :
    (iblk3 V c 0 t : (Sh2 5000 256).Idx → EReal) = rowsOf (sel t) (V c main_v43) := by
  obtain ⟨e0, e1⟩ := idx_facts0 t
  funext y
  show V c main_v43 (((cfg3.win 0).blk t).view.emb y) = V c main_v43 (ix2 (sel t (row y)) (col y))
  refine congrArg (V c main_v43) (funext fun a => Fin.ext ?_)
  match a with
  | ⟨0, _⟩ =>
    show win3_0.index t (0 : Fin 2) * 5000 + 1 * (y 0).val = t.val * 5000 + (y 0).val
    rw [e0]; omega
  | ⟨1, _⟩ =>
    show win3_0.index t (1 : Fin 2) * 256 + 1 * (y 1).val = (y 1).val
    rw [e1]; omega

theorem blk1 (c : Dev nD) (t : Fin cfg3.N) :
    (iblk3 V c 1 t : (Sh2 5000 256).Idx → EReal) = rowsOf (sel t) (V c main_v77) := by
  obtain ⟨e0, e1⟩ := idx_facts1 t
  funext y
  show V c main_v77 (((cfg3.win 1).blk t).view.emb y) = V c main_v77 (ix2 (sel t (row y)) (col y))
  refine congrArg (V c main_v77) (funext fun a => Fin.ext ?_)
  match a with
  | ⟨0, _⟩ =>
    show win3_1.index t (0 : Fin 2) * 5000 + 1 * (y 0).val = t.val * 5000 + (y 0).val
    rw [e0]; omega
  | ⟨1, _⟩ =>
    show win3_1.index t (1 : Fin 2) * 256 + 1 * (y 1).val = (y 1).val
    rw [e1]; omega

theorem blk2 (c : Dev nD) (t : Fin cfg3.N) :
    (iblk3 V c 2 t : (Sh2 256 256).Idx → EReal) = V c main_v78 := by
  obtain ⟨e0, e1⟩ := idx_facts2 t
  funext y
  show V c main_v78 (((cfg3.win 2).blk t).view.emb y) = V c main_v78 y
  refine congrArg (V c main_v78) (funext fun a => Fin.ext ?_)
  match a with
  | ⟨0, _⟩ =>
    show win3_2.index t (0 : Fin 2) * 256 + 1 * (y 0).val = (y 0).val
    rw [e0]; omega
  | ⟨1, _⟩ =>
    show win3_2.index t (1 : Fin 2) * 256 + 1 * (y 1).val = (y 1).val
    rw [e1]; omega

theorem blk3 (c : Dev nD) (t : Fin cfg3.N) :
    (iblk3 V c 3 t : (Sh2 256 256).Idx → EReal) = V c main_v79 := by
  obtain ⟨e0, e1⟩ := idx_facts3 t
  funext y
  show V c main_v79 (((cfg3.win 3).blk t).view.emb y) = V c main_v79 y
  refine congrArg (V c main_v79) (funext fun a => Fin.ext ?_)
  match a with
  | ⟨0, _⟩ =>
    show win3_3.index t (0 : Fin 2) * 256 + 1 * (y 0).val = (y 0).val
    rw [e0]; omega
  | ⟨1, _⟩ =>
    show win3_3.index t (1 : Fin 2) * 256 + 1 * (y 1).val = (y 1).val
    rw [e1]; omega

theorem blk4 (c : Dev nD) (t : Fin cfg3.N) :
    (iblk3 V c 4 t : (Sh2 1 256).Idx → EReal) = V c main_v80 := by
  obtain ⟨e0, e1⟩ := idx_facts4 t
  funext y
  show V c main_v80 (((cfg3.win 4).blk t).view.emb y) = V c main_v80 y
  refine congrArg (V c main_v80) (funext fun a => Fin.ext ?_)
  match a with
  | ⟨0, _⟩ =>
    show win3_4.index t (0 : Fin 2) * 1 + 1 * (y 0).val = (y 0).val
    rw [e0]; omega
  | ⟨1, _⟩ =>
    show win3_4.index t (1 : Fin 2) * 256 + 1 * (y 1).val = (y 1).val
    rw [e1]; omega

/-- Reading the output window's block `t` of an array is taking its rows `sel t`. -/
theorem read_out (t : Fin cfg3.N) (G : (Sh2 50000 256).Idx → EReal) :
    (((cfg3.win 5).blk t).view.read (Elt Ideal) G : (Sh2 5000 256).Idx → EReal) = rowsOf (sel t) G := by
  obtain ⟨e0, e1⟩ := idx_facts5 t
  funext y
  show G (((cfg3.win 5).blk t).view.emb y) = G (ix2 (sel t (row y)) (col y))
  refine congrArg G (funext fun a => Fin.ext ?_)
  match a with
  | ⟨0, _⟩ =>
    show win3_5.index t (0 : Fin 2) * 5000 + 1 * (y 0).val = t.val * 5000 + (y 0).val
    rw [e0]; omega
  | ⟨1, _⟩ =>
    show win3_5.index t (1 : Fin 2) * 256 + 1 * (y 1).val = (y 1).val
    rw [e1]; omega

/-- The updated node features as one function of the arrays the region finds. -/
def G (c : Dev nD) : (Sh2 50000 256).Idx → EReal :=
  nodeG 50000 256 (V c main_v43) (V c main_v77) (V c main_v78) (V c main_v79) (V c main_v80)

/-- The node update of the row blocks is the row block of the node update. -/
theorem G_rows (c : Dev nD) (t : Fin cfg3.N) :
    nodeG 5000 256 (rowsOf (sel t) (V c main_v43)) (rowsOf (sel t) (V c main_v77)) (V c main_v78) (V c main_v79) (V c main_v80)
      = rowsOf (sel t) (G V c) := rfl

/-- What point `t` writes back is block `t` of `G`. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S5000x256) hz, View.ld_unit_zero (S := S256x256) hz, View.ld_unit_zero (S := S1x256) hz]
  rw [pay_eq, blk0 V c t, blk1 V c t, blk2 V c t, blk3 V c t, blk4 V c t]
  exact (congrArg ((cfg3.win 5).cut (grid3.coords t)) (G_rows V c t)).trans (read_out t (G V c)).symm

/-- An index of the array is in point `t`'s block iff each coordinate is in the block's range on its axis. -/
theorem mem_blk (t : Fin cfg3.N) (i : S50000x256.Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v81).slice (win3_5.rect t)).set ↔ _
  rw [View.set_slice_whole, Rect.mem_set_unit]
  exact Iff.rfl

/-- Row `r` is in the block of point `r / 5000`: the 10 blocks tile the 50000 rows. -/
theorem cover (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 10 := N_3
  refine ⟨⟨(i 0).val / 5000, by rw [hN]; omega⟩, flush3_5 _, ?_⟩
  obtain ⟨e0, e1⟩ := idx_facts5 ⟨(i 0).val / 5000, by rw [hN]; omega⟩
  rw [mem_blk]
  intro a
  match a with
  | ⟨0, _⟩ =>
    show win3_5.index _ (0 : Fin 2) * 5000 ≤ (i 0).val ∧ (i 0).val < win3_5.index _ (0 : Fin 2) * 5000 + 5000
    rw [e0]
    show (i 0).val / 5000 * 5000 ≤ (i 0).val ∧ (i 0).val < (i 0).val / 5000 * 5000 + 5000
    omega
  | ⟨1, _⟩ =>
    show win3_5.index _ (1 : Fin 2) * 256 ≤ (i 1).val ∧ (i 1).val < win3_5.index _ (1 : Fin 2) * 256 + 256
    rw [e1]; omega

/-- The output array after the region: `G` of the arrays the region found. -/
theorem final (c : Dev nD) : (dat3 (F := Ideal) V c).arrAt 5 cfg3.N = G V c :=
  (dat3 (F := Ideal) V c).arrAt_eq_of_cover 5 (G V c) (fun t _ => flushed_eq V c t) (cover)

end Cert.KernelIdeal.R3

end
-- ==== Proof.Region2.lean ====
/-
  Region 2, an edge-message kernel, as one function of the arrays it finds.
  Grid point `t` of 100 stages rows `4000 t … 4000 t + 3999` of the two gathered node-feature arrays and of the edge
  attributes, the three weight bands and the bias whole, and writes rows `4000 t …` of the message array. At row `p`
  of the block and channel `q` the body's value is the rectified sum of three row-by-column products and the bias:
  the edge message (`Spec.edgeG`) of the staged blocks, which is the row block of the edge message of the whole
  arrays. The 100 blocks tile the 400000 rows, so the array ends at `Spec.edgeG` of the arrays the region found.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S4000x256_S256x256_S4000x256_1_0_0_1_n_n.contr.Idx) : (dot_S4000x256_S256x256_S4000x256_1_0_0_1_n_n.lhsIdx j k 0).val = (j 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dA_l1 (j : _) (k : dot_S4000x256_S256x256_S4000x256_1_0_0_1_n_n.contr.Idx) : (dot_S4000x256_S256x256_S4000x256_1_0_0_1_n_n.lhsIdx j k 1).val = (k ⟨0, by decide⟩).val :=
  dot_S4000x256_S256x256_S4000x256_1_0_0_1_n_n.lhsIdx_val_of_single rfl j k
theorem dA_r0 (j : _) (k : dot_S4000x256_S256x256_S4000x256_1_0_0_1_n_n.contr.Idx) : (dot_S4000x256_S256x256_S4000x256_1_0_0_1_n_n.rhsIdx j k 0).val = (k ⟨0, by decide⟩).val :=
  dot_S4000x256_S256x256_S4000x256_1_0_0_1_n_n.rhsIdx_val_of_single rfl j k
theorem dA_r1 (j : _) (k : dot_S4000x256_S256x256_S4000x256_1_0_0_1_n_n.contr.Idx) : (dot_S4000x256_S256x256_S4000x256_1_0_0_1_n_n.rhsIdx j k 1).val = (j 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

theorem dB_l0 (j : _) (k : dot_S4000x32_S32x256_S4000x256_1_0_0_1_n_n.contr.Idx) : (dot_S4000x32_S32x256_S4000x256_1_0_0_1_n_n.lhsIdx j k 0).val = (j 0).val := by
  unfold DotDims.lhsIdx
  rw [dif_neg (show ¬(0 : Fin S4000x32.rank) ∈ dot_S4000x32_S32x256_S4000x256_1_0_0_1_n_n.lhsBatch by decide), dif_pos (show (0 : Fin S4000x32.rank) ∈ dot_S4000x32_S32x256_S4000x256_1_0_0_1_n_n.lhsNonContracting by decide)]
  rfl
theorem dB_l1 (j : _) (k : dot_S4000x32_S32x256_S4000x256_1_0_0_1_n_n.contr.Idx) : (dot_S4000x32_S32x256_S4000x256_1_0_0_1_n_n.lhsIdx j k 1).val = (k ⟨0, by decide⟩).val :=
  dot_S4000x32_S32x256_S4000x256_1_0_0_1_n_n.lhsIdx_val_of_single rfl j k
theorem dB_r0 (j : _) (k : dot_S4000x32_S32x256_S4000x256_1_0_0_1_n_n.contr.Idx) : (dot_S4000x32_S32x256_S4000x256_1_0_0_1_n_n.rhsIdx j k 0).val = (k ⟨0, by decide⟩).val :=
  dot_S4000x32_S32x256_S4000x256_1_0_0_1_n_n.rhsIdx_val_of_single rfl j k
theorem dB_r1 (j : _) (k : dot_S4000x32_S32x256_S4000x256_1_0_0_1_n_n.contr.Idx) : (dot_S4000x32_S32x256_S4000x256_1_0_0_1_n_n.rhsIdx j k 1).val = (j 1).val := by
  unfold DotDims.rhsIdx
  rw [dif_neg (show ¬(1 : Fin S32x256.rank) ∈ dot_S4000x32_S32x256_S4000x256_1_0_0_1_n_n.rhsBatch by decide), dif_pos (show (1 : Fin S32x256.rank) ∈ dot_S4000x32_S32x256_S4000x256_1_0_0_1_n_n.rhsNonContracting by decide)]
  rfl

theorem zero_f32 : (Scalar.ofBits .f32 0x00000000#32 : Ideal .f32) = 0 := Ideal.ofBits_zero_f32

/-! ## The body's value: the edge message of the staged blocks -/

theorem bias_apply (x6 : Vec Ideal S1x256 .f32) (p : Fin 4000) (q : Fin 256) :
    broadcastTo S4000x256 (shapeCast S1x256 x6 shapeCasts_S1x256_S1x256) broadcasts_S1x256_S4000x256 (ix2 p q) = x6 (ix2 0 q) := by
  rw [shapeCast_self]
  exact broadcastTo_apply x6 broadcasts_S1x256_S4000x256 (ix2 p q) (ix2 0 q) (fun a => match a with
    | ⟨0, _⟩ => rfl
    | ⟨1, _⟩ => rfl)

theorem pay_apply (x0 x1 : Vec Ideal S4000x256 .bf16) (x2 : Vec Ideal S4000x32 .bf16) (x3 x4 : Vec Ideal S256x256 .f32)
    (x5 : Vec Ideal S32x256 .f32) (x6 : Vec Ideal S1x256 .f32) (p : Fin 4000) (q : Fin 256) :
    k2_pay1 (F := Ideal) x0 x1 x2 x3 x4 x5 x6 (ix2 p q)
      = max (((dotRC x0 x3 p q + dotRC x1 x4 p q) + dotRC x2 x5 p q) + x6 (ix2 0 q)) 0 := by
  unfold k2_pay1
  simp only [matmul, maximumf_apply, addf_apply, broadcast_apply]
  rw [matmul_zero_plain dot_S4000x256_S256x256_S4000x256_1_0_0_1_n_n rfl rfl dA_l0 dA_l1 dA_r0 dA_r1, matmul_zero_plain dot_S4000x256_S256x256_S4000x256_1_0_0_1_n_n rfl rfl dA_l0 dA_l1 dA_r0 dA_r1,
    matmul_zero_plain dot_S4000x32_S32x256_S4000x256_1_0_0_1_n_n rfl rfl dB_l0 dB_l1 dB_r0 dB_r1, bias_apply, zero_f32]
  simp only [shapeCast_self]
  rfl

theorem pay_eq (x0 x1 : Vec Ideal S4000x256 .bf16) (x2 : Vec Ideal S4000x32 .bf16) (x3 x4 : Vec Ideal S256x256 .f32)
    (x5 : Vec Ideal S32x256 .f32) (x6 : Vec Ideal S1x256 .f32) :
    k2_pay1 (F := Ideal) x0 x1 x2 x3 x4 x5 x6 = edgeG 4000 256 32 x0 x1 x2 x3 x4 x5 x6 := by
  funext y
  rw [eq_ix2_row_col y]
  exact pay_apply x0 x1 x2 x3 x4 x5 x6 (row y) (col y)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg2.N) : t.val < 100 := lt_of_lt_of_eq t.isLt N_2

/-- The rows of the arrays that grid point `t` works on. -/
def sel (t : Fin cfg2.N) : Fin 4000 → Fin 400000 := fun p => ⟨t.val * 4000 + p.val, by have := tlt t; omega⟩

/-! The printed index maps, decided over the 100 grid points: the row-blocked windows move with the point along the
    rows; the weights and the biases stay. -/

theorem idx_facts0 : ∀ t : Fin cfg2.N, win2_0.index t (0 : Fin 2) = t.val ∧ win2_0.index t (1 : Fin 2) = 0 :=
  (by decide +kernel : ∀ t : Fin grid2.N, _)

theorem idx_facts1 : ∀ t : Fin cfg2.N, win2_1.index t (0 : Fin 2) = t.val ∧ win2_1.index t (1 : Fin 2) = 0 :=
  (by decide +kernel : ∀ t : Fin grid2.N, _)

theorem idx_facts2 : ∀ t : Fin cfg2.N, win2_2.index t (0 : Fin 2) = t.val ∧ win2_2.index t (1 : Fin 2) = 0 :=
  (by decide +kernel : ∀ t : Fin grid2.N, _)

theorem idx_facts7 : ∀ t : Fin cfg2.N, win2_7.index t (0 : Fin 2) = t.val ∧ win2_7.index t (1 : Fin 2) = 0 :=
  (by decide +kernel : ∀ t : Fin grid2.N, _)

theorem idx_facts3 : ∀ t : Fin cfg2.N, win2_3.index t (0 : Fin 2) = 0 ∧ win2_3.index t (1 : Fin 2) = 0 :=
  (by decide +kernel : ∀ t : Fin grid2.N, _)

theorem idx_facts4 : ∀ t : Fin cfg2.N, win2_4.index t (0 : Fin 2) = 0 ∧ win2_4.index t (1 : Fin 2) = 0 :=
  (by decide +kernel : ∀ t : Fin grid2.N, _)

theorem idx_facts5 : ∀ t : Fin cfg2.N, win2_5.index t (0 : Fin 2) = 0 ∧ win2_5.index t (1 : Fin 2) = 0 :=
  (by decide +kernel : ∀ t : Fin grid2.N, _)

theorem idx_facts6 : ∀ t : Fin cfg2.N, win2_6.index t (0 : Fin 2) = 0 ∧ win2_6.index t (1 : Fin 2) = 0 :=
  (by decide +kernel : ∀ t : Fin grid2.N, _)

/-! A row-blocked window's block is the row block of its array; a weight's or a bias's block is the whole array. -/

theorem blk0 (c : Dev nD) (t : Fin cfg2.N) :
    (iblk2 V c 0 t : (Sh2 4000 256).Idx → EReal) = rowsOf (sel t) (V c main_v58) := by
  obtain ⟨e0, e1⟩ := idx_facts0 t
  funext y
  show V c main_v58 (((cfg2.win 0).blk t).view.emb y) = V c main_v58 (ix2 (sel t (row y)) (col y))
  refine congrArg (V c main_v58) (funext fun a => Fin.ext ?_)
  match a with
  | ⟨0, _⟩ =>
    show win2_0.index t (0 : Fin 2) * 4000 + 1 * (y 0).val = t.val * 4000 + (y 0).val
    rw [e0]; omega
  | ⟨1, _⟩ =>
    show win2_0.index t (1 : Fin 2) * 256 + 1 * (y 1).val = (y 1).val
    rw [e1]; omega

theorem blk1 (c : Dev nD) (t : Fin cfg2.N) :
    (iblk2 V c 1 t : (Sh2 4000 256).Idx → EReal) = rowsOf (sel t) (V c main_v65) := by
  obtain ⟨e0, e1⟩ := idx_facts1 t
  funext y
  show V c main_v65 (((cfg2.win 1).blk t).view.emb y) = V c main_v65 (ix2 (sel t (row y)) (col y))
  refine congrArg (V c main_v65) (funext fun a => Fin.ext ?_)
  match a with
  | ⟨0, _⟩ =>
    show win2_1.index t (0 : Fin 2) * 4000 + 1 * (y 0).val = t.val * 4000 + (y 0).val
    rw [e0]; omega
  | ⟨1, _⟩ =>
    show win2_1.index t (1 : Fin 2) * 256 + 1 * (y 1).val = (y 1).val
    rw [e1]; omega

theorem blk2 (c : Dev nD) (t : Fin cfg2.N) :
    (iblk2 V c 2 t : (Sh2 4000 32).Idx → EReal) = rowsOf (sel t) (V c main_v12) := by
  obtain ⟨e0, e1⟩ := idx_facts2 t
  funext y
  show V c main_v12 (((cfg2.win 2).blk t).view.emb y) = V c main_v12 (ix2 (sel t (row y)) (col y))
  refine congrArg (V c main_v12) (funext fun a => Fin.ext ?_)
  match a with
  | ⟨0, _⟩ =>
    show win2_2.index t (0 : Fin 2) * 4000 + 1 * (y 0).val = t.val * 4000 + (y 0).val
    rw [e0]; omega
  | ⟨1, _⟩ =>
    show win2_2.index t (1 : Fin 2) * 32 + 1 * (y 1).val = (y 1).val
    rw [e1]; omega

theorem blk3 (c : Dev nD) (t : Fin cfg2.N) :
    (iblk2 V c 3 t : (Sh2 256 256).Idx → EReal) = V c main_v66 := by
  obtain ⟨e0, e1⟩ := idx_facts3 t
  funext y
  show V c main_v66 (((cfg2.win 3).blk t).view.emb y) = V c main_v66 y
  refine congrArg (V c main_v66) (funext fun a => Fin.ext ?_)
  match a with
  | ⟨0, _⟩ =>
    show win2_3.index t (0 : Fin 2) * 256 + 1 * (y 0).val = (y 0).val
    rw [e0]; omega
  | ⟨1, _⟩ =>
    show win2_3.index t (1 : Fin 2) * 256 + 1 * (y 1).val = (y 1).val
    rw [e1]; omega

theorem blk4 (c : Dev nD) (t : Fin cfg2.N) :
    (iblk2 V c 4 t : (Sh2 256 256).Idx → EReal) = V c main_v67 := by
  obtain ⟨e0, e1⟩ := idx_facts4 t
  funext y
  show V c main_v67 (((cfg2.win 4).blk t).view.emb y) = V c main_v67 y
  refine congrArg (V c main_v67) (funext fun a => Fin.ext ?_)
  match a with
  | ⟨0, _⟩ =>
    show win2_4.index t (0 : Fin 2) * 256 + 1 * (y 0).val = (y 0).val
    rw [e0]; omega
  | ⟨1, _⟩ =>
    show win2_4.index t (1 : Fin 2) * 256 + 1 * (y 1).val = (y 1).val
    rw [e1]; omega

theorem blk5 (c : Dev nD) (t : Fin cfg2.N) :
    (iblk2 V c 5 t : (Sh2 32 256).Idx → EReal) = V c main_v68 := by
  obtain ⟨e0, e1⟩ := idx_facts5 t
  funext y
  show V c main_v68 (((cfg2.win 5).blk t).view.emb y) = V c main_v68 y
  refine congrArg (V c main_v68) (funext fun a => Fin.ext ?_)
  match a with
  | ⟨0, _⟩ =>
    show win2_5.index t (0 : Fin 2) * 32 + 1 * (y 0).val = (y 0).val
    rw [e0]; omega
  | ⟨1, _⟩ =>
    show win2_5.index t (1 : Fin 2) * 256 + 1 * (y 1).val = (y 1).val
    rw [e1]; omega

theorem blk6 (c : Dev nD) (t : Fin cfg2.N) :
    (iblk2 V c 6 t : (Sh2 1 256).Idx → EReal) = V c main_v69 := by
  obtain ⟨e0, e1⟩ := idx_facts6 t
  funext y
  show V c main_v69 (((cfg2.win 6).blk t).view.emb y) = V c main_v69 y
  refine congrArg (V c main_v69) (funext fun a => Fin.ext ?_)
  match a with
  | ⟨0, _⟩ =>
    show win2_6.index t (0 : Fin 2) * 1 + 1 * (y 0).val = (y 0).val
    rw [e0]; omega
  | ⟨1, _⟩ =>
    show win2_6.index t (1 : Fin 2) * 256 + 1 * (y 1).val = (y 1).val
    rw [e1]; omega

/-- Reading the output window's block `t` of an array is taking its rows `sel t`. -/
theorem read_out (t : Fin cfg2.N) (G : (Sh2 400000 256).Idx → EReal) :
    (((cfg2.win 7).blk t).view.read (Elt Ideal) G : (Sh2 4000 256).Idx → EReal) = rowsOf (sel t) G := by
  obtain ⟨e0, e1⟩ := idx_facts7 t
  funext y
  show G (((cfg2.win 7).blk t).view.emb y) = G (ix2 (sel t (row y)) (col y))
  refine congrArg G (funext fun a => Fin.ext ?_)
  match a with
  | ⟨0, _⟩ =>
    show win2_7.index t (0 : Fin 2) * 4000 + 1 * (y 0).val = t.val * 4000 + (y 0).val
    rw [e0]; omega
  | ⟨1, _⟩ =>
    show win2_7.index t (1 : Fin 2) * 256 + 1 * (y 1).val = (y 1).val
    rw [e1]; omega

/-- The message array as one function of the arrays the region finds. -/
def G (c : Dev nD) : (Sh2 400000 256).Idx → EReal :=
  edgeG 400000 256 32 (V c main_v58) (V c main_v65) (V c main_v12) (V c main_v66) (V c main_v67) (V c main_v68) (V c main_v69)

/-- The edge message of the row blocks is the row block of the edge message. -/
theorem G_rows (c : Dev nD) (t : Fin cfg2.N) :
    edgeG 4000 256 32 (rowsOf (sel t) (V c main_v58)) (rowsOf (sel t) (V c main_v65)) (rowsOf (sel t) (V c main_v12)) (V c main_v66) (V c main_v67) (V c main_v68) (V c main_v69)
      = rowsOf (sel t) (G V c) := rfl

/-- What point `t` writes back is block `t` of `G`. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero hz]
  simp only [View.ld_unit_zero (S := S4000x256) hz, View.ld_unit_zero (S := S4000x32) hz, View.ld_unit_zero (S := S256x256) hz, View.ld_unit_zero (S := S32x256) hz, View.ld_unit_zero (S := S1x256) hz]
  rw [pay_eq, blk0 V c t, blk1 V c t, blk2 V c t, blk3 V c t, blk4 V c t, blk5 V c t, blk6 V c t]
  exact (congrArg ((cfg2.win 7).cut (grid2.coords t)) (G_rows V c t)).trans (read_out t (G V c)).symm

/-- An index of the array is in point `t`'s block iff each coordinate is in the block's range on its axis. -/
theorem mem_blk (t : Fin cfg2.N) (i : S400000x256.Idx) :
    i ∈ ((cfg2.win 7).blk t).view.set ↔ ∀ a : Fin 2, win2_7.index t a * S4000x256.size a ≤ (i a).val ∧ (i a).val < win2_7.index t a * S4000x256.size a + S4000x256.size a := by
  show i ∈ ((View.whole main_v70).slice (win2_7.rect t)).set ↔ _
  rw [View.set_slice_whole, Rect.mem_set_unit]
  exact Iff.rfl

/-- Row `r` is in the block of point `r / 4000`: the 100 blocks tile the 400000 rows. -/
theorem cover (i : S400000x256.Idx) : ∃ t : Fin cfg2.N, (cfg2.win 7).flush t = true ∧ i ∈ ((cfg2.win 7).blk t).view.set := by
  have hi0 : (i 0).val < 400000 := (i 0).isLt
  have hi1 : (i 1).val < 256 := (i 1).isLt
  have hN : cfg2.N = 100 := N_2
  refine ⟨⟨(i 0).val / 4000, by rw [hN]; omega⟩, flush2_7 _, ?_⟩
  obtain ⟨e0, e1⟩ := idx_facts7 ⟨(i 0).val / 4000, by rw [hN]; omega⟩
  rw [mem_blk]
  intro a
  match a with
  | ⟨0, _⟩ =>
    show win2_7.index _ (0 : Fin 2) * 4000 ≤ (i 0).val ∧ (i 0).val < win2_7.index _ (0 : Fin 2) * 4000 + 4000
    rw [e0]
    show (i 0).val / 4000 * 4000 ≤ (i 0).val ∧ (i 0).val < (i 0).val / 4000 * 4000 + 4000
    omega
  | ⟨1, _⟩ =>
    show win2_7.index _ (1 : Fin 2) * 256 ≤ (i 1).val ∧ (i 1).val < win2_7.index _ (1 : Fin 2) * 256 + 256
    rw [e1]; omega

/-- The output array after the region: `G` of the arrays the region found. -/
theorem final (c : Dev nD) : (dat2 (F := Ideal) V c).arrAt 7 cfg2.N = G V c :=
  (dat2 (F := Ideal) V c).arrAt_eq_of_cover 7 (G V c) (fun t _ => flushed_eq V c t) (cover)

end Cert.KernelIdeal.R2

end
-- ==== Proof.Region1.lean ====
/-
  Region 1, a node-update kernel, as one function of the arrays it finds.
  Grid point `t` of 10 stages rows `5000 t … 5000 t + 4999` of the node features and of the aggregated messages, the
  two weight bands and the bias whole, and writes rows `5000 t …` of the new node features. At row `p` of the block and
  channel `q` the body's value is the rectified sum of two row-by-column products and the bias: the node update
  (`Spec.nodeG`) of the staged blocks, which is the row block of the node update of the whole arrays. The 10 blocks
  tile the 50000 rows, so the array ends at `Spec.nodeG` of the arrays the region found.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S5000x128_S128x256_S5000x256_1_0_0_1_n_n.contr.Idx) : (dot_S5000x128_S128x256_S5000x256_1_0_0_1_n_n.lhsIdx j k 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem dA_l1 (j : _) (k : dot_S5000x128_S128x256_S5000x256_1_0_0_1_n_n.contr.Idx) : (dot_S5000x128_S128x256_S5000x256_1_0_0_1_n_n.lhsIdx j k 1).val = (k ⟨0, by decide⟩).val :=
  dot_S5000x128_S128x256_S5000x256_1_0_0_1_n_n.lhsIdx_val_of_single rfl j k
theorem dA_r0 (j : _) (k : dot_S5000x128_S128x256_S5000x256_1_0_0_1_n_n.contr.Idx) : (dot_S5000x128_S128x256_S5000x256_1_0_0_1_n_n.rhsIdx j k 0).val = (k ⟨0, by decide⟩).val :=
  dot_S5000x128_S128x256_S5000x256_1_0_0_1_n_n.rhsIdx_val_of_single rfl j k
theorem dA_r1 (j : _) (k : dot_S5000x128_S128x256_S5000x256_1_0_0_1_n_n.contr.Idx) : (dot_S5000x128_S128x256_S5000x256_1_0_0_1_n_n.rhsIdx j k 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem dB_l0 (j : _) (k : dot_S5000x256_S256x256_S5000x256_1_0_0_1_n_n.contr.Idx) : (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dB_l1 (j : _) (k : dot_S5000x256_S256x256_S5000x256_1_0_0_1_n_n.contr.Idx) : (dot_S5000x256_S256x256_S5000x256_1_0_0_1_n_n.lhsIdx j k 1).val = (k ⟨0, by decide⟩).val :=
  dot_S5000x256_S256x256_S5000x256_1_0_0_1_n_n.lhsIdx_val_of_single rfl j k
theorem dB_r0 (j : _) (k : dot_S5000x256_S256x256_S5000x256_1_0_0_1_n_n.contr.Idx) : (dot_S5000x256_S256x256_S5000x256_1_0_0_1_n_n.rhsIdx j k 0).val = (k ⟨0, by decide⟩).val :=
  dot_S5000x256_S256x256_S5000x256_1_0_0_1_n_n.rhsIdx_val_of_single rfl j k
theorem dB_r1 (j : _) (k : dot_S5000x256_S256x256_S5000x256_1_0_0_1_n_n.contr.Idx) : (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem zero_f32 : (Scalar.ofBits .f32 0x00000000#32 : Ideal .f32) = 0 := Ideal.ofBits_zero_f32

/-! ## The body's value: the node update of the staged blocks -/

theorem bias_apply (x4 : Vec Ideal S1x256 .f32) (p : Fin 5000) (q : Fin 256) :
    broadcastTo S5000x256 (shapeCast S1x256 x4 shapeCasts_S1x256_S1x256) broadcasts_S1x256_S5000x256 (ix2 p q) = x4 (ix2 0 q) := by
  rw [shapeCast_self]
  exact broadcastTo_apply x4 broadcasts_S1x256_S5000x256 (ix2 p q) (ix2 0 q) (fun a => match a with
    | ⟨0, _⟩ => rfl
    | ⟨1, _⟩ => rfl)

theorem pay_apply (x0 : Vec Ideal S5000x128 .bf16) (x1 : Vec Ideal S5000x256 .bf16) (x2 : Vec Ideal S128x256 .f32)
    (x3 : Vec Ideal S256x256 .f32) (x4 : Vec Ideal S1x256 .f32) (p : Fin 5000) (q : Fin 256) :
    k1_pay1 (F := Ideal) x0 x1 x2 x3 x4 (ix2 p q)
      = max ((dotRC x0 x2 p q + dotRC x1 x3 p q) + x4 (ix2 0 q)) 0 := by
  unfold k1_pay1
  simp only [matmul, truncf_apply, maximumf_apply, addf_apply, broadcast_apply]
  rw [matmul_zero_plain dot_S5000x128_S128x256_S5000x256_1_0_0_1_n_n rfl rfl dA_l0 dA_l1 dA_r0 dA_r1, matmul_zero_plain dot_S5000x256_S256x256_S5000x256_1_0_0_1_n_n rfl rfl dB_l0 dB_l1 dB_r0 dB_r1,
    bias_apply, zero_f32]
  simp only [shapeCast_self]
  rfl

theorem pay_eq (x0 : Vec Ideal S5000x128 .bf16) (x1 : Vec Ideal S5000x256 .bf16) (x2 : Vec Ideal S128x256 .f32)
    (x3 : Vec Ideal S256x256 .f32) (x4 : Vec Ideal S1x256 .f32) :
    k1_pay1 (F := Ideal) x0 x1 x2 x3 x4 = nodeG 5000 128 x0 x1 x2 x3 x4 := by
  funext y
  rw [eq_ix2_row_col y]
  exact pay_apply x0 x1 x2 x3 x4 (row y) (col y)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg1.N) : t.val < 10 := lt_of_lt_of_eq t.isLt N_1

/-- The rows of the arrays that grid point `t` works on. -/
def sel (t : Fin cfg1.N) : Fin 5000 → Fin 50000 := fun p => ⟨t.val * 5000 + p.val, by have := tlt t; omega⟩

/-! The printed index maps, decided over the 10 grid points: the row-blocked windows move with the point along the
    rows; the weights and the biases stay. -/

theorem idx_facts0 : ∀ t : Fin cfg1.N, win1_0.index t (0 : Fin 2) = t.val ∧ win1_0.index t (1 : Fin 2) = 0 :=
  (by decide +kernel : ∀ t : Fin grid1.N, _)

theorem idx_facts1 : ∀ t : Fin cfg1.N, win1_1.index t (0 : Fin 2) = t.val ∧ win1_1.index t (1 : Fin 2) = 0 :=
  (by decide +kernel : ∀ t : Fin grid1.N, _)

theorem idx_facts5 : ∀ t : Fin cfg1.N, win1_5.index t (0 : Fin 2) = t.val ∧ win1_5.index t (1 : Fin 2) = 0 :=
  (by decide +kernel : ∀ t : Fin grid1.N, _)

theorem idx_facts2 : ∀ t : Fin cfg1.N, win1_2.index t (0 : Fin 2) = 0 ∧ win1_2.index t (1 : Fin 2) = 0 :=
  (by decide +kernel : ∀ t : Fin grid1.N, _)

theorem idx_facts3 : ∀ t : Fin cfg1.N, win1_3.index t (0 : Fin 2) = 0 ∧ win1_3.index t (1 : Fin 2) = 0 :=
  (by decide +kernel : ∀ t : Fin grid1.N, _)

theorem idx_facts4 : ∀ t : Fin cfg1.N, win1_4.index t (0 : Fin 2) = 0 ∧ win1_4.index t (1 : Fin 2) = 0 :=
  (by decide +kernel : ∀ t : Fin grid1.N, _)

/-! A row-blocked window's block is the row block of its array; a weight's or a bias's block is the whole array. -/

theorem blk0 (c : Dev nD) (t : Fin cfg1.N) :
    (iblk1 V c 0 t : (Sh2 5000 128).Idx → EReal) = rowsOf (sel t) (V c main_v13) := by
  obtain ⟨e0, e1⟩ := idx_facts0 t
  funext y
  show V c main_v13 (((cfg1.win 0).blk t).view.emb y) = V c main_v13 (ix2 (sel t (row y)) (col y))
  refine congrArg (V c main_v13) (funext fun a => Fin.ext ?_)
  match a with
  | ⟨0, _⟩ =>
    show win1_0.index t (0 : Fin 2) * 5000 + 1 * (y 0).val = t.val * 5000 + (y 0).val
    rw [e0]; omega
  | ⟨1, _⟩ =>
    show win1_0.index t (1 : Fin 2) * 128 + 1 * (y 1).val = (y 1).val
    rw [e1]; omega

theorem blk1 (c : Dev nD) (t : Fin cfg1.N) :
    (iblk1 V c 1 t : (Sh2 5000 256).Idx → EReal) = rowsOf (sel t) (V c main_v39) := by
  obtain ⟨e0, e1⟩ := idx_facts1 t
  funext y
  show V c main_v39 (((cfg1.win 1).blk t).view.emb y) = V c main_v39 (ix2 (sel t (row y)) (col y))
  refine congrArg (V c main_v39) (funext fun a => Fin.ext ?_)
  match a with
  | ⟨0, _⟩ =>
    show win1_1.index t (0 : Fin 2) * 5000 + 1 * (y 0).val = t.val * 5000 + (y 0).val
    rw [e0]; omega
  | ⟨1, _⟩ =>
    show win1_1.index t (1 : Fin 2) * 256 + 1 * (y 1).val = (y 1).val
    rw [e1]; omega

theorem blk2 (c : Dev nD) (t : Fin cfg1.N) :
    (iblk1 V c 2 t : (Sh2 128 256).Idx → EReal) = V c main_v40 := by
  obtain ⟨e0, e1⟩ := idx_facts2 t
  funext y
  show V c main_v40 (((cfg1.win 2).blk t).view.emb y) = V c main_v40 y
  refine congrArg (V c main_v40) (funext fun a => Fin.ext ?_)
  match a with
  | ⟨0, _⟩ =>
    show win1_2.index t (0 : Fin 2) * 128 + 1 * (y 0).val = (y 0).val
    rw [e0]; omega
  | ⟨1, _⟩ =>
    show win1_2.index t (1 : Fin 2) * 256 + 1 * (y 1).val = (y 1).val
    rw [e1]; omega

theorem blk3 (c : Dev nD) (t : Fin cfg1.N) :
    (iblk1 V c 3 t : (Sh2 256 256).Idx → EReal) = V c main_v41 := by
  obtain ⟨e0, e1⟩ := idx_facts3 t
  funext y
  show V c main_v41 (((cfg1.win 3).blk t).view.emb y) = V c main_v41 y
  refine congrArg (V c main_v41) (funext fun a => Fin.ext ?_)
  match a with
  | ⟨0, _⟩ =>
    show win1_3.index t (0 : Fin 2) * 256 + 1 * (y 0).val = (y 0).val
    rw [e0]; omega
  | ⟨1, _⟩ =>
    show win1_3.index t (1 : Fin 2) * 256 + 1 * (y 1).val = (y 1).val
    rw [e1]; omega

theorem blk4 (c : Dev nD) (t : Fin cfg1.N) :
    (iblk1 V c 4 t : (Sh2 1 256).Idx → EReal) = V c main_v42 := by
  obtain ⟨e0, e1⟩ := idx_facts4 t
  funext y
  show V c main_v42 (((cfg1.win 4).blk t).view.emb y) = V c main_v42 y
  refine congrArg (V c main_v42) (funext fun a => Fin.ext ?_)
  match a with
  | ⟨0, _⟩ =>
    show win1_4.index t (0 : Fin 2) * 1 + 1 * (y 0).val = (y 0).val
    rw [e0]; omega
  | ⟨1, _⟩ =>
    show win1_4.index t (1 : Fin 2) * 256 + 1 * (y 1).val = (y 1).val
    rw [e1]; omega

/-- Reading the output window's block `t` of an array is taking its rows `sel t`. -/
theorem read_out (t : Fin cfg1.N) (G : (Sh2 50000 256).Idx → EReal) :
    (((cfg1.win 5).blk t).view.read (Elt Ideal) G : (Sh2 5000 256).Idx → EReal) = rowsOf (sel t) G := by
  obtain ⟨e0, e1⟩ := idx_facts5 t
  funext y
  show G (((cfg1.win 5).blk t).view.emb y) = G (ix2 (sel t (row y)) (col y))
  refine congrArg G (funext fun a => Fin.ext ?_)
  match a with
  | ⟨0, _⟩ =>
    show win1_5.index t (0 : Fin 2) * 5000 + 1 * (y 0).val = t.val * 5000 + (y 0).val
    rw [e0]; omega
  | ⟨1, _⟩ =>
    show win1_5.index t (1 : Fin 2) * 256 + 1 * (y 1).val = (y 1).val
    rw [e1]; omega

/-- The updated node features as one function of the arrays the region finds. -/
def G (c : Dev nD) : (Sh2 50000 256).Idx → EReal :=
  nodeG 50000 128 (V c main_v13) (V c main_v39) (V c main_v40) (V c main_v41) (V c main_v42)

/-- The node update of the row blocks is the row block of the node update. -/
theorem G_rows (c : Dev nD) (t : Fin cfg1.N) :
    nodeG 5000 128 (rowsOf (sel t) (V c main_v13)) (rowsOf (sel t) (V c main_v39)) (V c main_v40) (V c main_v41) (V c main_v42)
      = rowsOf (sel t) (G V c) := rfl

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S5000x256) hz, View.ld_unit_zero (S := S128x256) hz, View.ld_unit_zero (S := S256x256) hz, View.ld_unit_zero (S := S1x256) hz]
  rw [pay_eq, blk0 V c t, blk1 V c t, blk2 V c t, blk3 V c t, blk4 V c t]
  exact (congrArg ((cfg1.win 5).cut (grid1.coords t)) (G_rows V c t)).trans (read_out t (G V c)).symm

/-- An index of the array is in point `t`'s block iff each coordinate is in the block's range on its axis. -/
theorem mem_blk (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v43).slice (win1_5.rect t)).set ↔ _
  rw [View.set_slice_whole, Rect.mem_set_unit]
  exact Iff.rfl

/-- Row `r` is in the block of point `r / 5000`: the 10 blocks tile the 50000 rows. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 10 := N_1
  refine ⟨⟨(i 0).val / 5000, by rw [hN]; omega⟩, flush1_5 _, ?_⟩
  obtain ⟨e0, e1⟩ := idx_facts5 ⟨(i 0).val / 5000, by rw [hN]; omega⟩
  rw [mem_blk]
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 256 ≤ (i 1).val ∧ (i 1).val < win1_5.index _ (1 : Fin 2) * 256 + 256
    rw [e1]; omega

/-- The output array after the region: `G` of the arrays the region found. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.R1

end
-- ==== Proof.Region0.lean ====
/-
  Region 0, an edge-message kernel, as one function of the arrays it finds.
  Grid point `t` of 100 stages rows `4000 t … 4000 t + 3999` of the two gathered node-feature arrays and of the edge
  attributes, the three weight bands and the bias whole, and writes rows `4000 t …` of the message array. At row `p`
  of the block and channel `q` the body's value is the rectified sum of three row-by-column products and the bias:
  the edge message (`Spec.edgeG`) of the staged blocks, which is the row block of the edge message of the whole
  arrays. The 100 blocks tile the 400000 rows, so the array ends at `Spec.edgeG` of the arrays the region found.
-/
import proofs.«100581_j48619029791202_2_alg».proof.Proof.Gen.KernelIdeal.Frame
import proofs.«100581_j48619029791202_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The matrix products' operand indices -/

theorem dA_l0 (j : _) (k : dot_S4000x128_S128x256_S4000x256_1_0_0_1_n_n.contr.Idx) : (dot_S4000x128_S128x256_S4000x256_1_0_0_1_n_n.lhsIdx j k 0).val = (j 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem dA_l1 (j : _) (k : dot_S4000x128_S128x256_S4000x256_1_0_0_1_n_n.contr.Idx) : (dot_S4000x128_S128x256_S4000x256_1_0_0_1_n_n.lhsIdx j k 1).val = (k ⟨0, by decide⟩).val :=
  dot_S4000x128_S128x256_S4000x256_1_0_0_1_n_n.lhsIdx_val_of_single rfl j k
theorem dA_r0 (j : _) (k : dot_S4000x128_S128x256_S4000x256_1_0_0_1_n_n.contr.Idx) : (dot_S4000x128_S128x256_S4000x256_1_0_0_1_n_n.rhsIdx j k 0).val = (k ⟨0, by decide⟩).val :=
  dot_S4000x128_S128x256_S4000x256_1_0_0_1_n_n.rhsIdx_val_of_single rfl j k
theorem dA_r1 (j : _) (k : dot_S4000x128_S128x256_S4000x256_1_0_0_1_n_n.contr.Idx) : (dot_S4000x128_S128x256_S4000x256_1_0_0_1_n_n.rhsIdx j k 1).val = (j 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

theorem dB_l0 (j : _) (k : dot_S4000x32_S32x256_S4000x256_1_0_0_1_n_n.contr.Idx) : (dot_S4000x32_S32x256_S4000x256_1_0_0_1_n_n.lhsIdx j k 0).val = (j 0).val := by
  unfold DotDims.lhsIdx
  rw [dif_neg (show ¬(0 : Fin S4000x32.rank) ∈ dot_S4000x32_S32x256_S4000x256_1_0_0_1_n_n.lhsBatch by decide), dif_pos (show (0 : Fin S4000x32.rank) ∈ dot_S4000x32_S32x256_S4000x256_1_0_0_1_n_n.lhsNonContracting by decide)]
  rfl
theorem dB_l1 (j : _) (k : dot_S4000x32_S32x256_S4000x256_1_0_0_1_n_n.contr.Idx) : (dot_S4000x32_S32x256_S4000x256_1_0_0_1_n_n.lhsIdx j k 1).val = (k ⟨0, by decide⟩).val :=
  dot_S4000x32_S32x256_S4000x256_1_0_0_1_n_n.lhsIdx_val_of_single rfl j k
theorem dB_r0 (j : _) (k : dot_S4000x32_S32x256_S4000x256_1_0_0_1_n_n.contr.Idx) : (dot_S4000x32_S32x256_S4000x256_1_0_0_1_n_n.rhsIdx j k 0).val = (k ⟨0, by decide⟩).val :=
  dot_S4000x32_S32x256_S4000x256_1_0_0_1_n_n.rhsIdx_val_of_single rfl j k
theorem dB_r1 (j : _) (k : dot_S4000x32_S32x256_S4000x256_1_0_0_1_n_n.contr.Idx) : (dot_S4000x32_S32x256_S4000x256_1_0_0_1_n_n.rhsIdx j k 1).val = (j 1).val := by
  unfold DotDims.rhsIdx
  rw [dif_neg (show ¬(1 : Fin S32x256.rank) ∈ dot_S4000x32_S32x256_S4000x256_1_0_0_1_n_n.rhsBatch by decide), dif_pos (show (1 : Fin S32x256.rank) ∈ dot_S4000x32_S32x256_S4000x256_1_0_0_1_n_n.rhsNonContracting by decide)]
  rfl

theorem zero_f32 : (Scalar.ofBits .f32 0x00000000#32 : Ideal .f32) = 0 := Ideal.ofBits_zero_f32

/-! ## The body's value: the edge message of the staged blocks -/

theorem bias_apply (x6 : Vec Ideal S1x256 .f32) (p : Fin 4000) (q : Fin 256) :
    broadcastTo S4000x256 (shapeCast S1x256 x6 shapeCasts_S1x256_S1x256) broadcasts_S1x256_S4000x256 (ix2 p q) = x6 (ix2 0 q) := by
  rw [shapeCast_self]
  exact broadcastTo_apply x6 broadcasts_S1x256_S4000x256 (ix2 p q) (ix2 0 q) (fun a => match a with
    | ⟨0, _⟩ => rfl
    | ⟨1, _⟩ => rfl)

theorem pay_apply (x0 x1 : Vec Ideal S4000x128 .bf16) (x2 : Vec Ideal S4000x32 .bf16) (x3 x4 : Vec Ideal S128x256 .f32)
    (x5 : Vec Ideal S32x256 .f32) (x6 : Vec Ideal S1x256 .f32) (p : Fin 4000) (q : Fin 256) :
    k0_pay1 (F := Ideal) x0 x1 x2 x3 x4 x5 x6 (ix2 p q)
      = max (((dotRC x0 x3 p q + dotRC x1 x4 p q) + dotRC x2 x5 p q) + x6 (ix2 0 q)) 0 := by
  unfold k0_pay1
  simp only [matmul, maximumf_apply, addf_apply, broadcast_apply]
  rw [matmul_zero_plain dot_S4000x128_S128x256_S4000x256_1_0_0_1_n_n rfl rfl dA_l0 dA_l1 dA_r0 dA_r1, matmul_zero_plain dot_S4000x128_S128x256_S4000x256_1_0_0_1_n_n rfl rfl dA_l0 dA_l1 dA_r0 dA_r1,
    matmul_zero_plain dot_S4000x32_S32x256_S4000x256_1_0_0_1_n_n rfl rfl dB_l0 dB_l1 dB_r0 dB_r1, bias_apply, zero_f32]
  simp only [shapeCast_self]
  rfl

theorem pay_eq (x0 x1 : Vec Ideal S4000x128 .bf16) (x2 : Vec Ideal S4000x32 .bf16) (x3 x4 : Vec Ideal S128x256 .f32)
    (x5 : Vec Ideal S32x256 .f32) (x6 : Vec Ideal S1x256 .f32) :
    k0_pay1 (F := Ideal) x0 x1 x2 x3 x4 x5 x6 = edgeG 4000 128 32 x0 x1 x2 x3 x4 x5 x6 := by
  funext y
  rw [eq_ix2_row_col y]
  exact pay_apply x0 x1 x2 x3 x4 x5 x6 (row y) (col y)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

theorem tlt (t : Fin cfg0.N) : t.val < 100 := lt_of_lt_of_eq t.isLt N_0

/-- The rows of the arrays that grid point `t` works on. -/
def sel (t : Fin cfg0.N) : Fin 4000 → Fin 400000 := fun p => ⟨t.val * 4000 + p.val, by have := tlt t; omega⟩

/-! The printed index maps, decided over the 100 grid points: the row-blocked windows move with the point along the
    rows; the weights and the biases stay. -/

theorem idx_facts0 : ∀ t : Fin cfg0.N, win0_0.index t (0 : Fin 2) = t.val ∧ win0_0.index t (1 : Fin 2) = 0 :=
  (by decide +kernel : ∀ t : Fin grid0.N, _)

theorem idx_facts1 : ∀ t : Fin cfg0.N, win0_1.index t (0 : Fin 2) = t.val ∧ win0_1.index t (1 : Fin 2) = 0 :=
  (by decide +kernel : ∀ t : Fin grid0.N, _)

theorem idx_facts2 : ∀ t : Fin cfg0.N, win0_2.index t (0 : Fin 2) = t.val ∧ win0_2.index t (1 : Fin 2) = 0 :=
  (by decide +kernel : ∀ t : Fin grid0.N, _)

theorem idx_facts7 : ∀ t : Fin cfg0.N, win0_7.index t (0 : Fin 2) = t.val ∧ win0_7.index t (1 : Fin 2) = 0 :=
  (by decide +kernel : ∀ t : Fin grid0.N, _)

theorem idx_facts3 : ∀ t : Fin cfg0.N, win0_3.index t (0 : Fin 2) = 0 ∧ win0_3.index t (1 : Fin 2) = 0 :=
  (by decide +kernel : ∀ t : Fin grid0.N, _)

theorem idx_facts4 : ∀ t : Fin cfg0.N, win0_4.index t (0 : Fin 2) = 0 ∧ win0_4.index t (1 : Fin 2) = 0 :=
  (by decide +kernel : ∀ t : Fin grid0.N, _)

theorem idx_facts5 : ∀ t : Fin cfg0.N, win0_5.index t (0 : Fin 2) = 0 ∧ win0_5.index t (1 : Fin 2) = 0 :=
  (by decide +kernel : ∀ t : Fin grid0.N, _)

theorem idx_facts6 : ∀ t : Fin cfg0.N, win0_6.index t (0 : Fin 2) = 0 ∧ win0_6.index t (1 : Fin 2) = 0 :=
  (by decide +kernel : ∀ t : Fin grid0.N, _)

/-! A row-blocked window's block is the row block of its array; a weight's or a bias's block is the whole array. -/

theorem blk0 (c : Dev nD) (t : Fin cfg0.N) :
    (iblk0 V c 0 t : (Sh2 4000 128).Idx → EReal) = rowsOf (sel t) (V c main_v20) := by
  obtain ⟨e0, e1⟩ := idx_facts0 t
  funext y
  show V c main_v20 (((cfg0.win 0).blk t).view.emb y) = V c main_v20 (ix2 (sel t (row y)) (col y))
  refine congrArg (V c main_v20) (funext fun a => Fin.ext ?_)
  match a with
  | ⟨0, _⟩ =>
    show win0_0.index t (0 : Fin 2) * 4000 + 1 * (y 0).val = t.val * 4000 + (y 0).val
    rw [e0]; omega
  | ⟨1, _⟩ =>
    show win0_0.index t (1 : Fin 2) * 128 + 1 * (y 1).val = (y 1).val
    rw [e1]; omega

theorem blk1 (c : Dev nD) (t : Fin cfg0.N) :
    (iblk0 V c 1 t : (Sh2 4000 128).Idx → EReal) = rowsOf (sel t) (V c main_v27) := by
  obtain ⟨e0, e1⟩ := idx_facts1 t
  funext y
  show V c main_v27 (((cfg0.win 1).blk t).view.emb y) = V c main_v27 (ix2 (sel t (row y)) (col y))
  refine congrArg (V c main_v27) (funext fun a => Fin.ext ?_)
  match a with
  | ⟨0, _⟩ =>
    show win0_1.index t (0 : Fin 2) * 4000 + 1 * (y 0).val = t.val * 4000 + (y 0).val
    rw [e0]; omega
  | ⟨1, _⟩ =>
    show win0_1.index t (1 : Fin 2) * 128 + 1 * (y 1).val = (y 1).val
    rw [e1]; omega

theorem blk2 (c : Dev nD) (t : Fin cfg0.N) :
    (iblk0 V c 2 t : (Sh2 4000 32).Idx → EReal) = rowsOf (sel t) (V c main_v12) := by
  obtain ⟨e0, e1⟩ := idx_facts2 t
  funext y
  show V c main_v12 (((cfg0.win 2).blk t).view.emb y) = V c main_v12 (ix2 (sel t (row y)) (col y))
  refine congrArg (V c main_v12) (funext fun a => Fin.ext ?_)
  match a with
  | ⟨0, _⟩ =>
    show win0_2.index t (0 : Fin 2) * 4000 + 1 * (y 0).val = t.val * 4000 + (y 0).val
    rw [e0]; omega
  | ⟨1, _⟩ =>
    show win0_2.index t (1 : Fin 2) * 32 + 1 * (y 1).val = (y 1).val
    rw [e1]; omega

theorem blk3 (c : Dev nD) (t : Fin cfg0.N) :
    (iblk0 V c 3 t : (Sh2 128 256).Idx → EReal) = V c main_v28 := by
  obtain ⟨e0, e1⟩ := idx_facts3 t
  funext y
  show V c main_v28 (((cfg0.win 3).blk t).view.emb y) = V c main_v28 y
  refine congrArg (V c main_v28) (funext fun a => Fin.ext ?_)
  match a with
  | ⟨0, _⟩ =>
    show win0_3.index t (0 : Fin 2) * 128 + 1 * (y 0).val = (y 0).val
    rw [e0]; omega
  | ⟨1, _⟩ =>
    show win0_3.index t (1 : Fin 2) * 256 + 1 * (y 1).val = (y 1).val
    rw [e1]; omega

theorem blk4 (c : Dev nD) (t : Fin cfg0.N) :
    (iblk0 V c 4 t : (Sh2 128 256).Idx → EReal) = V c main_v29 := by
  obtain ⟨e0, e1⟩ := idx_facts4 t
  funext y
  show V c main_v29 (((cfg0.win 4).blk t).view.emb y) = V c main_v29 y
  refine congrArg (V c main_v29) (funext fun a => Fin.ext ?_)
  match a with
  | ⟨0, _⟩ =>
    show win0_4.index t (0 : Fin 2) * 128 + 1 * (y 0).val = (y 0).val
    rw [e0]; omega
  | ⟨1, _⟩ =>
    show win0_4.index t (1 : Fin 2) * 256 + 1 * (y 1).val = (y 1).val
    rw [e1]; omega

theorem blk5 (c : Dev nD) (t : Fin cfg0.N) :
    (iblk0 V c 5 t : (Sh2 32 256).Idx → EReal) = V c main_v30 := by
  obtain ⟨e0, e1⟩ := idx_facts5 t
  funext y
  show V c main_v30 (((cfg0.win 5).blk t).view.emb y) = V c main_v30 y
  refine congrArg (V c main_v30) (funext fun a => Fin.ext ?_)
  match a with
  | ⟨0, _⟩ =>
    show win0_5.index t (0 : Fin 2) * 32 + 1 * (y 0).val = (y 0).val
    rw [e0]; omega
  | ⟨1, _⟩ =>
    show win0_5.index t (1 : Fin 2) * 256 + 1 * (y 1).val = (y 1).val
    rw [e1]; omega

theorem blk6 (c : Dev nD) (t : Fin cfg0.N) :
    (iblk0 V c 6 t : (Sh2 1 256).Idx → EReal) = V c main_v31 := by
  obtain ⟨e0, e1⟩ := idx_facts6 t
  funext y
  show V c main_v31 (((cfg0.win 6).blk t).view.emb y) = V c main_v31 y
  refine congrArg (V c main_v31) (funext fun a => Fin.ext ?_)
  match a with
  | ⟨0, _⟩ =>
    show win0_6.index t (0 : Fin 2) * 1 + 1 * (y 0).val = (y 0).val
    rw [e0]; omega
  | ⟨1, _⟩ =>
    show win0_6.index t (1 : Fin 2) * 256 + 1 * (y 1).val = (y 1).val
    rw [e1]; omega

/-- Reading the output window's block `t` of an array is taking its rows `sel t`. -/
theorem read_out (t : Fin cfg0.N) (G : (Sh2 400000 256).Idx → EReal) :
    (((cfg0.win 7).blk t).view.read (Elt Ideal) G : (Sh2 4000 256).Idx → EReal) = rowsOf (sel t) G := by
  obtain ⟨e0, e1⟩ := idx_facts7 t
  funext y
  show G (((cfg0.win 7).blk t).view.emb y) = G (ix2 (sel t (row y)) (col y))
  refine congrArg G (funext fun a => Fin.ext ?_)
  match a with
  | ⟨0, _⟩ =>
    show win0_7.index t (0 : Fin 2) * 4000 + 1 * (y 0).val = t.val * 4000 + (y 0).val
    rw [e0]; omega
  | ⟨1, _⟩ =>
    show win0_7.index t (1 : Fin 2) * 256 + 1 * (y 1).val = (y 1).val
    rw [e1]; omega

/-- The message array as one function of the arrays the region finds. -/
def G (c : Dev nD) : (Sh2 400000 256).Idx → EReal :=
  edgeG 400000 128 32 (V c main_v20) (V c main_v27) (V c main_v12) (V c main_v28) (V c main_v29) (V c main_v30) (V c main_v31)

/-- The edge message of the row blocks is the row block of the edge message. -/
theorem G_rows (c : Dev nD) (t : Fin cfg0.N) :
    edgeG 4000 128 32 (rowsOf (sel t) (V c main_v20)) (rowsOf (sel t) (V c main_v27)) (rowsOf (sel t) (V c main_v12)) (V c main_v28) (V c main_v29) (V c main_v30) (V c main_v31)
      = rowsOf (sel t) (G V c) := rfl

/-- What point `t` writes back is block `t` of `G`. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz]
  simp only [View.ld_unit_zero (S := S4000x128) hz, View.ld_unit_zero (S := S4000x32) hz, View.ld_unit_zero (S := S128x256) hz, View.ld_unit_zero (S := S32x256) hz, View.ld_unit_zero (S := S1x256) hz]
  rw [pay_eq, blk0 V c t, blk1 V c t, blk2 V c t, blk3 V c t, blk4 V c t, blk5 V c t, blk6 V c t]
  exact (congrArg ((cfg0.win 7).cut (grid0.coords t)) (G_rows V c t)).trans (read_out t (G V c)).symm

/-- An index of the array is in point `t`'s block iff each coordinate is in the block's range on its axis. -/
theorem mem_blk (t : Fin cfg0.N) (i : S400000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v32).slice (win0_7.rect t)).set ↔ _
  rw [View.set_slice_whole, Rect.mem_set_unit]
  exact Iff.rfl

/-- Row `r` is in the block of point `r / 4000`: the 100 blocks tile the 400000 rows. -/
theorem cover (i : S400000x256.Idx) : ∃ t : Fin cfg0.N, (cfg0.win 7).flush t = true ∧ i ∈ ((cfg0.win 7).blk t).view.set := by
  have hi0 : (i 0).val < 400000 := (i 0).isLt
  have hi1 : (i 1).val < 256 := (i 1).isLt
  have hN : cfg0.N = 100 := N_0
  refine ⟨⟨(i 0).val / 4000, by rw [hN]; omega⟩, flush0_7 _, ?_⟩
  obtain ⟨e0, e1⟩ := idx_facts7 ⟨(i 0).val / 4000, by rw [hN]; omega⟩
  rw [mem_blk]
  intro a
  match a with
  | ⟨0, _⟩ =>
    show win0_7.index _ (0 : Fin 2) * 4000 ≤ (i 0).val ∧ (i 0).val < win0_7.index _ (0 : Fin 2) * 4000 + 4000
    rw [e0]
    show (i 0).val / 4000 * 4000 ≤ (i 0).val ∧ (i 0).val < (i 0).val / 4000 * 4000 + 4000
    omega
  | ⟨1, _⟩ =>
    show win0_7.index _ (1 : Fin 2) * 256 ≤ (i 1).val ∧ (i 1).val < win0_7.index _ (1 : Fin 2) * 256 + 256
    rw [e1]; omega

/-- The output array after the region: `G` of the arrays the region found. -/
theorem final (c : Dev nD) : (dat0 (F := Ideal) V c).arrAt 7 cfg0.N = G V c :=
  (dat0 (F := Ideal) V c).arrAt_eq_of_cover 7 (G V c) (fun t _ => flushed_eq V c t) (cover)

end Cert.KernelIdeal.R0

end
-- ==== Proof.Stage0.lean ====
/-
  Boundaries 1 and 2 of the idealized kernel's run: what the buffers hold after the first stretch of host
  operations and after region 0, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region0
import proofs.«100581_j48619029791202_2_alg».proof.Proof.RefForms
import proofs.«100581_j48619029791202_2_alg».proof.Proof.Spec
import proofs.«100581_j48619029791202_2_alg».proof.Proof.Mean

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

/-- An argument array as launched. -/
abbrev arg (m : (ℓ : Loc nD τ sig) → Buf (Elt Ideal) ℓ) (c : Dev nD) (b : Ref sig .tc) : Buf (Elt Ideal) ((c : Thread nD τ).loc b) :=
  m ((c : Thread nD τ).loc b)

variable (m : (ℓ : Loc nD τ sig) → Buf (Elt Ideal) ℓ) (ρ : Dev nD → PrngReg) (c : Dev nD)

/-! ## After the stretch of host operations -/

theorem W1_arg5 : W1 m ρ c (Proc.devRef .tc main_arg5) = (arg m c main_arg5) := by
  show StableHlo.after hostOps0 (W0 m ρ c) (Proc.devRef .tc main_arg5) = _
  after_results_simp <;> rfl

theorem W1_arg6 : W1 m ρ c (Proc.devRef .tc main_arg6) = (arg m c main_arg6) := by
  show StableHlo.after hostOps0 (W0 m ρ c) (Proc.devRef .tc main_arg6) = _
  after_results_simp <;> rfl

theorem W1_arg7 : W1 m ρ c (Proc.devRef .tc main_arg7) = (arg m c main_arg7) := by
  show StableHlo.after hostOps0 (W0 m ρ c) (Proc.devRef .tc main_arg7) = _
  after_results_simp <;> rfl

theorem W1_arg8 : W1 m ρ c (Proc.devRef .tc main_arg8) = (arg m c main_arg8) := by
  show StableHlo.after hostOps0 (W0 m ρ c) (Proc.devRef .tc main_arg8) = _
  after_results_simp <;> rfl

theorem W1_arg9 : W1 m ρ c (Proc.devRef .tc main_arg9) = (arg m c main_arg9) := by
  show StableHlo.after hostOps0 (W0 m ρ c) (Proc.devRef .tc main_arg9) = _
  after_results_simp <;> rfl

theorem W1_arg10 : W1 m ρ c (Proc.devRef .tc main_arg10) = (arg m c main_arg10) := by
  show StableHlo.after hostOps0 (W0 m ρ c) (Proc.devRef .tc main_arg10) = _
  after_results_simp <;> rfl

theorem W1_arg11 : W1 m ρ c (Proc.devRef .tc main_arg11) = (arg m c main_arg11) := by
  show StableHlo.after hostOps0 (W0 m ρ c) (Proc.devRef .tc main_arg11) = _
  after_results_simp <;> rfl

theorem W1_arg13 : W1 m ρ c (Proc.devRef .tc main_arg13) = (arg m c main_arg13) := by
  show StableHlo.after hostOps0 (W0 m ρ c) (Proc.devRef .tc main_arg13) = _
  after_results_simp <;> rfl

theorem W1_arg12 : W1 m ρ c (Proc.devRef .tc main_arg12) = (arg m c main_arg12) := by
  show StableHlo.after hostOps0 (W0 m ρ c) (Proc.devRef .tc main_arg12) = _
  after_results_simp <;> rfl

theorem W1_arg14 : W1 m ρ c (Proc.devRef .tc main_arg14) = (arg m c main_arg14) := by
  show StableHlo.after hostOps0 (W0 m ρ c) (Proc.devRef .tc main_arg14) = _
  after_results_simp <;> rfl

theorem W1_v1 : W1 m ρ c (Proc.devRef .tc main_v1) = (Cert.ReferenceIdeal.ReadP.val_main_v1 (F := Ideal) (arg m c main_arg1)) := by
  show StableHlo.after hostOps0 (W0 m ρ c) (Proc.devRef .tc main_v1) = _
  after_results_simp
  rfl

theorem W1_v3 : W1 m ρ c (Proc.devRef .tc main_v3) = (Cert.ReferenceIdeal.ReadP.val_main_v3 (F := Ideal) (arg m c main_arg1)) := by
  show StableHlo.after hostOps0 (W0 m ρ c) (Proc.devRef .tc main_v3) = _
  after_results_simp
  rfl

theorem W1_v11 : W1 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) := by
  show StableHlo.after hostOps0 (W0 m ρ c) (Proc.devRef .tc main_v11) = _
  after_results_simp
  rfl

theorem W1_v12 : W1 m ρ c (Proc.devRef .tc main_v12) = (arg m c main_arg2) := by
  show StableHlo.after hostOps0 (W0 m ρ c) (Proc.devRef .tc main_v12) = _
  after_results_simp
  rfl

theorem W1_v13 : W1 m ρ c (Proc.devRef .tc main_v13) = (arg m c main_arg0) := by
  show StableHlo.after hostOps0 (W0 m ρ c) (Proc.devRef .tc main_v13) = _
  after_results_simp
  rfl

theorem W1_v20 : W1 m ρ c (Proc.devRef .tc main_v20) = (Cert.ReferenceIdeal.ReadP.val_main_v10 (F := Ideal) (arg m c main_arg0) (arg m c main_arg1)) := by
  show StableHlo.after hostOps0 (W0 m ρ c) (Proc.devRef .tc main_v20) = _
  after_results_simp
  rfl

theorem W1_v27 : W1 m ρ c (Proc.devRef .tc main_v27) = (Cert.ReferenceIdeal.ReadP.val_main_v17 (F := Ideal) (arg m c main_arg0) (arg m c main_arg1)) := by
  show StableHlo.after hostOps0 (W0 m ρ c) (Proc.devRef .tc main_v27) = _
  after_results_simp
  rfl

theorem W1_v28 : W1 m ρ c (Proc.devRef .tc main_v28) = (band (T := 288) (N := 256) 128 0 (by decide) (arg m c main_arg3)) := by
  show StableHlo.after hostOps0 (W0 m ρ c) (Proc.devRef .tc main_v28) = _
  after_results_simp
  exact slice_eq_band 128 0 _ _ _

theorem W1_v29 : W1 m ρ c (Proc.devRef .tc main_v29) = (band (T := 288) (N := 256) 128 128 (by decide) (arg m c main_arg3)) := by
  show StableHlo.after hostOps0 (W0 m ρ c) (Proc.devRef .tc main_v29) = _
  after_results_simp
  exact slice_eq_band 128 128 _ _ _

theorem W1_v30 : W1 m ρ c (Proc.devRef .tc main_v30) = (band (T := 288) (N := 256) 32 256 (by decide) (arg m c main_arg3)) := by
  show StableHlo.after hostOps0 (W0 m ρ c) (Proc.devRef .tc main_v30) = _
  after_results_simp
  exact slice_eq_band 32 256 _ _ _

theorem W1_v31 : W1 m ρ c (Proc.devRef .tc main_v31) = (rowvec (N := 256) (arg m c main_arg4)) := by
  show StableHlo.after hostOps0 (W0 m ρ c) (Proc.devRef .tc main_v31) = _
  after_results_simp
  exact reshape_eq_rowvec _ _

/-! ## After region 0 -/

theorem W2_v32 : W2 m ρ c (Proc.devRef .tc main_v32) = (Cert.ReferenceIdeal.ReadP.val_main_v23 (F := Ideal) (arg m c main_arg0) (arg m c main_arg1) (arg m c main_arg2) (arg m c main_arg3) (arg m c main_arg4)) := by
  refine (W2_arr m ρ c 7).trans ((R0.final (V1 m ρ) c).trans ?_)
  unfold R0.G
  rw [show V1 m ρ c main_v20 = _ from W1_v20 m ρ c,
    show V1 m ρ c main_v27 = _ from W1_v27 m ρ c,
    show V1 m ρ c main_v12 = _ from W1_v12 m ρ c,
    show V1 m ρ c main_v28 = _ from W1_v28 m ρ c,
    show V1 m ρ c main_v29 = _ from W1_v29 m ρ c,
    show V1 m ρ c main_v30 = _ from W1_v30 m ρ c,
    show V1 m ρ c main_v31 = _ from W1_v31 m ρ c]
  exact (Cert.ReferenceIdeal.Forms.edge1 _ _ _ _ _).symm

theorem W2_arg5 : W2 m ρ c (Proc.devRef .tc main_arg5) = (arg m c main_arg5) :=
  (W2_of_ne m ρ c main_arg5 (by decide)).trans (W1_arg5 m ρ c)

theorem W2_arg6 : W2 m ρ c (Proc.devRef .tc main_arg6) = (arg m c main_arg6) :=
  (W2_of_ne m ρ c main_arg6 (by decide)).trans (W1_arg6 m ρ c)

theorem W2_arg7 : W2 m ρ c (Proc.devRef .tc main_arg7) = (arg m c main_arg7) :=
  (W2_of_ne m ρ c main_arg7 (by decide)).trans (W1_arg7 m ρ c)

theorem W2_arg8 : W2 m ρ c (Proc.devRef .tc main_arg8) = (arg m c main_arg8) :=
  (W2_of_ne m ρ c main_arg8 (by decide)).trans (W1_arg8 m ρ c)

theorem W2_arg9 : W2 m ρ c (Proc.devRef .tc main_arg9) = (arg m c main_arg9) :=
  (W2_of_ne m ρ c main_arg9 (by decide)).trans (W1_arg9 m ρ c)

theorem W2_arg10 : W2 m ρ c (Proc.devRef .tc main_arg10) = (arg m c main_arg10) :=
  (W2_of_ne m ρ c main_arg10 (by decide)).trans (W1_arg10 m ρ c)

theorem W2_arg11 : W2 m ρ c (Proc.devRef .tc main_arg11) = (arg m c main_arg11) :=
  (W2_of_ne m ρ c main_arg11 (by decide)).trans (W1_arg11 m ρ c)

theorem W2_arg13 : W2 m ρ c (Proc.devRef .tc main_arg13) = (arg m c main_arg13) :=
  (W2_of_ne m ρ c main_arg13 (by decide)).trans (W1_arg13 m ρ c)

theorem W2_arg12 : W2 m ρ c (Proc.devRef .tc main_arg12) = (arg m c main_arg12) :=
  (W2_of_ne m ρ c main_arg12 (by decide)).trans (W1_arg12 m ρ c)

theorem W2_arg14 : W2 m ρ c (Proc.devRef .tc main_arg14) = (arg m c main_arg14) :=
  (W2_of_ne m ρ c main_arg14 (by decide)).trans (W1_arg14 m ρ c)

theorem W2_v1 : W2 m ρ c (Proc.devRef .tc main_v1) = (Cert.ReferenceIdeal.ReadP.val_main_v1 (F := Ideal) (arg m c main_arg1)) :=
  (W2_of_ne m ρ c main_v1 (by decide)).trans (W1_v1 m ρ c)

theorem W2_v3 : W2 m ρ c (Proc.devRef .tc main_v3) = (Cert.ReferenceIdeal.ReadP.val_main_v3 (F := Ideal) (arg m c main_arg1)) :=
  (W2_of_ne m ρ c main_v3 (by decide)).trans (W1_v3 m ρ c)

theorem W2_v11 : W2 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) :=
  (W2_of_ne m ρ c main_v11 (by decide)).trans (W1_v11 m ρ c)

theorem W2_v12 : W2 m ρ c (Proc.devRef .tc main_v12) = (arg m c main_arg2) :=
  (W2_arr m ρ c 2).trans (((dat0 (V1 m ρ) c).arrAt_in 2 rfl _).trans ((A_eq0 (V1 m ρ) c 2).trans (W1_v12 m ρ c)))

theorem W2_v13 : W2 m ρ c (Proc.devRef .tc main_v13) = (arg m c main_arg0) :=
  (W2_of_ne m ρ c main_v13 (by decide)).trans (W1_v13 m ρ c)

end Cert.KernelIdeal.KStages

end
-- ==== Proof.Stage1.lean ====
/-
  Boundaries 3 and 4 of the idealized kernel's run: what the buffers hold after the second stretch of host
  operations and after region 1, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region1
import proofs.«100581_j48619029791202_2_alg».proof.Proof.RefForms
import proofs.«100581_j48619029791202_2_alg».proof.Proof.Spec
import proofs.«100581_j48619029791202_2_alg».proof.Proof.Mean
import proofs.«100581_j48619029791202_2_alg».proof.Proof.Stage0

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg) (c : Dev nD)

/-! ## After the stretch of host operations -/

theorem W3_arg7 : W3 m ρ c (Proc.devRef .tc main_arg7) = (arg m c main_arg7) := by
  show StableHlo.after hostOps1 (W2 m ρ c) (Proc.devRef .tc main_arg7) = _
  after_results_simp
  exact W2_arg7 m ρ c

theorem W3_arg8 : W3 m ρ c (Proc.devRef .tc main_arg8) = (arg m c main_arg8) := by
  show StableHlo.after hostOps1 (W2 m ρ c) (Proc.devRef .tc main_arg8) = _
  after_results_simp
  exact W2_arg8 m ρ c

theorem W3_arg9 : W3 m ρ c (Proc.devRef .tc main_arg9) = (arg m c main_arg9) := by
  show StableHlo.after hostOps1 (W2 m ρ c) (Proc.devRef .tc main_arg9) = _
  after_results_simp
  exact W2_arg9 m ρ c

theorem W3_arg10 : W3 m ρ c (Proc.devRef .tc main_arg10) = (arg m c main_arg10) := by
  show StableHlo.after hostOps1 (W2 m ρ c) (Proc.devRef .tc main_arg10) = _
  after_results_simp
  exact W2_arg10 m ρ c

theorem W3_arg11 : W3 m ρ c (Proc.devRef .tc main_arg11) = (arg m c main_arg11) := by
  show StableHlo.after hostOps1 (W2 m ρ c) (Proc.devRef .tc main_arg11) = _
  after_results_simp
  exact W2_arg11 m ρ c

theorem W3_arg13 : W3 m ρ c (Proc.devRef .tc main_arg13) = (arg m c main_arg13) := by
  show StableHlo.after hostOps1 (W2 m ρ c) (Proc.devRef .tc main_arg13) = _
  after_results_simp
  exact W2_arg13 m ρ c

theorem W3_arg12 : W3 m ρ c (Proc.devRef .tc main_arg12) = (arg m c main_arg12) := by
  show StableHlo.after hostOps1 (W2 m ρ c) (Proc.devRef .tc main_arg12) = _
  after_results_simp
  exact W2_arg12 m ρ c

theorem W3_arg14 : W3 m ρ c (Proc.devRef .tc main_arg14) = (arg m c main_arg14) := by
  show StableHlo.after hostOps1 (W2 m ρ c) (Proc.devRef .tc main_arg14) = _
  after_results_simp
  exact W2_arg14 m ρ c

theorem W3_v1 : W3 m ρ c (Proc.devRef .tc main_v1) = (Cert.ReferenceIdeal.ReadP.val_main_v1 (F := Ideal) (arg m c main_arg1)) := by
  show StableHlo.after hostOps1 (W2 m ρ c) (Proc.devRef .tc main_v1) = _
  after_results_simp
  exact W2_v1 m ρ c

theorem W3_v3 : W3 m ρ c (Proc.devRef .tc main_v3) = (Cert.ReferenceIdeal.ReadP.val_main_v3 (F := Ideal) (arg m c main_arg1)) := by
  show StableHlo.after hostOps1 (W2 m ρ c) (Proc.devRef .tc main_v3) = _
  after_results_simp
  exact W2_v3 m ρ c

theorem W3_v11 : W3 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) := by
  show StableHlo.after hostOps1 (W2 m ρ c) (Proc.devRef .tc main_v11) = _
  after_results_simp
  exact W2_v11 m ρ c

theorem W3_v12 : W3 m ρ c (Proc.devRef .tc main_v12) = (arg m c main_arg2) := by
  show StableHlo.after hostOps1 (W2 m ρ c) (Proc.devRef .tc main_v12) = _
  after_results_simp
  exact W2_v12 m ρ c

theorem W3_v13 : W3 m ρ c (Proc.devRef .tc main_v13) = (arg m c main_arg0) := by
  show StableHlo.after hostOps1 (W2 m ρ c) (Proc.devRef .tc main_v13) = _
  after_results_simp
  exact W2_v13 m ρ c

theorem W3_v39 : W3 m ρ c (Proc.devRef .tc main_v39) = (Cert.ReferenceIdeal.ReadP.val_main_v35 (F := Ideal) (arg m c main_arg0) (arg m c main_arg1) (arg m c main_arg2) (arg m c main_arg3) (arg m c main_arg4)) := by
  show StableHlo.after hostOps1 (W2 m ρ c) (Proc.devRef .tc main_v39) = _
  after_results_simp
  simp only [W2_v3 m ρ c, W2_v32 m ρ c, W2_v11 m ρ c]
  refine (Cert.ReferenceIdeal.Mean.mean_eq (Cert.ReferenceIdeal.ReadP.val_main_v26 (F := Ideal) (arg m c main_arg0) (arg m c main_arg1) (arg m c main_arg2) (arg m c main_arg3) (arg m c main_arg4)) (Cert.ReferenceIdeal.ReadP.val_main_v30 (F := Ideal) (arg m c main_arg1)) _).trans ?_
  rfl

theorem W3_v40 : W3 m ρ c (Proc.devRef .tc main_v40) = (band (T := 384) (N := 256) 128 0 (by decide) (arg m c main_arg5)) := by
  show StableHlo.after hostOps1 (W2 m ρ c) (Proc.devRef .tc main_v40) = _
  after_results_simp
  simp only [W2_arg5 m ρ c]
  exact slice_eq_band 128 0 _ _ _

theorem W3_v41 : W3 m ρ c (Proc.devRef .tc main_v41) = (band (T := 384) (N := 256) 256 128 (by decide) (arg m c main_arg5)) := by
  show StableHlo.after hostOps1 (W2 m ρ c) (Proc.devRef .tc main_v41) = _
  after_results_simp
  simp only [W2_arg5 m ρ c]
  exact slice_eq_band 256 128 _ _ _

theorem W3_v42 : W3 m ρ c (Proc.devRef .tc main_v42) = (rowvec (N := 256) (arg m c main_arg6)) := by
  show StableHlo.after hostOps1 (W2 m ρ c) (Proc.devRef .tc main_v42) = _
  after_results_simp
  simp only [W2_arg6 m ρ c]
  exact reshape_eq_rowvec _ _

/-! ## After region 1 -/

theorem W4_v43 : W4 m ρ c (Proc.devRef .tc main_v43) = (Cert.ReferenceIdeal.ReadP.val_main_v41 (F := Ideal) (arg m c main_arg0) (arg m c main_arg1) (arg m c main_arg2) (arg m c main_arg3) (arg m c main_arg4) (arg m c main_arg5) (arg m c main_arg6)) := by
  refine (W4_arr m ρ c 5).trans ((R1.final (V3 m ρ) c).trans ?_)
  unfold R1.G
  rw [show V3 m ρ c main_v13 = _ from W3_v13 m ρ c,
    show V3 m ρ c main_v39 = _ from W3_v39 m ρ c,
    show V3 m ρ c main_v40 = _ from W3_v40 m ρ c,
    show V3 m ρ c main_v41 = _ from W3_v41 m ρ c,
    show V3 m ρ c main_v42 = _ from W3_v42 m ρ c]
  exact (Cert.ReferenceIdeal.Forms.node1 _ _ _ _ _ _ _).symm

theorem W4_arg7 : W4 m ρ c (Proc.devRef .tc main_arg7) = (arg m c main_arg7) :=
  (W4_of_ne m ρ c main_arg7 (by decide)).trans (W3_arg7 m ρ c)

theorem W4_arg8 : W4 m ρ c (Proc.devRef .tc main_arg8) = (arg m c main_arg8) :=
  (W4_of_ne m ρ c main_arg8 (by decide)).trans (W3_arg8 m ρ c)

theorem W4_arg9 : W4 m ρ c (Proc.devRef .tc main_arg9) = (arg m c main_arg9) :=
  (W4_of_ne m ρ c main_arg9 (by decide)).trans (W3_arg9 m ρ c)

theorem W4_arg10 : W4 m ρ c (Proc.devRef .tc main_arg10) = (arg m c main_arg10) :=
  (W4_of_ne m ρ c main_arg10 (by decide)).trans (W3_arg10 m ρ c)

theorem W4_arg11 : W4 m ρ c (Proc.devRef .tc main_arg11) = (arg m c main_arg11) :=
  (W4_of_ne m ρ c main_arg11 (by decide)).trans (W3_arg11 m ρ c)

theorem W4_arg13 : W4 m ρ c (Proc.devRef .tc main_arg13) = (arg m c main_arg13) :=
  (W4_of_ne m ρ c main_arg13 (by decide)).trans (W3_arg13 m ρ c)

theorem W4_arg12 : W4 m ρ c (Proc.devRef .tc main_arg12) = (arg m c main_arg12) :=
  (W4_of_ne m ρ c main_arg12 (by decide)).trans (W3_arg12 m ρ c)

theorem W4_arg14 : W4 m ρ c (Proc.devRef .tc main_arg14) = (arg m c main_arg14) :=
  (W4_of_ne m ρ c main_arg14 (by decide)).trans (W3_arg14 m ρ c)

theorem W4_v1 : W4 m ρ c (Proc.devRef .tc main_v1) = (Cert.ReferenceIdeal.ReadP.val_main_v1 (F := Ideal) (arg m c main_arg1)) :=
  (W4_of_ne m ρ c main_v1 (by decide)).trans (W3_v1 m ρ c)

theorem W4_v3 : W4 m ρ c (Proc.devRef .tc main_v3) = (Cert.ReferenceIdeal.ReadP.val_main_v3 (F := Ideal) (arg m c main_arg1)) :=
  (W4_of_ne m ρ c main_v3 (by decide)).trans (W3_v3 m ρ c)

theorem W4_v11 : W4 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) :=
  (W4_of_ne m ρ c main_v11 (by decide)).trans (W3_v11 m ρ c)

theorem W4_v12 : W4 m ρ c (Proc.devRef .tc main_v12) = (arg m c main_arg2) :=
  (W4_of_ne m ρ c main_v12 (by decide)).trans (W3_v12 m ρ c)

end Cert.KernelIdeal.KStages

end
-- ==== Proof.Stage2.lean ====
/-
  Boundaries 5 and 6 of the idealized kernel's run: what the buffers hold after the third stretch of host
  operations and after region 2, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region2
import proofs.«100581_j48619029791202_2_alg».proof.Proof.RefForms
import proofs.«100581_j48619029791202_2_alg».proof.Proof.Spec
import proofs.«100581_j48619029791202_2_alg».proof.Proof.Mean
import proofs.«100581_j48619029791202_2_alg».proof.Proof.Stage1

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg) (c : Dev nD)

/-! ## After the stretch of host operations -/

theorem W5_arg7 : W5 m ρ c (Proc.devRef .tc main_arg7) = (arg m c main_arg7) := by
  show StableHlo.after hostOps2 (W4 m ρ c) (Proc.devRef .tc main_arg7) = _
  after_results_simp
  exact W4_arg7 m ρ c

theorem W5_arg8 : W5 m ρ c (Proc.devRef .tc main_arg8) = (arg m c main_arg8) := by
  show StableHlo.after hostOps2 (W4 m ρ c) (Proc.devRef .tc main_arg8) = _
  after_results_simp
  exact W4_arg8 m ρ c

theorem W5_arg9 : W5 m ρ c (Proc.devRef .tc main_arg9) = (arg m c main_arg9) := by
  show StableHlo.after hostOps2 (W4 m ρ c) (Proc.devRef .tc main_arg9) = _
  after_results_simp
  exact W4_arg9 m ρ c

theorem W5_arg10 : W5 m ρ c (Proc.devRef .tc main_arg10) = (arg m c main_arg10) := by
  show StableHlo.after hostOps2 (W4 m ρ c) (Proc.devRef .tc main_arg10) = _
  after_results_simp
  exact W4_arg10 m ρ c

theorem W5_arg11 : W5 m ρ c (Proc.devRef .tc main_arg11) = (arg m c main_arg11) := by
  show StableHlo.after hostOps2 (W4 m ρ c) (Proc.devRef .tc main_arg11) = _
  after_results_simp
  exact W4_arg11 m ρ c

theorem W5_arg13 : W5 m ρ c (Proc.devRef .tc main_arg13) = (arg m c main_arg13) := by
  show StableHlo.after hostOps2 (W4 m ρ c) (Proc.devRef .tc main_arg13) = _
  after_results_simp
  exact W4_arg13 m ρ c

theorem W5_arg12 : W5 m ρ c (Proc.devRef .tc main_arg12) = (arg m c main_arg12) := by
  show StableHlo.after hostOps2 (W4 m ρ c) (Proc.devRef .tc main_arg12) = _
  after_results_simp
  exact W4_arg12 m ρ c

theorem W5_arg14 : W5 m ρ c (Proc.devRef .tc main_arg14) = (arg m c main_arg14) := by
  show StableHlo.after hostOps2 (W4 m ρ c) (Proc.devRef .tc main_arg14) = _
  after_results_simp
  exact W4_arg14 m ρ c

theorem W5_v1 : W5 m ρ c (Proc.devRef .tc main_v1) = (Cert.ReferenceIdeal.ReadP.val_main_v1 (F := Ideal) (arg m c main_arg1)) := by
  show StableHlo.after hostOps2 (W4 m ρ c) (Proc.devRef .tc main_v1) = _
  after_results_simp
  exact W4_v1 m ρ c

theorem W5_v3 : W5 m ρ c (Proc.devRef .tc main_v3) = (Cert.ReferenceIdeal.ReadP.val_main_v3 (F := Ideal) (arg m c main_arg1)) := by
  show StableHlo.after hostOps2 (W4 m ρ c) (Proc.devRef .tc main_v3) = _
  after_results_simp
  exact W4_v3 m ρ c

theorem W5_v11 : W5 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) := by
  show StableHlo.after hostOps2 (W4 m ρ c) (Proc.devRef .tc main_v11) = _
  after_results_simp
  exact W4_v11 m ρ c

theorem W5_v12 : W5 m ρ c (Proc.devRef .tc main_v12) = (arg m c main_arg2) := by
  show StableHlo.after hostOps2 (W4 m ρ c) (Proc.devRef .tc main_v12) = _
  after_results_simp
  exact W4_v12 m ρ c

theorem W5_v43 : W5 m ρ c (Proc.devRef .tc main_v43) = (Cert.ReferenceIdeal.ReadP.val_main_v41 (F := Ideal) (arg m c main_arg0) (arg m c main_arg1) (arg m c main_arg2) (arg m c main_arg3) (arg m c main_arg4) (arg m c main_arg5) (arg m c main_arg6)) := by
  show StableHlo.after hostOps2 (W4 m ρ c) (Proc.devRef .tc main_v43) = _
  after_results_simp
  exact W4_v43 m ρ c

theorem W5_v49 : W5 m ρ c (Proc.devRef .tc main_v49) = (Cert.ReferenceIdeal.ReadP.val_main_v47 (F := Ideal) (arg m c main_arg9)) := by
  show StableHlo.after hostOps2 (W4 m ρ c) (Proc.devRef .tc main_v49) = _
  after_results_simp
  simp only [W4_arg9 m ρ c]
  rfl

theorem W5_v51 : W5 m ρ c (Proc.devRef .tc main_v51) = (Cert.ReferenceIdeal.ReadP.val_main_v49 (F := Ideal) (arg m c main_arg10)) := by
  show StableHlo.after hostOps2 (W4 m ρ c) (Proc.devRef .tc main_v51) = _
  after_results_simp
  simp only [W4_arg10 m ρ c]
  rfl

theorem W5_v58 : W5 m ρ c (Proc.devRef .tc main_v58) = (Cert.ReferenceIdeal.ReadP.val_main_v56 (F := Ideal) (arg m c main_arg0) (arg m c main_arg1) (arg m c main_arg2) (arg m c main_arg3) (arg m c main_arg4) (arg m c main_arg5) (arg m c main_arg6)) := by
  show StableHlo.after hostOps2 (W4 m ρ c) (Proc.devRef .tc main_v58) = _
  after_results_simp
  simp only [W4_v43 m ρ c, W4_v1 m ρ c]
  rfl

theorem W5_v65 : W5 m ρ c (Proc.devRef .tc main_v65) = (Cert.ReferenceIdeal.ReadP.val_main_v63 (F := Ideal) (arg m c main_arg0) (arg m c main_arg1) (arg m c main_arg2) (arg m c main_arg3) (arg m c main_arg4) (arg m c main_arg5) (arg m c main_arg6)) := by
  show StableHlo.after hostOps2 (W4 m ρ c) (Proc.devRef .tc main_v65) = _
  after_results_simp
  simp only [W4_v43 m ρ c, W4_v3 m ρ c]
  rfl

theorem W5_v66 : W5 m ρ c (Proc.devRef .tc main_v66) = (band (T := 544) (N := 256) 256 0 (by decide) (Cert.ReferenceIdeal.ReadP.val_main_v43 (F := Ideal) (arg m c main_arg7))) := by
  show StableHlo.after hostOps2 (W4 m ρ c) (Proc.devRef .tc main_v66) = _
  after_results_simp
  simp only [W4_arg7 m ρ c]
  exact slice_eq_band 256 0 _ _ _

theorem W5_v67 : W5 m ρ c (Proc.devRef .tc main_v67) = (band (T := 544) (N := 256) 256 256 (by decide) (Cert.ReferenceIdeal.ReadP.val_main_v43 (F := Ideal) (arg m c main_arg7))) := by
  show StableHlo.after hostOps2 (W4 m ρ c) (Proc.devRef .tc main_v67) = _
  after_results_simp
  simp only [W4_arg7 m ρ c]
  exact slice_eq_band 256 256 _ _ _

theorem W5_v68 : W5 m ρ c (Proc.devRef .tc main_v68) = (band (T := 544) (N := 256) 32 512 (by decide) (Cert.ReferenceIdeal.ReadP.val_main_v43 (F := Ideal) (arg m c main_arg7))) := by
  show StableHlo.after hostOps2 (W4 m ρ c) (Proc.devRef .tc main_v68) = _
  after_results_simp
  simp only [W4_arg7 m ρ c]
  exact slice_eq_band 32 512 _ _ _

theorem W5_v69 : W5 m ρ c (Proc.devRef .tc main_v69) = (rowvec (N := 256) (Cert.ReferenceIdeal.ReadP.val_main_v45 (F := Ideal) (arg m c main_arg8))) := by
  show StableHlo.after hostOps2 (W4 m ρ c) (Proc.devRef .tc main_v69) = _
  after_results_simp
  simp only [W4_arg8 m ρ c]
  exact reshape_eq_rowvec _ _

/-! ## After region 2 -/

theorem W6_v70 : W6 m ρ c (Proc.devRef .tc main_v70) = (Cert.ReferenceIdeal.ReadP.val_main_v69 (F := Ideal) (arg m c main_arg0) (arg m c main_arg1) (arg m c main_arg2) (arg m c main_arg3) (arg m c main_arg4) (arg m c main_arg5) (arg m c main_arg6) (arg m c main_arg7) (arg m c main_arg8)) := by
  refine (W6_arr m ρ c 7).trans ((R2.final (V5 m ρ) c).trans ?_)
  unfold R2.G
  rw [show V5 m ρ c main_v58 = _ from W5_v58 m ρ c,
    show V5 m ρ c main_v65 = _ from W5_v65 m ρ c,
    show V5 m ρ c main_v12 = _ from W5_v12 m ρ c,
    show V5 m ρ c main_v66 = _ from W5_v66 m ρ c,
    show V5 m ρ c main_v67 = _ from W5_v67 m ρ c,
    show V5 m ρ c main_v68 = _ from W5_v68 m ρ c,
    show V5 m ρ c main_v69 = _ from W5_v69 m ρ c]
  exact (Cert.ReferenceIdeal.Forms.edge2 _ _ _ _ _ _ _ _ _).symm

theorem W6_arg7 : W6 m ρ c (Proc.devRef .tc main_arg7) = (arg m c main_arg7) :=
  (W6_of_ne m ρ c main_arg7 (by decide)).trans (W5_arg7 m ρ c)

theorem W6_arg8 : W6 m ρ c (Proc.devRef .tc main_arg8) = (arg m c main_arg8) :=
  (W6_of_ne m ρ c main_arg8 (by decide)).trans (W5_arg8 m ρ c)

theorem W6_arg9 : W6 m ρ c (Proc.devRef .tc main_arg9) = (arg m c main_arg9) :=
  (W6_of_ne m ρ c main_arg9 (by decide)).trans (W5_arg9 m ρ c)

theorem W6_arg10 : W6 m ρ c (Proc.devRef .tc main_arg10) = (arg m c main_arg10) :=
  (W6_of_ne m ρ c main_arg10 (by decide)).trans (W5_arg10 m ρ c)

theorem W6_arg11 : W6 m ρ c (Proc.devRef .tc main_arg11) = (arg m c main_arg11) :=
  (W6_of_ne m ρ c main_arg11 (by decide)).trans (W5_arg11 m ρ c)

theorem W6_arg13 : W6 m ρ c (Proc.devRef .tc main_arg13) = (arg m c main_arg13) :=
  (W6_of_ne m ρ c main_arg13 (by decide)).trans (W5_arg13 m ρ c)

theorem W6_arg12 : W6 m ρ c (Proc.devRef .tc main_arg12) = (arg m c main_arg12) :=
  (W6_of_ne m ρ c main_arg12 (by decide)).trans (W5_arg12 m ρ c)

theorem W6_arg14 : W6 m ρ c (Proc.devRef .tc main_arg14) = (arg m c main_arg14) :=
  (W6_of_ne m ρ c main_arg14 (by decide)).trans (W5_arg14 m ρ c)

theorem W6_v1 : W6 m ρ c (Proc.devRef .tc main_v1) = (Cert.ReferenceIdeal.ReadP.val_main_v1 (F := Ideal) (arg m c main_arg1)) :=
  (W6_of_ne m ρ c main_v1 (by decide)).trans (W5_v1 m ρ c)

theorem W6_v3 : W6 m ρ c (Proc.devRef .tc main_v3) = (Cert.ReferenceIdeal.ReadP.val_main_v3 (F := Ideal) (arg m c main_arg1)) :=
  (W6_of_ne m ρ c main_v3 (by decide)).trans (W5_v3 m ρ c)

theorem W6_v11 : W6 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) :=
  (W6_of_ne m ρ c main_v11 (by decide)).trans (W5_v11 m ρ c)

theorem W6_v12 : W6 m ρ c (Proc.devRef .tc main_v12) = (arg m c main_arg2) :=
  (W6_arr m ρ c 2).trans (((dat2 (V5 m ρ) c).arrAt_in 2 rfl _).trans ((A_eq2 (V5 m ρ) c 2).trans (W5_v12 m ρ c)))

theorem W6_v43 : W6 m ρ c (Proc.devRef .tc main_v43) = (Cert.ReferenceIdeal.ReadP.val_main_v41 (F := Ideal) (arg m c main_arg0) (arg m c main_arg1) (arg m c main_arg2) (arg m c main_arg3) (arg m c main_arg4) (arg m c main_arg5) (arg m c main_arg6)) :=
  (W6_of_ne m ρ c main_v43 (by decide)).trans (W5_v43 m ρ c)

theorem W6_v49 : W6 m ρ c (Proc.devRef .tc main_v49) = (Cert.ReferenceIdeal.ReadP.val_main_v47 (F := Ideal) (arg m c main_arg9)) :=
  (W6_of_ne m ρ c main_v49 (by decide)).trans (W5_v49 m ρ c)

theorem W6_v51 : W6 m ρ c (Proc.devRef .tc main_v51) = (Cert.ReferenceIdeal.ReadP.val_main_v49 (F := Ideal) (arg m c main_arg10)) :=
  (W6_of_ne m ρ c main_v51 (by decide)).trans (W5_v51 m ρ c)

end Cert.KernelIdeal.KStages

end
-- ==== Proof.Stage3.lean ====
/-
  Boundaries 7 and 8 of the idealized kernel's run: what the buffers hold after the fourth stretch of host
  operations and after region 3, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region3
import proofs.«100581_j48619029791202_2_alg».proof.Proof.RefForms
import proofs.«100581_j48619029791202_2_alg».proof.Proof.Spec
import proofs.«100581_j48619029791202_2_alg».proof.Proof.Mean
import proofs.«100581_j48619029791202_2_alg».proof.Proof.Stage2

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg) (c : Dev nD)

/-! ## After the stretch of host operations -/

theorem W7_arg7 : W7 m ρ c (Proc.devRef .tc main_arg7) = (arg m c main_arg7) := by
  show StableHlo.after hostOps3 (W6 m ρ c) (Proc.devRef .tc main_arg7) = _
  after_results_simp
  exact W6_arg7 m ρ c

theorem W7_arg8 : W7 m ρ c (Proc.devRef .tc main_arg8) = (arg m c main_arg8) := by
  show StableHlo.after hostOps3 (W6 m ρ c) (Proc.devRef .tc main_arg8) = _
  after_results_simp
  exact W6_arg8 m ρ c

theorem W7_arg9 : W7 m ρ c (Proc.devRef .tc main_arg9) = (arg m c main_arg9) := by
  show StableHlo.after hostOps3 (W6 m ρ c) (Proc.devRef .tc main_arg9) = _
  after_results_simp
  exact W6_arg9 m ρ c

theorem W7_arg10 : W7 m ρ c (Proc.devRef .tc main_arg10) = (arg m c main_arg10) := by
  show StableHlo.after hostOps3 (W6 m ρ c) (Proc.devRef .tc main_arg10) = _
  after_results_simp
  exact W6_arg10 m ρ c

theorem W7_arg11 : W7 m ρ c (Proc.devRef .tc main_arg11) = (arg m c main_arg11) := by
  show StableHlo.after hostOps3 (W6 m ρ c) (Proc.devRef .tc main_arg11) = _
  after_results_simp
  exact W6_arg11 m ρ c

theorem W7_arg13 : W7 m ρ c (Proc.devRef .tc main_arg13) = (arg m c main_arg13) := by
  show StableHlo.after hostOps3 (W6 m ρ c) (Proc.devRef .tc main_arg13) = _
  after_results_simp
  exact W6_arg13 m ρ c

theorem W7_arg12 : W7 m ρ c (Proc.devRef .tc main_arg12) = (arg m c main_arg12) := by
  show StableHlo.after hostOps3 (W6 m ρ c) (Proc.devRef .tc main_arg12) = _
  after_results_simp
  exact W6_arg12 m ρ c

theorem W7_arg14 : W7 m ρ c (Proc.devRef .tc main_arg14) = (arg m c main_arg14) := by
  show StableHlo.after hostOps3 (W6 m ρ c) (Proc.devRef .tc main_arg14) = _
  after_results_simp
  exact W6_arg14 m ρ c

theorem W7_v1 : W7 m ρ c (Proc.devRef .tc main_v1) = (Cert.ReferenceIdeal.ReadP.val_main_v1 (F := Ideal) (arg m c main_arg1)) := by
  show StableHlo.after hostOps3 (W6 m ρ c) (Proc.devRef .tc main_v1) = _
  after_results_simp
  exact W6_v1 m ρ c

theorem W7_v3 : W7 m ρ c (Proc.devRef .tc main_v3) = (Cert.ReferenceIdeal.ReadP.val_main_v3 (F := Ideal) (arg m c main_arg1)) := by
  show StableHlo.after hostOps3 (W6 m ρ c) (Proc.devRef .tc main_v3) = _
  after_results_simp
  exact W6_v3 m ρ c

theorem W7_v11 : W7 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) := by
  show StableHlo.after hostOps3 (W6 m ρ c) (Proc.devRef .tc main_v11) = _
  after_results_simp
  exact W6_v11 m ρ c

theorem W7_v12 : W7 m ρ c (Proc.devRef .tc main_v12) = (arg m c main_arg2) := by
  show StableHlo.after hostOps3 (W6 m ρ c) (Proc.devRef .tc main_v12) = _
  after_results_simp
  exact W6_v12 m ρ c

theorem W7_v43 : W7 m ρ c (Proc.devRef .tc main_v43) = (Cert.ReferenceIdeal.ReadP.val_main_v41 (F := Ideal) (arg m c main_arg0) (arg m c main_arg1) (arg m c main_arg2) (arg m c main_arg3) (arg m c main_arg4) (arg m c main_arg5) (arg m c main_arg6)) := by
  show StableHlo.after hostOps3 (W6 m ρ c) (Proc.devRef .tc main_v43) = _
  after_results_simp
  exact W6_v43 m ρ c

theorem W7_v77 : W7 m ρ c (Proc.devRef .tc main_v77) = (Cert.ReferenceIdeal.ReadP.val_main_v81 (F := Ideal) (arg m c main_arg0) (arg m c main_arg1) (arg m c main_arg2) (arg m c main_arg3) (arg m c main_arg4) (arg m c main_arg5) (arg m c main_arg6) (arg m c main_arg7) (arg m c main_arg8)) := by
  show StableHlo.after hostOps3 (W6 m ρ c) (Proc.devRef .tc main_v77) = _
  after_results_simp
  simp only [W6_v3 m ρ c, W6_v70 m ρ c, W6_v11 m ρ c]
  refine (Cert.ReferenceIdeal.Mean.mean_eq (Cert.ReferenceIdeal.ReadP.val_main_v72 (F := Ideal) (arg m c main_arg0) (arg m c main_arg1) (arg m c main_arg2) (arg m c main_arg3) (arg m c main_arg4) (arg m c main_arg5) (arg m c main_arg6) (arg m c main_arg7) (arg m c main_arg8)) (Cert.ReferenceIdeal.ReadP.val_main_v76 (F := Ideal) (arg m c main_arg1)) _).trans ?_
  rfl

theorem W7_v78 : W7 m ρ c (Proc.devRef .tc main_v78) = (band (T := 512) (N := 256) 256 0 (by decide) (Cert.ReferenceIdeal.ReadP.val_main_v47 (F := Ideal) (arg m c main_arg9))) := by
  show StableHlo.after hostOps3 (W6 m ρ c) (Proc.devRef .tc main_v78) = _
  after_results_simp
  simp only [W6_v49 m ρ c]
  exact slice_eq_band 256 0 _ _ _

theorem W7_v79 : W7 m ρ c (Proc.devRef .tc main_v79) = (band (T := 512) (N := 256) 256 256 (by decide) (Cert.ReferenceIdeal.ReadP.val_main_v47 (F := Ideal) (arg m c main_arg9))) := by
  show StableHlo.after hostOps3 (W6 m ρ c) (Proc.devRef .tc main_v79) = _
  after_results_simp
  simp only [W6_v49 m ρ c]
  exact slice_eq_band 256 256 _ _ _

theorem W7_v80 : W7 m ρ c (Proc.devRef .tc main_v80) = (rowvec (N := 256) (Cert.ReferenceIdeal.ReadP.val_main_v49 (F := Ideal) (arg m c main_arg10))) := by
  show StableHlo.after hostOps3 (W6 m ρ c) (Proc.devRef .tc main_v80) = _
  after_results_simp
  simp only [W6_v51 m ρ c]
  exact reshape_eq_rowvec _ _

/-! ## After region 3 -/

theorem W8_v81 : W8 m ρ c (Proc.devRef .tc main_v81) = (Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  refine (W8_arr m ρ c 5).trans ((R3.final (V7 m ρ) c).trans ?_)
  unfold R3.G
  rw [show V7 m ρ c main_v43 = _ from W7_v43 m ρ c,
    show V7 m ρ c main_v77 = _ from W7_v77 m ρ c,
    show V7 m ρ c main_v78 = _ from W7_v78 m ρ c,
    show V7 m ρ c main_v79 = _ from W7_v79 m ρ c,
    show V7 m ρ c main_v80 = _ from W7_v80 m ρ c]
  exact (Cert.ReferenceIdeal.Forms.node2 _ _ _ _ _ _ _ _ _ _ _).symm

theorem W8_arg7 : W8 m ρ c (Proc.devRef .tc main_arg7) = (arg m c main_arg7) :=
  (W8_of_ne m ρ c main_arg7 (by decide)).trans (W7_arg7 m ρ c)

theorem W8_arg8 : W8 m ρ c (Proc.devRef .tc main_arg8) = (arg m c main_arg8) :=
  (W8_of_ne m ρ c main_arg8 (by decide)).trans (W7_arg8 m ρ c)

theorem W8_arg9 : W8 m ρ c (Proc.devRef .tc main_arg9) = (arg m c main_arg9) :=
  (W8_of_ne m ρ c main_arg9 (by decide)).trans (W7_arg9 m ρ c)

theorem W8_arg10 : W8 m ρ c (Proc.devRef .tc main_arg10) = (arg m c main_arg10) :=
  (W8_of_ne m ρ c main_arg10 (by decide)).trans (W7_arg10 m ρ c)

theorem W8_arg11 : W8 m ρ c (Proc.devRef .tc main_arg11) = (arg m c main_arg11) :=
  (W8_of_ne m ρ c main_arg11 (by decide)).trans (W7_arg11 m ρ c)

theorem W8_arg13 : W8 m ρ c (Proc.devRef .tc main_arg13) = (arg m c main_arg13) :=
  (W8_of_ne m ρ c main_arg13 (by decide)).trans (W7_arg13 m ρ c)

theorem W8_arg12 : W8 m ρ c (Proc.devRef .tc main_arg12) = (arg m c main_arg12) :=
  (W8_of_ne m ρ c main_arg12 (by decide)).trans (W7_arg12 m ρ c)

theorem W8_arg14 : W8 m ρ c (Proc.devRef .tc main_arg14) = (arg m c main_arg14) :=
  (W8_of_ne m ρ c main_arg14 (by decide)).trans (W7_arg14 m ρ c)

theorem W8_v1 : W8 m ρ c (Proc.devRef .tc main_v1) = (Cert.ReferenceIdeal.ReadP.val_main_v1 (F := Ideal) (arg m c main_arg1)) :=
  (W8_of_ne m ρ c main_v1 (by decide)).trans (W7_v1 m ρ c)

theorem W8_v3 : W8 m ρ c (Proc.devRef .tc main_v3) = (Cert.ReferenceIdeal.ReadP.val_main_v3 (F := Ideal) (arg m c main_arg1)) :=
  (W8_of_ne m ρ c main_v3 (by decide)).trans (W7_v3 m ρ c)

theorem W8_v11 : W8 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) :=
  (W8_of_ne m ρ c main_v11 (by decide)).trans (W7_v11 m ρ c)

theorem W8_v12 : W8 m ρ c (Proc.devRef .tc main_v12) = (arg m c main_arg2) :=
  (W8_of_ne m ρ c main_v12 (by decide)).trans (W7_v12 m ρ c)

end Cert.KernelIdeal.KStages

end
-- ==== Proof.Stage4.lean ====
/-
  Boundaries 9 and 10 of the idealized kernel's run: what the buffers hold after the fifth stretch of host
  operations and after region 4, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region4
import proofs.«100581_j48619029791202_2_alg».proof.Proof.RefForms
import proofs.«100581_j48619029791202_2_alg».proof.Proof.Spec
import proofs.«100581_j48619029791202_2_alg».proof.Proof.Mean
import proofs.«100581_j48619029791202_2_alg».proof.Proof.Stage3

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg) (c : Dev nD)

/-! ## After the stretch of host operations -/

theorem W9_arg11 : W9 m ρ c (Proc.devRef .tc main_arg11) = (arg m c main_arg11) := by
  show StableHlo.after hostOps4 (W8 m ρ c) (Proc.devRef .tc main_arg11) = _
  after_results_simp
  exact W8_arg11 m ρ c

theorem W9_arg13 : W9 m ρ c (Proc.devRef .tc main_arg13) = (arg m c main_arg13) := by
  show StableHlo.after hostOps4 (W8 m ρ c) (Proc.devRef .tc main_arg13) = _
  after_results_simp
  exact W8_arg13 m ρ c

theorem W9_arg12 : W9 m ρ c (Proc.devRef .tc main_arg12) = (arg m c main_arg12) := by
  show StableHlo.after hostOps4 (W8 m ρ c) (Proc.devRef .tc main_arg12) = _
  after_results_simp
  exact W8_arg12 m ρ c

theorem W9_arg14 : W9 m ρ c (Proc.devRef .tc main_arg14) = (arg m c main_arg14) := by
  show StableHlo.after hostOps4 (W8 m ρ c) (Proc.devRef .tc main_arg14) = _
  after_results_simp
  exact W8_arg14 m ρ c

theorem W9_v3 : W9 m ρ c (Proc.devRef .tc main_v3) = (Cert.ReferenceIdeal.ReadP.val_main_v3 (F := Ideal) (arg m c main_arg1)) := by
  show StableHlo.after hostOps4 (W8 m ρ c) (Proc.devRef .tc main_v3) = _
  after_results_simp
  exact W8_v3 m ρ c

theorem W9_v11 : W9 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) := by
  show StableHlo.after hostOps4 (W8 m ρ c) (Proc.devRef .tc main_v11) = _
  after_results_simp
  exact W8_v11 m ρ c

theorem W9_v12 : W9 m ρ c (Proc.devRef .tc main_v12) = (arg m c main_arg2) := by
  show StableHlo.after hostOps4 (W8 m ρ c) (Proc.devRef .tc main_v12) = _
  after_results_simp
  exact W8_v12 m ρ c

theorem W9_v81 : W9 m ρ c (Proc.devRef .tc main_v81) = (Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  show StableHlo.after hostOps4 (W8 m ρ c) (Proc.devRef .tc main_v81) = _
  after_results_simp
  exact W8_v81 m ρ c

theorem W9_v87 : W9 m ρ c (Proc.devRef .tc main_v87) = (Cert.ReferenceIdeal.ReadP.val_main_v93 (F := Ideal) (arg m c main_arg9)) := by
  show StableHlo.after hostOps4 (W8 m ρ c) (Proc.devRef .tc main_v87) = _
  after_results_simp
  simp only [W8_arg9 m ρ c]
  rfl

theorem W9_v89 : W9 m ρ c (Proc.devRef .tc main_v89) = (Cert.ReferenceIdeal.ReadP.val_main_v95 (F := Ideal) (arg m c main_arg10)) := by
  show StableHlo.after hostOps4 (W8 m ρ c) (Proc.devRef .tc main_v89) = _
  after_results_simp
  simp only [W8_arg10 m ρ c]
  rfl

theorem W9_v96 : W9 m ρ c (Proc.devRef .tc main_v96) = (Cert.ReferenceIdeal.ReadP.val_main_v102 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  show StableHlo.after hostOps4 (W8 m ρ c) (Proc.devRef .tc main_v96) = _
  after_results_simp
  simp only [W8_v81 m ρ c, W8_v1 m ρ c]
  rfl

theorem W9_v103 : W9 m ρ c (Proc.devRef .tc main_v103) = (Cert.ReferenceIdeal.ReadP.val_main_v109 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  show StableHlo.after hostOps4 (W8 m ρ c) (Proc.devRef .tc main_v103) = _
  after_results_simp
  simp only [W8_v81 m ρ c, W8_v3 m ρ c]
  rfl

theorem W9_v104 : W9 m ρ c (Proc.devRef .tc main_v104) = (band (T := 544) (N := 256) 256 0 (by decide) (Cert.ReferenceIdeal.ReadP.val_main_v89 (F := Ideal) (arg m c main_arg7))) := by
  show StableHlo.after hostOps4 (W8 m ρ c) (Proc.devRef .tc main_v104) = _
  after_results_simp
  simp only [W8_arg7 m ρ c]
  exact slice_eq_band 256 0 _ _ _

theorem W9_v105 : W9 m ρ c (Proc.devRef .tc main_v105) = (band (T := 544) (N := 256) 256 256 (by decide) (Cert.ReferenceIdeal.ReadP.val_main_v89 (F := Ideal) (arg m c main_arg7))) := by
  show StableHlo.after hostOps4 (W8 m ρ c) (Proc.devRef .tc main_v105) = _
  after_results_simp
  simp only [W8_arg7 m ρ c]
  exact slice_eq_band 256 256 _ _ _

theorem W9_v106 : W9 m ρ c (Proc.devRef .tc main_v106) = (band (T := 544) (N := 256) 32 512 (by decide) (Cert.ReferenceIdeal.ReadP.val_main_v89 (F := Ideal) (arg m c main_arg7))) := by
  show StableHlo.after hostOps4 (W8 m ρ c) (Proc.devRef .tc main_v106) = _
  after_results_simp
  simp only [W8_arg7 m ρ c]
  exact slice_eq_band 32 512 _ _ _

theorem W9_v107 : W9 m ρ c (Proc.devRef .tc main_v107) = (rowvec (N := 256) (Cert.ReferenceIdeal.ReadP.val_main_v91 (F := Ideal) (arg m c main_arg8))) := by
  show StableHlo.after hostOps4 (W8 m ρ c) (Proc.devRef .tc main_v107) = _
  after_results_simp
  simp only [W8_arg8 m ρ c]
  exact reshape_eq_rowvec _ _

/-! ## After region 4 -/

theorem W10_v108 : W10 m ρ c (Proc.devRef .tc main_v108) = (Cert.ReferenceIdeal.ReadP.val_main_v115 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  refine (W10_arr m ρ c 7).trans ((R4.final (V9 m ρ) c).trans ?_)
  unfold R4.G
  rw [show V9 m ρ c main_v96 = _ from W9_v96 m ρ c,
    show V9 m ρ c main_v103 = _ from W9_v103 m ρ c,
    show V9 m ρ c main_v12 = _ from W9_v12 m ρ c,
    show V9 m ρ c main_v104 = _ from W9_v104 m ρ c,
    show V9 m ρ c main_v105 = _ from W9_v105 m ρ c,
    show V9 m ρ c main_v106 = _ from W9_v106 m ρ c,
    show V9 m ρ c main_v107 = _ from W9_v107 m ρ c]
  exact (Cert.ReferenceIdeal.Forms.edge3 _ _ _ _ _ _ _ _ _ _ _).symm

theorem W10_arg11 : W10 m ρ c (Proc.devRef .tc main_arg11) = (arg m c main_arg11) :=
  (W10_of_ne m ρ c main_arg11 (by decide)).trans (W9_arg11 m ρ c)

theorem W10_arg13 : W10 m ρ c (Proc.devRef .tc main_arg13) = (arg m c main_arg13) :=
  (W10_of_ne m ρ c main_arg13 (by decide)).trans (W9_arg13 m ρ c)

theorem W10_arg12 : W10 m ρ c (Proc.devRef .tc main_arg12) = (arg m c main_arg12) :=
  (W10_of_ne m ρ c main_arg12 (by decide)).trans (W9_arg12 m ρ c)

theorem W10_arg14 : W10 m ρ c (Proc.devRef .tc main_arg14) = (arg m c main_arg14) :=
  (W10_of_ne m ρ c main_arg14 (by decide)).trans (W9_arg14 m ρ c)

theorem W10_v3 : W10 m ρ c (Proc.devRef .tc main_v3) = (Cert.ReferenceIdeal.ReadP.val_main_v3 (F := Ideal) (arg m c main_arg1)) :=
  (W10_of_ne m ρ c main_v3 (by decide)).trans (W9_v3 m ρ c)

theorem W10_v11 : W10 m ρ c (Proc.devRef .tc main_v11) = (Host.divf (F := Ideal) (φ := .f32) (Cert.ReferenceIdeal.ReadP.val_main_v31 (F := Ideal)) (Cert.ReferenceIdeal.ReadP.val_main_v32 (F := Ideal) (arg m c main_arg1))) :=
  (W10_of_ne m ρ c main_v11 (by decide)).trans (W9_v11 m ρ c)

theorem W10_v81 : W10 m ρ c (Proc.devRef .tc main_v81) = (Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) :=
  (W10_of_ne m ρ c main_v81 (by decide)).trans (W9_v81 m ρ c)

theorem W10_v87 : W10 m ρ c (Proc.devRef .tc main_v87) = (Cert.ReferenceIdeal.ReadP.val_main_v93 (F := Ideal) (arg m c main_arg9)) :=
  (W10_of_ne m ρ c main_v87 (by decide)).trans (W9_v87 m ρ c)

theorem W10_v89 : W10 m ρ c (Proc.devRef .tc main_v89) = (Cert.ReferenceIdeal.ReadP.val_main_v95 (F := Ideal) (arg m c main_arg10)) :=
  (W10_of_ne m ρ c main_v89 (by decide)).trans (W9_v89 m ρ c)

end Cert.KernelIdeal.KStages

end
-- ==== Proof.Stage5.lean ====
/-
  Boundaries 11 and 12 of the idealized kernel's run: what the buffers hold after the sixth stretch of host
  operations and after region 5, each as the reference's own value of the argument arrays (or a band of a weight
  matrix, or a bias as a row). A buffer that a stretch or a region does not write keeps what it held.
-/
import proofs.«100581_j48619029791202_2_alg».proof.Proof.Gen.KernelIdeal.Frame
import proofs.«100581_j48619029791202_2_alg».proof.Proof.RefRead
import proofs.«100581_j48619029791202_2_alg».proof.Proof.Region5
import proofs.«100581_j48619029791202_2_alg».proof.Proof.RefForms
import proofs.«100581_j48619029791202_2_alg».proof.Proof.Spec
import proofs.«100581_j48619029791202_2_alg».proof.Proof.Mean
import proofs.«100581_j48619029791202_2_alg».proof.Proof.Stage4

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg) (c : Dev nD)

/-! ## After the stretch of host operations -/

theorem W11_arg11 : W11 m ρ c (Proc.devRef .tc main_arg11) = (arg m c main_arg11) := by
  show StableHlo.after hostOps5 (W10 m ρ c) (Proc.devRef .tc main_arg11) = _
  after_results_simp
  exact W10_arg11 m ρ c

theorem W11_arg13 : W11 m ρ c (Proc.devRef .tc main_arg13) = (arg m c main_arg13) := by
  show StableHlo.after hostOps5 (W10 m ρ c) (Proc.devRef .tc main_arg13) = _
  after_results_simp
  exact W10_arg13 m ρ c

theorem W11_v81 : W11 m ρ c (Proc.devRef .tc main_v81) = (Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  show StableHlo.after hostOps5 (W10 m ρ c) (Proc.devRef .tc main_v81) = _
  after_results_simp
  exact W10_v81 m ρ c

theorem W11_v115 : W11 m ρ c (Proc.devRef .tc main_v115) = (Cert.ReferenceIdeal.ReadP.val_main_v127 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) := by
  show StableHlo.after hostOps5 (W10 m ρ c) (Proc.devRef .tc main_v115) = _
  after_results_simp
  simp only [W10_v3 m ρ c, W10_v108 m ρ c, W10_v11 m ρ c]
  refine (Cert.ReferenceIdeal.Mean.mean_eq (Cert.ReferenceIdeal.ReadP.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10)) (Cert.ReferenceIdeal.ReadP.val_main_v122 (F := Ideal) (arg m c main_arg1)) _).trans ?_
  rfl

theorem W11_v116 : W11 m ρ c (Proc.devRef .tc main_v116) = (band (T := 512) (N := 256) 256 0 (by decide) (Cert.ReferenceIdeal.ReadP.val_main_v93 (F := Ideal) (arg m c main_arg9))) := by
  show StableHlo.after hostOps5 (W10 m ρ c) (Proc.devRef .tc main_v116) = _
  after_results_simp
  simp only [W10_v87 m ρ c]
  exact slice_eq_band 256 0 _ _ _

theorem W11_v117 : W11 m ρ c (Proc.devRef .tc main_v117) = (band (T := 512) (N := 256) 256 256 (by decide) (Cert.ReferenceIdeal.ReadP.val_main_v93 (F := Ideal) (arg m c main_arg9))) := by
  show StableHlo.after hostOps5 (W10 m ρ c) (Proc.devRef .tc main_v117) = _
  after_results_simp
  simp only [W10_v87 m ρ c]
  exact slice_eq_band 256 256 _ _ _

theorem W11_v118 : W11 m ρ c (Proc.devRef .tc main_v118) = (rowvec (N := 256) (Cert.ReferenceIdeal.ReadP.val_main_v95 (F := Ideal) (arg m c main_arg10))) := by
  show StableHlo.after hostOps5 (W10 m ρ c) (Proc.devRef .tc main_v118) = _
  after_results_simp
  simp only [W10_v89 m ρ c]
  exact reshape_eq_rowvec _ _

theorem W11_v119 : W11 m ρ c (Proc.devRef .tc main_v119) = (rowvec (N := 256) (arg m c main_arg12)) := by
  show StableHlo.after hostOps5 (W10 m ρ c) (Proc.devRef .tc main_v119) = _
  after_results_simp
  simp only [W10_arg12 m ρ c]
  exact reshape_eq_rowvec _ _

theorem W11_v120 : W11 m ρ c (Proc.devRef .tc main_v120) = (rowvec (N := 1) (arg m c main_arg14)) := by
  show StableHlo.after hostOps5 (W10 m ρ c) (Proc.devRef .tc main_v120) = _
  after_results_simp
  simp only [W10_arg14 m ρ c]
  exact reshape_eq_rowvec _ _

/-! ## After region 5 -/

theorem W12_v121 : W12 m ρ c (Proc.devRef .tc main_v121) = (Cert.ReferenceIdeal.ReadP.val_main_v142 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)) := by
  refine (W12_arr m ρ c 9).trans ((R5.final (V11 m ρ) c).trans ?_)
  unfold R5.G
  rw [show V11 m ρ c main_v81 = _ from W11_v81 m ρ c,
    show V11 m ρ c main_v115 = _ from W11_v115 m ρ c,
    show V11 m ρ c main_v116 = _ from W11_v116 m ρ c,
    show V11 m ρ c main_v117 = _ from W11_v117 m ρ c,
    show V11 m ρ c main_v118 = _ from W11_v118 m ρ c,
    show V11 m ρ c main_arg11 = _ from W11_arg11 m ρ c,
    show V11 m ρ c main_v119 = _ from W11_v119 m ρ c,
    show V11 m ρ c main_arg13 = _ from W11_arg13 m ρ c,
    show V11 m ρ c main_v120 = _ from W11_v120 m ρ c]
  rw [Cert.ReferenceIdeal.Forms.out, Cert.ReferenceIdeal.Forms.dense, Cert.ReferenceIdeal.Forms.node3]

end Cert.KernelIdeal.KStages

end
-- ==== Proof.RefRun.lean ====
/-
  The reference's run. @main is a straight line of 181 host operations, listed here in thirteen consecutive chunks (each
  ends where a layer's gathers, edge messages, mean, or node update is complete, so that a concatenation opens its chunk). Every weakly fair execution terminates and
  every buffer ends at the fold of the operations over the launch contents; an argument array is written by no
  operation, so it ends as launched. The result buffer is left at the fold (`result_fold`): the stage modules evaluate
  it chunk by chunk.
-/
import proofs.«100581_j48619029791202_2_alg».proof.ReferenceIdeal
import proofs.«100581_j48619029791202_2_alg».proof.Proof.Gen.ReferenceIdeal
import Idealize.ShloMosaic.Lib.StableHlo.Run

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of @main: up to `main_v17`. -/
abbrev ops0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v11 (broadcastInDim S400000 ![] bcast_S_S400000 : (⟨S_, .i32⟩ : BufTy).Contents (Elt F) → (⟨S400000, .i32⟩ : BufTy).Contents (Elt F)),
    binary main_v3 main_v11 main_v12 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v13 (broadcastInDim S400000 ![] bcast_S_S400000 : (⟨S_, .i32⟩ : BufTy).Contents (Elt F) → (⟨S400000, .i32⟩ : BufTy).Contents (Elt F)),
    binary main_v3 main_v13 main_v14 (addi : (⟨S400000, .i32⟩ : BufTy).Contents (Elt F) → (⟨S400000, .i32⟩ : BufTy).Contents (Elt F) → (⟨S400000, .i32⟩ : BufTy).Contents (Elt F)),
    ternary main_v12 main_v14 main_v3 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v15 main_v16 (broadcastInDim S400000x1 ![0] bcast_S400000_S400000x1_0 : (⟨S400000, .i32⟩ : BufTy).Contents (Elt F) → (⟨S400000x1, .i32⟩ : BufTy).Contents (Elt F)),
    binary main_arg0 main_v16 main_v17 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops0_fresh : ∀ op ∈ (ops0 : List (HloOp τ sig (Elt F))), op.fresh = ∅ :=
  List.forall_iff_forall_mem.mp (by simp only [List.Forall]; repeat' constructor)

/-- Operations 23 … 30 of @main: up to `main_v23`. -/
abbrev ops1 : List (HloOp τ sig (Elt F)) :=
  [ nary ![main_v10, main_v17, main_arg2] main_v18 (fun u => concatenate S400000x288 1 [⟨S400000x128, u 0⟩, ⟨S400000x128, u 1⟩, ⟨S400000x32, u 2⟩] concatenates_S400000x128_S400000x128_S400000x32_S400000x288_d1),
    binary main_v18 main_arg3 main_v19 ((fun l r => Host.dotGeneral dot_S400000x288_S288x256_S400000x256_1_0_0_1_n_n none l r) : (⟨S400000x288, .f32⟩ : BufTy).Contents (Elt F) → (⟨S288x256, .f32⟩ : BufTy).Contents (Elt F) → (⟨S400000x256, .f32⟩ : BufTy).Contents (Elt F)),
    unary main_arg4 main_v20 (broadcastInDim S1x256 ![1] bcast_S256_S1x256_1 : (⟨S256, .f32⟩ : BufTy).Contents (Elt F) → (⟨S1x256, .f32⟩ : BufTy).Contents (Elt F)),
    unary main_v20 main_v21 (broadcastInDim S400000x256 ![0, 1] bcast_S1x256_S400000x256_0_1 : (⟨S1x256, .f32⟩ : BufTy).Contents (Elt F) → (⟨S400000x256, .f32⟩ : BufTy).Contents (Elt F)),
    binary main_v19 main_v21 main_v22 (addf : (⟨S400000x256, .f32⟩ : BufTy).Contents (Elt F) → (⟨S400000x256, .f32⟩ : BufTy).Contents (Elt F) → (⟨S400000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x256, .f32⟩) main_call0_v0) (broadcastInDim S400000x256 ![] bcast_S_S400000x256),
    TRef.binary (TRef.of (T := ⟨S400000x256, .f32⟩) main_v22) (TRef.of (T := ⟨S400000x256, .f32⟩) main_call0_v0) (TRef.of (T := ⟨S400000x256, .f32⟩) main_v23) maximumf ]
theorem ops1_sub : (ops1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem ops1_fresh : ∀ op ∈ (ops1 : List (HloOp τ sig (Elt F))), op.fresh = ∅ :=
  List.forall_iff_forall_mem.mp (by simp only [List.Forall]; repeat' constructor)

/-- Operations 31 … 46 of @main: up to `main_v35`. -/
abbrev ops2 : List (HloOp τ sig (Elt F)) :=
  [ nullary main_cst (constant S_ .f32 0x00000000#32),
    unary main_cst main_v24 (broadcastInDim S50000x256 ![] bcast_S_S50000x256 : (⟨S_, .f32⟩ : BufTy).Contents (Elt F) → (⟨S50000x256, .f32⟩ : BufTy).Contents (Elt F)),
    unary main_v3 main_v25 (broadcastInDim S400000x1 ![0] bcast_S400000_S400000x1_0 : (⟨S400000, .i32⟩ : BufTy).Contents (Elt F) → (⟨S400000x1, .i32⟩ : BufTy).Contents (Elt F)),
    ternary main_v24 main_v25 main_v23 main_v26 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_3 (constant S_ .f32 0x3F800000#32),
    unary main_cst_3 main_v27 (broadcastInDim S400000 ![] bcast_S_S400000 : (⟨S_, .f32⟩ : BufTy).Contents (Elt F) → (⟨S400000, .f32⟩ : BufTy).Contents (Elt F)),
    nullary main_cst_4 (constant S_ .f32 0x00000000#32),
    unary main_cst_4 main_v28 (broadcastInDim S50000 ![] bcast_S_S50000 : (⟨S_, .f32⟩ : BufTy).Contents (Elt F) → (⟨S50000, .f32⟩ : BufTy).Contents (Elt F)),
    unary main_v3 main_v29 (broadcastInDim S400000x1 ![0] bcast_S400000_S400000x1_0 : (⟨S400000, .i32⟩ : BufTy).Contents (Elt F) → (⟨S400000x1, .i32⟩ : BufTy).Contents (Elt F)),
    ternary main_v28 main_v29 main_v27 main_v30 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_5 (constant S_ .f32 0x3F800000#32),
    unary main_cst_5 main_v31 (broadcastInDim S50000 ![] bcast_S_S50000 : (⟨S_, .f32⟩ : BufTy).Contents (Elt F) → (⟨S50000, .f32⟩ : BufTy).Contents (Elt F)),
    binary main_v30 main_v31 main_v32 (maximumf : (⟨S50000, .f32⟩ : BufTy).Contents (Elt F) → (⟨S50000, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v26 main_v34 main_v35 (Host.divf : (⟨S50000x256, .f32⟩ : BufTy).Contents (Elt F) → (⟨S50000x256, .f32⟩ : BufTy).Contents (Elt F) → (⟨S50000x256, .f32⟩ : BufTy).Contents (Elt F)) ]
theorem ops2_sub : (ops2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem ops2_fresh : ∀ op ∈ (ops2 : List (HloOp τ sig (Elt F))), op.fresh = ∅ :=
  List.forall_iff_forall_mem.mp (by simp only [List.Forall]; repeat' constructor)

/-- Operations 47 … 54 of @main: up to `main_v41`. -/
abbrev ops3 : List (HloOp τ sig (Elt F)) :=
  [ binary main_arg0 main_v35 main_v36 ((fun a b => concatenate S50000x384 1 [⟨S50000x128, a⟩, ⟨S50000x256, b⟩] concatenates_S50000x128_S50000x256_S50000x384_d1) : (⟨S50000x128, .f32⟩ : BufTy).Contents (Elt F) → (⟨S50000x256, .f32⟩ : BufTy).Contents (Elt F) → (⟨S50000x384, .f32⟩ : BufTy).Contents (Elt F)),
    binary main_v36 main_arg5 main_v37 ((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)),
    unary main_arg6 main_v38 (broadcastInDim S1x256 ![1] bcast_S256_S1x256_1 : (⟨S256, .f32⟩ : BufTy).Contents (Elt F) → (⟨S1x256, .f32⟩ : BufTy).Contents (Elt F)),
    unary main_v38 main_v39 (broadcastInDim S50000x256 ![0, 1] bcast_S1x256_S50000x256_0_1 : (⟨S1x256, .f32⟩ : BufTy).Contents (Elt F) → (⟨S50000x256, .f32⟩ : BufTy).Contents (Elt F)),
    binary main_v37 main_v39 main_v40 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v40) (TRef.of (T := ⟨S50000x256, .f32⟩) main_call1_v0) (TRef.of (T := ⟨S50000x256, .f32⟩) main_v41) maximumf ]
theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops3_fresh : ∀ op ∈ (ops3 : List (HloOp τ sig (Elt F))), op.fresh = ∅ :=
  List.forall_iff_forall_mem.mp (by simp only [List.Forall]; repeat' constructor)

/-- Operations 55 … 80 of @main: up to `main_v63`. -/
abbrev ops4 : List (HloOp τ sig (Elt F)) :=
  [ unary main_arg7 main_v42 ((extractStridedSlice S1x544x256 ![0, 0, 0] · slices_S2x544x256_S1x544x256_0_0_0) : (⟨S2x544x256, .f32⟩ : BufTy).Contents (Elt F) → (⟨S1x544x256, .f32⟩ : BufTy).Contents (Elt F)),
    reshape main_v42 main_v43 rfl shapeCasts_S1x544x256_S544x256,
    unary main_arg8 main_v44 ((extractStridedSlice S1x256 ![0, 0] · slices_S2x256_S1x256_0_0) : (⟨S2x256, .f32⟩ : BufTy).Contents (Elt F) → (⟨S1x256, .f32⟩ : BufTy).Contents (Elt F)),
    reshape main_v44 main_v45 rfl shapeCasts_S1x256_S256,
    unary main_arg9 main_v46 ((extractStridedSlice S1x512x256 ![0, 0, 0] · slices_S2x512x256_S1x512x256_0_0_0) : (⟨S2x512x256, .f32⟩ : BufTy).Contents (Elt F) → (⟨S1x512x256, .f32⟩ : BufTy).Contents (Elt F)),
    reshape main_v46 main_v47 rfl shapeCasts_S1x512x256_S512x256,
    unary main_arg10 main_v48 ((extractStridedSlice S1x256 ![0, 0] · slices_S2x256_S1x256_0_0) : (⟨S2x256, .f32⟩ : BufTy).Contents (Elt F) → (⟨S1x256, .f32⟩ : BufTy).Contents (Elt F)),
    reshape main_v48 main_v49 rfl shapeCasts_S1x256_S256,
    nullary main_c_6 (constantI S_ 32 0#32),
    unary main_c_6 main_v50 (broadcastInDim S400000 ![] bcast_S_S400000 : (⟨S_, .i32⟩ : BufTy).Contents (Elt F) → (⟨S400000, .i32⟩ : BufTy).Contents (Elt F)),
    binary main_v1 main_v50 main_v51 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32),
    unary main_c_7 main_v52 (broadcastInDim S400000 ![] bcast_S_S400000 : (⟨S_, .i32⟩ : BufTy).Contents (Elt F) → (⟨S400000, .i32⟩ : BufTy).Contents (Elt F)),
    binary main_v1 main_v52 main_v53 (addi : (⟨S400000, .i32⟩ : BufTy).Contents (Elt F) → (⟨S400000, .i32⟩ : BufTy).Contents (Elt F) → (⟨S400000, .i32⟩ : BufTy).Contents (Elt F)),
    ternary main_v51 main_v53 main_v1 main_v54 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v54 main_v55 (broadcastInDim S400000x1 ![0] bcast_S400000_S400000x1_0 : (⟨S400000, .i32⟩ : BufTy).Contents (Elt F) → (⟨S400000x1, .i32⟩ : BufTy).Contents (Elt F)),
    binary main_v41 main_v55 main_v56 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    nullary main_c_8 (constantI S_ 32 0#32),
    unary main_c_8 main_v57 (broadcastInDim S400000 ![] bcast_S_S400000 : (⟨S_, .i32⟩ : BufTy).Contents (Elt F) → (⟨S400000, .i32⟩ : BufTy).Contents (Elt F)),
    binary main_v3 main_v57 main_v58 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v59 (broadcastInDim S400000 ![] bcast_S_S400000 : (⟨S_, .i32⟩ : BufTy).Contents (Elt F) → (⟨S400000, .i32⟩ : BufTy).Contents (Elt F)),
    binary main_v3 main_v59 main_v60 (addi : (⟨S400000, .i32⟩ : BufTy).Contents (Elt F) → (⟨S400000, .i32⟩ : BufTy).Contents (Elt F) → (⟨S400000, .i32⟩ : BufTy).Contents (Elt F)),
    ternary main_v58 main_v60 main_v3 main_v61 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v61 main_v62 (broadcastInDim S400000x1 ![0] bcast_S400000_S400000x1_0 : (⟨S400000, .i32⟩ : BufTy).Contents (Elt F) → (⟨S400000x1, .i32⟩ : BufTy).Contents (Elt F)),
    binary main_v41 main_v62 main_v63 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)) ]
theorem ops4_sub : (ops4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops4_fresh : ∀ op ∈ (ops4 : List (HloOp τ sig (Elt F))), op.fresh = ∅ :=
  List.forall_iff_forall_mem.mp (by simp only [List.Forall]; repeat' constructor)

/-- Operations 81 … 88 of @main: up to `main_v69`. -/
abbrev ops5 : List (HloOp τ sig (Elt F)) :=
  [ nary ![main_v56, main_v63, main_arg2] main_v64 (fun u => concatenate S400000x544 1 [⟨S400000x256, u 0⟩, ⟨S400000x256, u 1⟩, ⟨S400000x32, u 2⟩] concatenates_S400000x256_S400000x256_S400000x32_S400000x544_d1),
    binary main_v64 main_v43 main_v65 ((fun l r => Host.dotGeneral dot_S400000x544_S544x256_S400000x256_1_0_0_1_n_n none l r) : (⟨S400000x544, .f32⟩ : BufTy).Contents (Elt F) → (⟨S544x256, .f32⟩ : BufTy).Contents (Elt F) → (⟨S400000x256, .f32⟩ : BufTy).Contents (Elt F)),
    unary main_v45 main_v66 (broadcastInDim S1x256 ![1] bcast_S256_S1x256_1 : (⟨S256, .f32⟩ : BufTy).Contents (Elt F) → (⟨S1x256, .f32⟩ : BufTy).Contents (Elt F)),
    unary main_v66 main_v67 (broadcastInDim S400000x256 ![0, 1] bcast_S1x256_S400000x256_0_1 : (⟨S1x256, .f32⟩ : BufTy).Contents (Elt F) → (⟨S400000x256, .f32⟩ : BufTy).Contents (Elt F)),
    binary main_v65 main_v67 main_v68 (addf : (⟨S400000x256, .f32⟩ : BufTy).Contents (Elt F) → (⟨S400000x256, .f32⟩ : BufTy).Contents (Elt F) → (⟨S400000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S400000x256, .f32⟩) main_call2_v0) (broadcastInDim S400000x256 ![] bcast_S_S400000x256),
    TRef.binary (TRef.of (T := ⟨S400000x256, .f32⟩) main_v68) (TRef.of (T := ⟨S400000x256, .f32⟩) main_call2_v0) (TRef.of (T := ⟨S400000x256, .f32⟩) main_v69) maximumf ]
theorem ops5_sub : (ops5 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem ops5_fresh : ∀ op ∈ (ops5 : List (HloOp τ sig (Elt F))), op.fresh = ∅ :=
  List.forall_iff_forall_mem.mp (by simp only [List.Forall]; repeat' constructor)

/-- Operations 89 … 104 of @main: up to `main_v81`. -/
abbrev ops6 : List (HloOp τ sig (Elt F)) :=
  [ nullary main_cst_10 (constant S_ .f32 0x00000000#32),
    unary main_cst_10 main_v70 (broadcastInDim S50000x256 ![] bcast_S_S50000x256 : (⟨S_, .f32⟩ : BufTy).Contents (Elt F) → (⟨S50000x256, .f32⟩ : BufTy).Contents (Elt F)),
    unary main_v3 main_v71 (broadcastInDim S400000x1 ![0] bcast_S400000_S400000x1_0 : (⟨S400000, .i32⟩ : BufTy).Contents (Elt F) → (⟨S400000x1, .i32⟩ : BufTy).Contents (Elt F)),
    ternary main_v70 main_v71 main_v69 main_v72 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_11 (constant S_ .f32 0x3F800000#32),
    unary main_cst_11 main_v73 (broadcastInDim S400000 ![] bcast_S_S400000 : (⟨S_, .f32⟩ : BufTy).Contents (Elt F) → (⟨S400000, .f32⟩ : BufTy).Contents (Elt F)),
    nullary main_cst_12 (constant S_ .f32 0x00000000#32),
    unary main_cst_12 main_v74 (broadcastInDim S50000 ![] bcast_S_S50000 : (⟨S_, .f32⟩ : BufTy).Contents (Elt F) → (⟨S50000, .f32⟩ : BufTy).Contents (Elt F)),
    unary main_v3 main_v75 (broadcastInDim S400000x1 ![0] bcast_S400000_S400000x1_0 : (⟨S400000, .i32⟩ : BufTy).Contents (Elt F) → (⟨S400000x1, .i32⟩ : BufTy).Contents (Elt F)),
    ternary main_v74 main_v75 main_v73 main_v76 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_13 (constant S_ .f32 0x3F800000#32),
    unary main_cst_13 main_v77 (broadcastInDim S50000 ![] bcast_S_S50000 : (⟨S_, .f32⟩ : BufTy).Contents (Elt F) → (⟨S50000, .f32⟩ : BufTy).Contents (Elt F)),
    binary main_v76 main_v77 main_v78 (maximumf : (⟨S50000, .f32⟩ : BufTy).Contents (Elt F) → (⟨S50000, .f32⟩ : BufTy).Contents (Elt F) → (⟨S50000, .f32⟩ : BufTy).Contents (Elt F)),
    unary main_v78 main_v79 (broadcastInDim S50000x1 ![0] bcast_S50000_S50000x1_0 : (⟨S50000, .f32⟩ : BufTy).Contents (Elt F) → (⟨S50000x1, .f32⟩ : BufTy).Contents (Elt F)),
    unary main_v79 main_v80 (broadcastInDim S50000x256 ![0, 1] bcast_S50000x1_S50000x256_0_1 : (⟨S50000x1, .f32⟩ : BufTy).Contents (Elt F) → (⟨S50000x256, .f32⟩ : BufTy).Contents (Elt F)),
    binary main_v72 main_v80 main_v81 (Host.divf : (⟨S50000x256, .f32⟩ : BufTy).Contents (Elt F) → (⟨S50000x256, .f32⟩ : BufTy).Contents (Elt F) → (⟨S50000x256, .f32⟩ : BufTy).Contents (Elt F)) ]
theorem ops6_sub : (ops6 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem ops6_fresh : ∀ op ∈ (ops6 : List (HloOp τ sig (Elt F))), op.fresh = ∅ :=
  List.forall_iff_forall_mem.mp (by simp only [List.Forall]; repeat' constructor)

/-- Operations 105 … 112 of @main: up to `main_v87`. -/
abbrev ops7 : List (HloOp τ sig (Elt F)) :=
  [ binary main_v41 main_v81 main_v82 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v82 main_v47 main_v83 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_v49 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v83 main_v85 main_v86 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v86) (TRef.of (T := ⟨S50000x256, .f32⟩) main_call3_v0) (TRef.of (T := ⟨S50000x256, .f32⟩) main_v87) maximumf ]
theorem ops7_sub : (ops7 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops7_fresh : ∀ op ∈ (ops7 : List (HloOp τ sig (Elt F))), op.fresh = ∅ :=
  List.forall_iff_forall_mem.mp (by simp only [List.Forall]; repeat' constructor)

/-- Operations 113 … 138 of @main: up to `main_v109`. -/
abbrev ops8 : List (HloOp τ sig (Elt F)) :=
  [ unary main_arg7 main_v88 ((extractStridedSlice S1x544x256 ![1, 0, 0] · slices_S2x544x256_S1x544x256_1_0_0) : (⟨S2x544x256, .f32⟩ : BufTy).Contents (Elt F) → (⟨S1x544x256, .f32⟩ : BufTy).Contents (Elt F)),
    reshape main_v88 main_v89 rfl shapeCasts_S1x544x256_S544x256,
    unary main_arg8 main_v90 ((extractStridedSlice S1x256 ![1, 0] · slices_S2x256_S1x256_1_0) : (⟨S2x256, .f32⟩ : BufTy).Contents (Elt F) → (⟨S1x256, .f32⟩ : BufTy).Contents (Elt F)),
    reshape main_v90 main_v91 rfl shapeCasts_S1x256_S256,
    unary main_arg9 main_v92 ((extractStridedSlice S1x512x256 ![1, 0, 0] · slices_S2x512x256_S1x512x256_1_0_0) : (⟨S2x512x256, .f32⟩ : BufTy).Contents (Elt F) → (⟨S1x512x256, .f32⟩ : BufTy).Contents (Elt F)),
    reshape main_v92 main_v93 rfl shapeCasts_S1x512x256_S512x256,
    unary main_arg10 main_v94 ((extractStridedSlice S1x256 ![1, 0] · slices_S2x256_S1x256_1_0) : (⟨S2x256, .f32⟩ : BufTy).Contents (Elt F) → (⟨S1x256, .f32⟩ : BufTy).Contents (Elt F)),
    reshape main_v94 main_v95 rfl shapeCasts_S1x256_S256,
    nullary main_c_14 (constantI S_ 32 0#32),
    unary main_c_14 main_v96 (broadcastInDim S400000 ![] bcast_S_S400000 : (⟨S_, .i32⟩ : BufTy).Contents (Elt F) → (⟨S400000, .i32⟩ : BufTy).Contents (Elt F)),
    binary main_v1 main_v96 main_v97 (cmpi .slt : (⟨S400000, .i32⟩ : BufTy).Contents (Elt F) → (⟨S400000, .i32⟩ : BufTy).Contents (Elt F) → (⟨S400000, .i1⟩ : BufTy).Contents (Elt F)),
    nullary main_c_15 (constantI S_ 32 50000#32),
    unary main_c_15 main_v98 (broadcastInDim S400000 ![] bcast_S_S400000 : (⟨S_, .i32⟩ : BufTy).Contents (Elt F) → (⟨S400000, .i32⟩ : BufTy).Contents (Elt F)),
    binary main_v1 main_v98 main_v99 (addi : (⟨S400000, .i32⟩ : BufTy).Contents (Elt F) → (⟨S400000, .i32⟩ : BufTy).Contents (Elt F) → (⟨S400000, .i32⟩ : BufTy).Contents (Elt F)),
    ternary main_v97 main_v99 main_v1 main_v100 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v100 main_v101 (broadcastInDim S400000x1 ![0] bcast_S400000_S400000x1_0 : (⟨S400000, .i32⟩ : BufTy).Contents (Elt F) → (⟨S400000x1, .i32⟩ : BufTy).Contents (Elt F)),
    binary main_v87 main_v101 main_v102 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    nullary main_c_16 (constantI S_ 32 0#32),
    unary main_c_16 main_v103 (broadcastInDim S400000 ![] bcast_S_S400000 : (⟨S_, .i32⟩ : BufTy).Contents (Elt F) → (⟨S400000, .i32⟩ : BufTy).Contents (Elt F)),
    binary main_v3 main_v103 main_v104 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v105 (broadcastInDim S400000 ![] bcast_S_S400000 : (⟨S_, .i32⟩ : BufTy).Contents (Elt F) → (⟨S400000, .i32⟩ : BufTy).Contents (Elt F)),
    binary main_v3 main_v105 main_v106 (addi : (⟨S400000, .i32⟩ : BufTy).Contents (Elt F) → (⟨S400000, .i32⟩ : BufTy).Contents (Elt F) → (⟨S400000, .i32⟩ : BufTy).Contents (Elt F)),
    ternary main_v104 main_v106 main_v3 main_v107 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v107 main_v108 (broadcastInDim S400000x1 ![0] bcast_S400000_S400000x1_0 : (⟨S400000, .i32⟩ : BufTy).Contents (Elt F) → (⟨S400000x1, .i32⟩ : BufTy).Contents (Elt F)),
    binary main_v87 main_v108 main_v109 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)) ]
theorem ops8_sub : (ops8 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops8_fresh : ∀ op ∈ (ops8 : List (HloOp τ sig (Elt F))), op.fresh = ∅ :=
  List.forall_iff_forall_mem.mp (by simp only [List.Forall]; repeat' constructor)

/-- Operations 139 … 146 of @main: up to `main_v115`. -/
abbrev ops9 : List (HloOp τ sig (Elt F)) :=
  [ nary ![main_v102, main_v109, main_arg2] main_v110 (fun u => concatenate S400000x544 1 [⟨S400000x256, u 0⟩, ⟨S400000x256, u 1⟩, ⟨S400000x32, u 2⟩] concatenates_S400000x256_S400000x256_S400000x32_S400000x544_d1),
    binary main_v110 main_v89 main_v111 ((fun l r => Host.dotGeneral dot_S400000x544_S544x256_S400000x256_1_0_0_1_n_n none l r) : (⟨S400000x544, .f32⟩ : BufTy).Contents (Elt F) → (⟨S544x256, .f32⟩ : BufTy).Contents (Elt F) → (⟨S400000x256, .f32⟩ : BufTy).Contents (Elt F)),
    unary main_v91 main_v112 (broadcastInDim S1x256 ![1] bcast_S256_S1x256_1 : (⟨S256, .f32⟩ : BufTy).Contents (Elt F) → (⟨S1x256, .f32⟩ : BufTy).Contents (Elt F)),
    unary main_v112 main_v113 (broadcastInDim S400000x256 ![0, 1] bcast_S1x256_S400000x256_0_1 : (⟨S1x256, .f32⟩ : BufTy).Contents (Elt F) → (⟨S400000x256, .f32⟩ : BufTy).Contents (Elt F)),
    binary main_v111 main_v113 main_v114 (addf : (⟨S400000x256, .f32⟩ : BufTy).Contents (Elt F) → (⟨S400000x256, .f32⟩ : BufTy).Contents (Elt F) → (⟨S400000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S400000x256, .f32⟩) main_call4_v0) (broadcastInDim S400000x256 ![] bcast_S_S400000x256),
    TRef.binary (TRef.of (T := ⟨S400000x256, .f32⟩) main_v114) (TRef.of (T := ⟨S400000x256, .f32⟩) main_call4_v0) (TRef.of (T := ⟨S400000x256, .f32⟩) main_v115) maximumf ]
theorem ops9_sub : (ops9 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem ops9_fresh : ∀ op ∈ (ops9 : List (HloOp τ sig (Elt F))), op.fresh = ∅ :=
  List.forall_iff_forall_mem.mp (by simp only [List.Forall]; repeat' constructor)

/-- Operations 147 … 162 of @main: up to `main_v127`. -/
abbrev ops10 : List (HloOp τ sig (Elt F)) :=
  [ nullary main_cst_18 (constant S_ .f32 0x00000000#32),
    unary main_cst_18 main_v116 (broadcastInDim S50000x256 ![] bcast_S_S50000x256 : (⟨S_, .f32⟩ : BufTy).Contents (Elt F) → (⟨S50000x256, .f32⟩ : BufTy).Contents (Elt F)),
    unary main_v3 main_v117 (broadcastInDim S400000x1 ![0] bcast_S400000_S400000x1_0 : (⟨S400000, .i32⟩ : BufTy).Contents (Elt F) → (⟨S400000x1, .i32⟩ : BufTy).Contents (Elt F)),
    ternary main_v116 main_v117 main_v115 main_v118 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_cst_19 (constant S_ .f32 0x3F800000#32),
    unary main_cst_19 main_v119 (broadcastInDim S400000 ![] bcast_S_S400000 : (⟨S_, .f32⟩ : BufTy).Contents (Elt F) → (⟨S400000, .f32⟩ : BufTy).Contents (Elt F)),
    nullary main_cst_20 (constant S_ .f32 0x00000000#32),
    unary main_cst_20 main_v120 (broadcastInDim S50000 ![] bcast_S_S50000 : (⟨S_, .f32⟩ : BufTy).Contents (Elt F) → (⟨S50000, .f32⟩ : BufTy).Contents (Elt F)),
    unary main_v3 main_v121 (broadcastInDim S400000x1 ![0] bcast_S400000_S400000x1_0 : (⟨S400000, .i32⟩ : BufTy).Contents (Elt F) → (⟨S400000x1, .i32⟩ : BufTy).Contents (Elt F)),
    ternary main_v120 main_v121 main_v119 main_v122 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_21 (constant S_ .f32 0x3F800000#32),
    unary main_cst_21 main_v123 (broadcastInDim S50000 ![] bcast_S_S50000 : (⟨S_, .f32⟩ : BufTy).Contents (Elt F) → (⟨S50000, .f32⟩ : BufTy).Contents (Elt F)),
    binary main_v122 main_v123 main_v124 (maximumf : (⟨S50000, .f32⟩ : BufTy).Contents (Elt F) → (⟨S50000, .f32⟩ : BufTy).Contents (Elt F) → (⟨S50000, .f32⟩ : BufTy).Contents (Elt F)),
    unary main_v124 main_v125 (broadcastInDim S50000x1 ![0] bcast_S50000_S50000x1_0 : (⟨S50000, .f32⟩ : BufTy).Contents (Elt F) → (⟨S50000x1, .f32⟩ : BufTy).Contents (Elt F)),
    unary main_v125 main_v126 (broadcastInDim S50000x256 ![0, 1] bcast_S50000x1_S50000x256_0_1 : (⟨S50000x1, .f32⟩ : BufTy).Contents (Elt F) → (⟨S50000x256, .f32⟩ : BufTy).Contents (Elt F)),
    binary main_v118 main_v126 main_v127 (Host.divf : (⟨S50000x256, .f32⟩ : BufTy).Contents (Elt F) → (⟨S50000x256, .f32⟩ : BufTy).Contents (Elt F) → (⟨S50000x256, .f32⟩ : BufTy).Contents (Elt F)) ]
theorem ops10_sub : (ops10 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem ops10_fresh : ∀ op ∈ (ops10 : List (HloOp τ sig (Elt F))), op.fresh = ∅ :=
  List.forall_iff_forall_mem.mp (by simp only [List.Forall]; repeat' constructor)

/-- Operations 163 … 170 of @main: up to `main_v133`. -/
abbrev ops11 : List (HloOp τ sig (Elt F)) :=
  [ binary main_v87 main_v127 main_v128 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v128 main_v93 main_v129 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_v95 main_v130 (broadcastInDim S1x256 ![1] bcast_S256_S1x256_1 : (⟨S256, .f32⟩ : BufTy).Contents (Elt F) → (⟨S1x256, .f32⟩ : BufTy).Contents (Elt F)),
    unary main_v130 main_v131 (broadcastInDim S50000x256 ![0, 1] bcast_S1x256_S50000x256_0_1 : (⟨S1x256, .f32⟩ : BufTy).Contents (Elt F) → (⟨S50000x256, .f32⟩ : BufTy).Contents (Elt F)),
    binary main_v129 main_v131 main_v132 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v132) (TRef.of (T := ⟨S50000x256, .f32⟩) main_call5_v0) (TRef.of (T := ⟨S50000x256, .f32⟩) main_v133) maximumf ]
theorem ops11_sub : (ops11 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops11_fresh : ∀ op ∈ (ops11 : List (HloOp τ sig (Elt F))), op.fresh = ∅ :=
  List.forall_iff_forall_mem.mp (by simp only [List.Forall]; repeat' constructor)

/-- Operations 171 … 181 of @main: up to `main_v142`. -/
abbrev ops12 : List (HloOp τ sig (Elt F)) :=
  [ binary main_v133 main_arg11 main_v134 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg12 main_v135 (broadcastInDim S1x256 ![1] bcast_S256_S1x256_1 : (⟨S256, .f32⟩ : BufTy).Contents (Elt F) → (⟨S1x256, .f32⟩ : BufTy).Contents (Elt F)),
    unary main_v135 main_v136 (broadcastInDim S50000x256 ![0, 1] bcast_S1x256_S50000x256_0_1 : (⟨S1x256, .f32⟩ : BufTy).Contents (Elt F) → (⟨S50000x256, .f32⟩ : BufTy).Contents (Elt F)),
    binary main_v134 main_v136 main_v137 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v137) (TRef.of (T := ⟨S50000x256, .f32⟩) main_call6_v0) (TRef.of (T := ⟨S50000x256, .f32⟩) main_v138) maximumf,
    binary main_v138 main_arg13 main_v139 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg14 main_v140 (broadcastInDim S1x1 ![1] bcast_S1_S1x1_1 : (⟨S1, .f32⟩ : BufTy).Contents (Elt F) → (⟨S1x1, .f32⟩ : BufTy).Contents (Elt F)),
    unary main_v140 main_v141 (broadcastInDim S50000x1 ![0, 1] bcast_S1x1_S50000x1_0_1 : (⟨S1x1, .f32⟩ : BufTy).Contents (Elt F) → (⟨S50000x1, .f32⟩ : BufTy).Contents (Elt F)),
    binary main_v139 main_v141 main_v142 (addf : (⟨S50000x1, .f32⟩ : BufTy).Contents (Elt F) → (⟨S50000x1, .f32⟩ : BufTy).Contents (Elt F) → (⟨S50000x1, .f32⟩ : BufTy).Contents (Elt F)) ]
theorem ops12_sub : (ops12 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops12_fresh : ∀ op ∈ (ops12 : List (HloOp τ sig (Elt F))), op.fresh = ∅ :=
  List.forall_iff_forall_mem.mp (by simp only [List.Forall]; repeat' constructor)

/-- @main's 181 operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12))))))))))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (forall_append ops10_sub (forall_append ops11_sub (ops12_sub))))))))))))

theorem mem_append_fresh {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.mp h).elim (h₁ op) (h₂ op)

theorem ops_fresh : ∀ op ∈ (ops : List (HloOp τ sig (Elt F))), op.fresh = ∅ :=
  mem_append_fresh ops0_fresh (mem_append_fresh ops1_fresh (mem_append_fresh ops2_fresh (mem_append_fresh ops3_fresh (mem_append_fresh ops4_fresh (mem_append_fresh ops5_fresh (mem_append_fresh ops6_fresh (mem_append_fresh ops7_fresh (mem_append_fresh ops8_fresh (mem_append_fresh ops9_fresh (mem_append_fresh ops10_fresh (mem_append_fresh ops11_fresh (ops12_fresh))))))))))))

/-- The fold of two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- An operation list that does not write `b` leaves it. -/
theorem keep (l : List (HloOp τ sig (Elt F))) (V : Valuation τ sig (Elt F)) (b : DevRef τ sig) (h : ∀ op ∈ l, b ∉ op.writes) :
    after l V b = V b := after_of_forall_not_mem l V h

/-- What the result buffer ends holding: the fold of the 181 operations over the launch contents. -/
def result_fold (m : (ℓ : Loc nD τ sig) → Buf (Elt F) ℓ) (c : Dev nD) : Buf (Elt F) ((c.tc : Thread nD τ).loc main_v142) :=
  after ops (launchContents m c) (Proc.devRef .tc main_v142)

end Cert.ReferenceIdeal.RunP

end
-- ==== Proof.RefStage0.lean ====
/-
  The reference's fold, evaluated chunk by chunk (part 0): after each chunk of host operations, every buffer that a
  later chunk reads is the corresponding stage function of the argument arrays; a buffer a chunk does not write keeps
  what it held.
-/
import proofs.«100581_j48619029791202_2_alg».proof.Proof.RefRun
import proofs.«100581_j48619029791202_2_alg».proof.Proof.RefRead

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

/-- An argument array as launched. -/
abbrev rarg (m : (ℓ : Loc nD τ sig) → Buf (Elt Ideal) ℓ) (c : Dev nD) (b : Ref sig .tc) : Buf (Elt Ideal) ((c.tc : Thread nD τ).loc b) :=
  m ((c.tc : Thread nD τ).loc b)

/-- The buffers at launch. -/
def U0 (m : (ℓ : Loc nD τ sig) → Buf (Elt Ideal) ℓ) (c : Dev nD) : Valuation τ sig (Elt Ideal) := launchContents m c
/-- The buffers after chunk 0. -/
def U1 (m : (ℓ : Loc nD τ sig) → Buf (Elt Ideal) ℓ) (c : Dev nD) : Valuation τ sig (Elt Ideal) := after ops0 (U0 m c)
/-- The buffers after chunk 1. -/
def U2 (m : (ℓ : Loc nD τ sig) → Buf (Elt Ideal) ℓ) (c : Dev nD) : Valuation τ sig (Elt Ideal) := after ops1 (U1 m c)
/-- The buffers after chunk 2. -/
def U3 (m : (ℓ : Loc nD τ sig) → Buf (Elt Ideal) ℓ) (c : Dev nD) : Valuation τ sig (Elt Ideal) := after ops2 (U2 m c)
/-- The buffers after chunk 3. -/
def U4 (m : (ℓ : Loc nD τ sig) → Buf (Elt Ideal) ℓ) (c : Dev nD) : Valuation τ sig (Elt Ideal) := after ops3 (U3 m c)
/-- The buffers after chunk 4. -/
def U5 (m : (ℓ : Loc nD τ sig) → Buf (Elt Ideal) ℓ) (c : Dev nD) : Valuation τ sig (Elt Ideal) := after ops4 (U4 m c)
/-- The buffers after chunk 5. -/
def U6 (m : (ℓ : Loc nD τ sig) → Buf (Elt Ideal) ℓ) (c : Dev nD) : Valuation τ sig (Elt Ideal) := after ops5 (U5 m c)
/-- The buffers after chunk 6. -/
def U7 (m : (ℓ : Loc nD τ sig) → Buf (Elt Ideal) ℓ) (c : Dev nD) : Valuation τ sig (Elt Ideal) := after ops6 (U6 m c)
/-- The buffers after chunk 7. -/
def U8 (m : (ℓ : Loc nD τ sig) → Buf (Elt Ideal) ℓ) (c : Dev nD) : Valuation τ sig (Elt Ideal) := after ops7 (U7 m c)
/-- The buffers after chunk 8. -/
def U9 (m : (ℓ : Loc nD τ sig) → Buf (Elt Ideal) ℓ) (c : Dev nD) : Valuation τ sig (Elt Ideal) := after ops8 (U8 m c)
/-- The buffers after chunk 9. -/
def U10 (m : (ℓ : Loc nD τ sig) → Buf (Elt Ideal) ℓ) (c : Dev nD) : Valuation τ sig (Elt Ideal) := after ops9 (U9 m c)
/-- The buffers after chunk 10. -/
def U11 (m : (ℓ : Loc nD τ sig) → Buf (Elt Ideal) ℓ) (c : Dev nD) : Valuation τ sig (Elt Ideal) := after ops10 (U10 m c)
/-- The buffers after chunk 11. -/
def U12 (m : (ℓ : Loc nD τ sig) → Buf (Elt Ideal) ℓ) (c : Dev nD) : Valuation τ sig (Elt Ideal) := after ops11 (U11 m c)
/-- The buffers after chunk 12. -/
def U13 (m : (ℓ : Loc nD τ sig) → Buf (Elt Ideal) ℓ) (c : Dev nD) : Valuation τ sig (Elt Ideal) := after ops12 (U12 m c)

variable (m : (ℓ : Loc nD τ sig) → Buf (Elt Ideal) ℓ) (c : Dev nD)

/-! ## After chunk 0 -/

theorem U1_arg1 : U1 m c (Proc.devRef .tc main_arg1) = (rarg m c main_arg1) := by
  show after ops0 (U0 m c) (Proc.devRef .tc main_arg1) = _
  after_results_simp
  rfl

theorem U1_arg0 : U1 m c (Proc.devRef .tc main_arg0) = (rarg m c main_arg0) := by
  show after ops0 (U0 m c) (Proc.devRef .tc main_arg0) = _
  after_results_simp
  rfl

theorem U1_v10 : U1 m c (Proc.devRef .tc main_v10) = (ReadP.val_main_v10 (F := Ideal) (rarg m c main_arg0) (rarg m c main_arg1)) := by
  show after ops0 (U0 m c) (Proc.devRef .tc main_v10) = _
  after_results_simp
  rfl

theorem U1_v17 : U1 m c (Proc.devRef .tc main_v17) = (ReadP.val_main_v17 (F := Ideal) (rarg m c main_arg0) (rarg m c main_arg1)) := by
  show after ops0 (U0 m c) (Proc.devRef .tc main_v17) = _
  after_results_simp
  rfl

theorem U1_arg2 : U1 m c (Proc.devRef .tc main_arg2) = (rarg m c main_arg2) := by
  show after ops0 (U0 m c) (Proc.devRef .tc main_arg2) = _
  after_results_simp
  rfl

theorem U1_arg3 : U1 m c (Proc.devRef .tc main_arg3) = (rarg m c main_arg3) := by
  show after ops0 (U0 m c) (Proc.devRef .tc main_arg3) = _
  after_results_simp
  rfl

theorem U1_arg4 : U1 m c (Proc.devRef .tc main_arg4) = (rarg m c main_arg4) := by
  show after ops0 (U0 m c) (Proc.devRef .tc main_arg4) = _
  after_results_simp
  rfl

theorem U1_v3 : U1 m c (Proc.devRef .tc main_v3) = (ReadP.val_main_v3 (F := Ideal) (rarg m c main_arg1)) := by
  show after ops0 (U0 m c) (Proc.devRef .tc main_v3) = _
  after_results_simp
  rfl

theorem U1_arg5 : U1 m c (Proc.devRef .tc main_arg5) = (rarg m c main_arg5) := by
  show after ops0 (U0 m c) (Proc.devRef .tc main_arg5) = _
  after_results_simp
  rfl

theorem U1_arg6 : U1 m c (Proc.devRef .tc main_arg6) = (rarg m c main_arg6) := by
  show after ops0 (U0 m c) (Proc.devRef .tc main_arg6) = _
  after_results_simp
  rfl

theorem U1_arg7 : U1 m c (Proc.devRef .tc main_arg7) = (rarg m c main_arg7) := by
  show after ops0 (U0 m c) (Proc.devRef .tc main_arg7) = _
  after_results_simp
  rfl

theorem U1_arg8 : U1 m c (Proc.devRef .tc main_arg8) = (rarg m c main_arg8) := by
  show after ops0 (U0 m c) (Proc.devRef .tc main_arg8) = _
  after_results_simp
  rfl

theorem U1_arg9 : U1 m c (Proc.devRef .tc main_arg9) = (rarg m c main_arg9) := by
  show after ops0 (U0 m c) (Proc.devRef .tc main_arg9) = _
  after_results_simp
  rfl

theorem U1_arg10 : U1 m c (Proc.devRef .tc main_arg10) = (rarg m c main_arg10) := by
  show after ops0 (U0 m c) (Proc.devRef .tc main_arg10) = _
  after_results_simp
  rfl

theorem U1_v1 : U1 m c (Proc.devRef .tc main_v1) = (ReadP.val_main_v1 (F := Ideal) (rarg m c main_arg1)) := by
  show after ops0 (U0 m c) (Proc.devRef .tc main_v1) = _
  after_results_simp
  rfl

theorem U1_arg11 : U1 m c (Proc.devRef .tc main_arg11) = (rarg m c main_arg11) := by
  show after ops0 (U0 m c) (Proc.devRef .tc main_arg11) = _
  after_results_simp
  rfl

theorem U1_arg12 : U1 m c (Proc.devRef .tc main_arg12) = (rarg m c main_arg12) := by
  show after ops0 (U0 m c) (Proc.devRef .tc main_arg12) = _
  after_results_simp
  rfl

theorem U1_arg13 : U1 m c (Proc.devRef .tc main_arg13) = (rarg m c main_arg13) := by
  show after ops0 (U0 m c) (Proc.devRef .tc main_arg13) = _
  after_results_simp
  rfl

theorem U1_arg14 : U1 m c (Proc.devRef .tc main_arg14) = (rarg m c main_arg14) := by
  show after ops0 (U0 m c) (Proc.devRef .tc main_arg14) = _
  after_results_simp
  rfl

/-! ## After chunk 1 -/

theorem U2_arg1 : U2 m c (Proc.devRef .tc main_arg1) = (rarg m c main_arg1) := by
  show after ops1 (U1 m c) (Proc.devRef .tc main_arg1) = _
  after_results_simp
  exact U1_arg1 m c

theorem U2_arg0 : U2 m c (Proc.devRef .tc main_arg0) = (rarg m c main_arg0) := by
  show after ops1 (U1 m c) (Proc.devRef .tc main_arg0) = _
  after_results_simp
  exact U1_arg0 m c

theorem U2_arg2 : U2 m c (Proc.devRef .tc main_arg2) = (rarg m c main_arg2) := by
  show after ops1 (U1 m c) (Proc.devRef .tc main_arg2) = _
  after_results_simp
  exact U1_arg2 m c

theorem U2_arg3 : U2 m c (Proc.devRef .tc main_arg3) = (rarg m c main_arg3) := by
  show after ops1 (U1 m c) (Proc.devRef .tc main_arg3) = _
  after_results_simp
  exact U1_arg3 m c

theorem U2_arg4 : U2 m c (Proc.devRef .tc main_arg4) = (rarg m c main_arg4) := by
  show after ops1 (U1 m c) (Proc.devRef .tc main_arg4) = _
  after_results_simp
  exact U1_arg4 m c

theorem U2_v3 : U2 m c (Proc.devRef .tc main_v3) = (ReadP.val_main_v3 (F := Ideal) (rarg m c main_arg1)) := by
  show after ops1 (U1 m c) (Proc.devRef .tc main_v3) = _
  after_results_simp
  exact U1_v3 m c

theorem U2_v23 : U2 m c (Proc.devRef .tc main_v23) = (ReadP.val_main_v23 (F := Ideal) (rarg m c main_arg0) (rarg m c main_arg1) (rarg m c main_arg2) (rarg m c main_arg3) (rarg m c main_arg4)) := by
  show after ops1 (U1 m c) (Proc.devRef .tc main_v23) = _
  after_results_simp
  have e0 : U1 m c (Proc.devRef .tc (![main_v10, main_v17, main_arg2] 0)) = _ := U1_v10 m c
  generalize U1 m c (Proc.devRef .tc (![main_v10, main_v17, main_arg2] 0)) = a0 at e0 ⊢
  have e1 : U1 m c (Proc.devRef .tc (![main_v10, main_v17, main_arg2] 1)) = _ := U1_v17 m c
  generalize U1 m c (Proc.devRef .tc (![main_v10, main_v17, main_arg2] 1)) = a1 at e1 ⊢
  have e2 : U1 m c (Proc.devRef .tc (![main_v10, main_v17, main_arg2] 2)) = _ := U1_arg2 m c
  generalize U1 m c (Proc.devRef .tc (![main_v10, main_v17, main_arg2] 2)) = a2 at e2 ⊢
  have e3 := U1_arg3 m c
  generalize U1 m c (Proc.devRef .tc main_arg3) = a3 at e3 ⊢
  have e4 := U1_arg4 m c
  generalize U1 m c (Proc.devRef .tc main_arg4) = a4 at e4 ⊢
  subst e0 e1 e2 e3 e4
  rfl

theorem U2_arg5 : U2 m c (Proc.devRef .tc main_arg5) = (rarg m c main_arg5) := by
  show after ops1 (U1 m c) (Proc.devRef .tc main_arg5) = _
  after_results_simp
  exact U1_arg5 m c

theorem U2_arg6 : U2 m c (Proc.devRef .tc main_arg6) = (rarg m c main_arg6) := by
  show after ops1 (U1 m c) (Proc.devRef .tc main_arg6) = _
  after_results_simp
  exact U1_arg6 m c

theorem U2_arg7 : U2 m c (Proc.devRef .tc main_arg7) = (rarg m c main_arg7) := by
  show after ops1 (U1 m c) (Proc.devRef .tc main_arg7) = _
  after_results_simp
  exact U1_arg7 m c

theorem U2_arg8 : U2 m c (Proc.devRef .tc main_arg8) = (rarg m c main_arg8) := by
  show after ops1 (U1 m c) (Proc.devRef .tc main_arg8) = _
  after_results_simp
  exact U1_arg8 m c

theorem U2_arg9 : U2 m c (Proc.devRef .tc main_arg9) = (rarg m c main_arg9) := by
  show after ops1 (U1 m c) (Proc.devRef .tc main_arg9) = _
  after_results_simp
  exact U1_arg9 m c

theorem U2_arg10 : U2 m c (Proc.devRef .tc main_arg10) = (rarg m c main_arg10) := by
  show after ops1 (U1 m c) (Proc.devRef .tc main_arg10) = _
  after_results_simp
  exact U1_arg10 m c

theorem U2_v1 : U2 m c (Proc.devRef .tc main_v1) = (ReadP.val_main_v1 (F := Ideal) (rarg m c main_arg1)) := by
  show after ops1 (U1 m c) (Proc.devRef .tc main_v1) = _
  after_results_simp
  exact U1_v1 m c

theorem U2_arg11 : U2 m c (Proc.devRef .tc main_arg11) = (rarg m c main_arg11) := by
  show after ops1 (U1 m c) (Proc.devRef .tc main_arg11) = _
  after_results_simp
  exact U1_arg11 m c

theorem U2_arg12 : U2 m c (Proc.devRef .tc main_arg12) = (rarg m c main_arg12) := by
  show after ops1 (U1 m c) (Proc.devRef .tc main_arg12) = _
  after_results_simp
  exact U1_arg12 m c

theorem U2_arg13 : U2 m c (Proc.devRef .tc main_arg13) = (rarg m c main_arg13) := by
  show after ops1 (U1 m c) (Proc.devRef .tc main_arg13) = _
  after_results_simp
  exact U1_arg13 m c

theorem U2_arg14 : U2 m c (Proc.devRef .tc main_arg14) = (rarg m c main_arg14) := by
  show after ops1 (U1 m c) (Proc.devRef .tc main_arg14) = _
  after_results_simp
  exact U1_arg14 m c

/-! ## After chunk 2 -/

theorem U3_arg1 : U3 m c (Proc.devRef .tc main_arg1) = (rarg m c main_arg1) := by
  show after ops2 (U2 m c) (Proc.devRef .tc main_arg1) = _
  after_results_simp
  exact U2_arg1 m c

theorem U3_arg0 : U3 m c (Proc.devRef .tc main_arg0) = (rarg m c main_arg0) := by
  show after ops2 (U2 m c) (Proc.devRef .tc main_arg0) = _
  after_results_simp
  exact U2_arg0 m c

theorem U3_arg2 : U3 m c (Proc.devRef .tc main_arg2) = (rarg m c main_arg2) := by
  show after ops2 (U2 m c) (Proc.devRef .tc main_arg2) = _
  after_results_simp
  exact U2_arg2 m c

theorem U3_arg3 : U3 m c (Proc.devRef .tc main_arg3) = (rarg m c main_arg3) := by
  show after ops2 (U2 m c) (Proc.devRef .tc main_arg3) = _
  after_results_simp
  exact U2_arg3 m c

theorem U3_arg4 : U3 m c (Proc.devRef .tc main_arg4) = (rarg m c main_arg4) := by
  show after ops2 (U2 m c) (Proc.devRef .tc main_arg4) = _
  after_results_simp
  exact U2_arg4 m c

theorem U3_v3 : U3 m c (Proc.devRef .tc main_v3) = (ReadP.val_main_v3 (F := Ideal) (rarg m c main_arg1)) := by
  show after ops2 (U2 m c) (Proc.devRef .tc main_v3) = _
  after_results_simp
  exact U2_v3 m c

theorem U3_v35 : U3 m c (Proc.devRef .tc main_v35) = (ReadP.val_main_v35 (F := Ideal) (rarg m c main_arg0) (rarg m c main_arg1) (rarg m c main_arg2) (rarg m c main_arg3) (rarg m c main_arg4)) := by
  show after ops2 (U2 m c) (Proc.devRef .tc main_v35) = _
  after_results_simp
  have e0 := U2_v3 m c
  generalize U2 m c (Proc.devRef .tc main_v3) = a0 at e0 ⊢
  have e1 := U2_v23 m c
  generalize U2 m c (Proc.devRef .tc main_v23) = a1 at e1 ⊢
  subst e0 e1
  rfl

theorem U3_arg5 : U3 m c (Proc.devRef .tc main_arg5) = (rarg m c main_arg5) := by
  show after ops2 (U2 m c) (Proc.devRef .tc main_arg5) = _
  after_results_simp
  exact U2_arg5 m c

theorem U3_arg6 : U3 m c (Proc.devRef .tc main_arg6) = (rarg m c main_arg6) := by
  show after ops2 (U2 m c) (Proc.devRef .tc main_arg6) = _
  after_results_simp
  exact U2_arg6 m c

theorem U3_arg7 : U3 m c (Proc.devRef .tc main_arg7) = (rarg m c main_arg7) := by
  show after ops2 (U2 m c) (Proc.devRef .tc main_arg7) = _
  after_results_simp
  exact U2_arg7 m c

theorem U3_arg8 : U3 m c (Proc.devRef .tc main_arg8) = (rarg m c main_arg8) := by
  show after ops2 (U2 m c) (Proc.devRef .tc main_arg8) = _
  after_results_simp
  exact U2_arg8 m c

theorem U3_arg9 : U3 m c (Proc.devRef .tc main_arg9) = (rarg m c main_arg9) := by
  show after ops2 (U2 m c) (Proc.devRef .tc main_arg9) = _
  after_results_simp
  exact U2_arg9 m c

theorem U3_arg10 : U3 m c (Proc.devRef .tc main_arg10) = (rarg m c main_arg10) := by
  show after ops2 (U2 m c) (Proc.devRef .tc main_arg10) = _
  after_results_simp
  exact U2_arg10 m c

theorem U3_v1 : U3 m c (Proc.devRef .tc main_v1) = (ReadP.val_main_v1 (F := Ideal) (rarg m c main_arg1)) := by
  show after ops2 (U2 m c) (Proc.devRef .tc main_v1) = _
  after_results_simp
  exact U2_v1 m c

theorem U3_arg11 : U3 m c (Proc.devRef .tc main_arg11) = (rarg m c main_arg11) := by
  show after ops2 (U2 m c) (Proc.devRef .tc main_arg11) = _
  after_results_simp
  exact U2_arg11 m c

theorem U3_arg12 : U3 m c (Proc.devRef .tc main_arg12) = (rarg m c main_arg12) := by
  show after ops2 (U2 m c) (Proc.devRef .tc main_arg12) = _
  after_results_simp
  exact U2_arg12 m c

theorem U3_arg13 : U3 m c (Proc.devRef .tc main_arg13) = (rarg m c main_arg13) := by
  show after ops2 (U2 m c) (Proc.devRef .tc main_arg13) = _
  after_results_simp
  exact U2_arg13 m c

theorem U3_arg14 : U3 m c (Proc.devRef .tc main_arg14) = (rarg m c main_arg14) := by
  show after ops2 (U2 m c) (Proc.devRef .tc main_arg14) = _
  after_results_simp
  exact U2_arg14 m c

/-! ## After chunk 3 -/

theorem U4_arg1 : U4 m c (Proc.devRef .tc main_arg1) = (rarg m c main_arg1) := by
  show after ops3 (U3 m c) (Proc.devRef .tc main_arg1) = _
  after_results_simp
  exact U3_arg1 m c

theorem U4_arg0 : U4 m c (Proc.devRef .tc main_arg0) = (rarg m c main_arg0) := by
  show after ops3 (U3 m c) (Proc.devRef .tc main_arg0) = _
  after_results_simp
  exact U3_arg0 m c

theorem U4_arg2 : U4 m c (Proc.devRef .tc main_arg2) = (rarg m c main_arg2) := by
  show after ops3 (U3 m c) (Proc.devRef .tc main_arg2) = _
  after_results_simp
  exact U3_arg2 m c

theorem U4_arg3 : U4 m c (Proc.devRef .tc main_arg3) = (rarg m c main_arg3) := by
  show after ops3 (U3 m c) (Proc.devRef .tc main_arg3) = _
  after_results_simp
  exact U3_arg3 m c

theorem U4_arg4 : U4 m c (Proc.devRef .tc main_arg4) = (rarg m c main_arg4) := by
  show after ops3 (U3 m c) (Proc.devRef .tc main_arg4) = _
  after_results_simp
  exact U3_arg4 m c

theorem U4_v3 : U4 m c (Proc.devRef .tc main_v3) = (ReadP.val_main_v3 (F := Ideal) (rarg m c main_arg1)) := by
  show after ops3 (U3 m c) (Proc.devRef .tc main_v3) = _
  after_results_simp
  exact U3_v3 m c

theorem U4_arg5 : U4 m c (Proc.devRef .tc main_arg5) = (rarg m c main_arg5) := by
  show after ops3 (U3 m c) (Proc.devRef .tc main_arg5) = _
  after_results_simp
  exact U3_arg5 m c

theorem U4_arg6 : U4 m c (Proc.devRef .tc main_arg6) = (rarg m c main_arg6) := by
  show after ops3 (U3 m c) (Proc.devRef .tc main_arg6) = _
  after_results_simp
  exact U3_arg6 m c

theorem U4_arg7 : U4 m c (Proc.devRef .tc main_arg7) = (rarg m c main_arg7) := by
  show after ops3 (U3 m c) (Proc.devRef .tc main_arg7) = _
  after_results_simp
  exact U3_arg7 m c

theorem U4_arg8 : U4 m c (Proc.devRef .tc main_arg8) = (rarg m c main_arg8) := by
  show after ops3 (U3 m c) (Proc.devRef .tc main_arg8) = _
  after_results_simp
  exact U3_arg8 m c

theorem U4_arg9 : U4 m c (Proc.devRef .tc main_arg9) = (rarg m c main_arg9) := by
  show after ops3 (U3 m c) (Proc.devRef .tc main_arg9) = _
  after_results_simp
  exact U3_arg9 m c

theorem U4_arg10 : U4 m c (Proc.devRef .tc main_arg10) = (rarg m c main_arg10) := by
  show after ops3 (U3 m c) (Proc.devRef .tc main_arg10) = _
  after_results_simp
  exact U3_arg10 m c

theorem U4_v1 : U4 m c (Proc.devRef .tc main_v1) = (ReadP.val_main_v1 (F := Ideal) (rarg m c main_arg1)) := by
  show after ops3 (U3 m c) (Proc.devRef .tc main_v1) = _
  after_results_simp
  exact U3_v1 m c

theorem U4_v41 : U4 m c (Proc.devRef .tc main_v41) = (ReadP.val_main_v41 (F := Ideal) (rarg m c main_arg0) (rarg m c main_arg1) (rarg m c main_arg2) (rarg m c main_arg3) (rarg m c main_arg4) (rarg m c main_arg5) (rarg m c main_arg6)) := by
  show after ops3 (U3 m c) (Proc.devRef .tc main_v41) = _
  after_results_simp
  have e0 := U3_arg0 m c
  generalize U3 m c (Proc.devRef .tc main_arg0) = a0 at e0 ⊢
  have e1 := U3_v35 m c
  generalize U3 m c (Proc.devRef .tc main_v35) = a1 at e1 ⊢
  have e2 := U3_arg5 m c
  generalize U3 m c (Proc.devRef .tc main_arg5) = a2 at e2 ⊢
  have e3 := U3_arg6 m c
  generalize U3 m c (Proc.devRef .tc main_arg6) = a3 at e3 ⊢
  subst e0 e1 e2 e3
  rfl

theorem U4_arg11 : U4 m c (Proc.devRef .tc main_arg11) = (rarg m c main_arg11) := by
  show after ops3 (U3 m c) (Proc.devRef .tc main_arg11) = _
  after_results_simp
  exact U3_arg11 m c

theorem U4_arg12 : U4 m c (Proc.devRef .tc main_arg12) = (rarg m c main_arg12) := by
  show after ops3 (U3 m c) (Proc.devRef .tc main_arg12) = _
  after_results_simp
  exact U3_arg12 m c

theorem U4_arg13 : U4 m c (Proc.devRef .tc main_arg13) = (rarg m c main_arg13) := by
  show after ops3 (U3 m c) (Proc.devRef .tc main_arg13) = _
  after_results_simp
  exact U3_arg13 m c

theorem U4_arg14 : U4 m c (Proc.devRef .tc main_arg14) = (rarg m c main_arg14) := by
  show after ops3 (U3 m c) (Proc.devRef .tc main_arg14) = _
  after_results_simp
  exact U3_arg14 m c

end Cert.ReferenceIdeal.RunP

end
-- ==== Proof.RefStage1.lean ====
/-
  The reference's fold, evaluated chunk by chunk (part 1): after each chunk of host operations, every buffer that a
  later chunk reads is the corresponding stage function of the argument arrays; a buffer a chunk does not write keeps
  what it held.
-/
import proofs.«100581_j48619029791202_2_alg».proof.Proof.RefRun
import proofs.«100581_j48619029791202_2_alg».proof.Proof.RefRead
import proofs.«100581_j48619029791202_2_alg».proof.Proof.RefStage0

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## After chunk 4 -/

theorem U5_arg1 : U5 m c (Proc.devRef .tc main_arg1) = (rarg m c main_arg1) := by
  show after ops4 (U4 m c) (Proc.devRef .tc main_arg1) = _
  after_results_simp
  exact U4_arg1 m c

theorem U5_arg0 : U5 m c (Proc.devRef .tc main_arg0) = (rarg m c main_arg0) := by
  show after ops4 (U4 m c) (Proc.devRef .tc main_arg0) = _
  after_results_simp
  exact U4_arg0 m c

theorem U5_arg2 : U5 m c (Proc.devRef .tc main_arg2) = (rarg m c main_arg2) := by
  show after ops4 (U4 m c) (Proc.devRef .tc main_arg2) = _
  after_results_simp
  exact U4_arg2 m c

theorem U5_arg3 : U5 m c (Proc.devRef .tc main_arg3) = (rarg m c main_arg3) := by
  show after ops4 (U4 m c) (Proc.devRef .tc main_arg3) = _
  after_results_simp
  exact U4_arg3 m c

theorem U5_arg4 : U5 m c (Proc.devRef .tc main_arg4) = (rarg m c main_arg4) := by
  show after ops4 (U4 m c) (Proc.devRef .tc main_arg4) = _
  after_results_simp
  exact U4_arg4 m c

theorem U5_v3 : U5 m c (Proc.devRef .tc main_v3) = (ReadP.val_main_v3 (F := Ideal) (rarg m c main_arg1)) := by
  show after ops4 (U4 m c) (Proc.devRef .tc main_v3) = _
  after_results_simp
  exact U4_v3 m c

theorem U5_arg5 : U5 m c (Proc.devRef .tc main_arg5) = (rarg m c main_arg5) := by
  show after ops4 (U4 m c) (Proc.devRef .tc main_arg5) = _
  after_results_simp
  exact U4_arg5 m c

theorem U5_arg6 : U5 m c (Proc.devRef .tc main_arg6) = (rarg m c main_arg6) := by
  show after ops4 (U4 m c) (Proc.devRef .tc main_arg6) = _
  after_results_simp
  exact U4_arg6 m c

theorem U5_arg7 : U5 m c (Proc.devRef .tc main_arg7) = (rarg m c main_arg7) := by
  show after ops4 (U4 m c) (Proc.devRef .tc main_arg7) = _
  after_results_simp
  exact U4_arg7 m c

theorem U5_arg8 : U5 m c (Proc.devRef .tc main_arg8) = (rarg m c main_arg8) := by
  show after ops4 (U4 m c) (Proc.devRef .tc main_arg8) = _
  after_results_simp
  exact U4_arg8 m c

theorem U5_arg9 : U5 m c (Proc.devRef .tc main_arg9) = (rarg m c main_arg9) := by
  show after ops4 (U4 m c) (Proc.devRef .tc main_arg9) = _
  after_results_simp
  exact U4_arg9 m c

theorem U5_arg10 : U5 m c (Proc.devRef .tc main_arg10) = (rarg m c main_arg10) := by
  show after ops4 (U4 m c) (Proc.devRef .tc main_arg10) = _
  after_results_simp
  exact U4_arg10 m c

theorem U5_v1 : U5 m c (Proc.devRef .tc main_v1) = (ReadP.val_main_v1 (F := Ideal) (rarg m c main_arg1)) := by
  show after ops4 (U4 m c) (Proc.devRef .tc main_v1) = _
  after_results_simp
  exact U4_v1 m c

theorem U5_v41 : U5 m c (Proc.devRef .tc main_v41) = (ReadP.val_main_v41 (F := Ideal) (rarg m c main_arg0) (rarg m c main_arg1) (rarg m c main_arg2) (rarg m c main_arg3) (rarg m c main_arg4) (rarg m c main_arg5) (rarg m c main_arg6)) := by
  show after ops4 (U4 m c) (Proc.devRef .tc main_v41) = _
  after_results_simp
  exact U4_v41 m c

theorem U5_v56 : U5 m c (Proc.devRef .tc main_v56) = (ReadP.val_main_v56 (F := Ideal) (rarg m c main_arg0) (rarg m c main_arg1) (rarg m c main_arg2) (rarg m c main_arg3) (rarg m c main_arg4) (rarg m c main_arg5) (rarg m c main_arg6)) := by
  show after ops4 (U4 m c) (Proc.devRef .tc main_v56) = _
  after_results_simp
  have e0 := U4_v41 m c
  generalize U4 m c (Proc.devRef .tc main_v41) = a0 at e0 ⊢
  have e1 := U4_v1 m c
  generalize U4 m c (Proc.devRef .tc main_v1) = a1 at e1 ⊢
  subst e0 e1
  rfl

theorem U5_v63 : U5 m c (Proc.devRef .tc main_v63) = (ReadP.val_main_v63 (F := Ideal) (rarg m c main_arg0) (rarg m c main_arg1) (rarg m c main_arg2) (rarg m c main_arg3) (rarg m c main_arg4) (rarg m c main_arg5) (rarg m c main_arg6)) := by
  show after ops4 (U4 m c) (Proc.devRef .tc main_v63) = _
  after_results_simp
  have e0 := U4_v41 m c
  generalize U4 m c (Proc.devRef .tc main_v41) = a0 at e0 ⊢
  have e1 := U4_v3 m c
  generalize U4 m c (Proc.devRef .tc main_v3) = a1 at e1 ⊢
  subst e0 e1
  rfl

theorem U5_v43 : U5 m c (Proc.devRef .tc main_v43) = (ReadP.val_main_v43 (F := Ideal) (rarg m c main_arg7)) := by
  show after ops4 (U4 m c) (Proc.devRef .tc main_v43) = _
  after_results_simp
  have e0 := U4_arg7 m c
  generalize U4 m c (Proc.devRef .tc main_arg7) = a0 at e0 ⊢
  subst e0
  rfl

theorem U5_v45 : U5 m c (Proc.devRef .tc main_v45) = (ReadP.val_main_v45 (F := Ideal) (rarg m c main_arg8)) := by
  show after ops4 (U4 m c) (Proc.devRef .tc main_v45) = _
  after_results_simp
  have e0 := U4_arg8 m c
  generalize U4 m c (Proc.devRef .tc main_arg8) = a0 at e0 ⊢
  subst e0
  rfl

theorem U5_v47 : U5 m c (Proc.devRef .tc main_v47) = (ReadP.val_main_v47 (F := Ideal) (rarg m c main_arg9)) := by
  show after ops4 (U4 m c) (Proc.devRef .tc main_v47) = _
  after_results_simp
  have e0 := U4_arg9 m c
  generalize U4 m c (Proc.devRef .tc main_arg9) = a0 at e0 ⊢
  subst e0
  rfl

theorem U5_v49 : U5 m c (Proc.devRef .tc main_v49) = (ReadP.val_main_v49 (F := Ideal) (rarg m c main_arg10)) := by
  show after ops4 (U4 m c) (Proc.devRef .tc main_v49) = _
  after_results_simp
  have e0 := U4_arg10 m c
  generalize U4 m c (Proc.devRef .tc main_arg10) = a0 at e0 ⊢
  subst e0
  rfl

theorem U5_arg11 : U5 m c (Proc.devRef .tc main_arg11) = (rarg m c main_arg11) := by
  show after ops4 (U4 m c) (Proc.devRef .tc main_arg11) = _
  after_results_simp
  exact U4_arg11 m c

theorem U5_arg12 : U5 m c (Proc.devRef .tc main_arg12) = (rarg m c main_arg12) := by
  show after ops4 (U4 m c) (Proc.devRef .tc main_arg12) = _
  after_results_simp
  exact U4_arg12 m c

theorem U5_arg13 : U5 m c (Proc.devRef .tc main_arg13) = (rarg m c main_arg13) := by
  show after ops4 (U4 m c) (Proc.devRef .tc main_arg13) = _
  after_results_simp
  exact U4_arg13 m c

theorem U5_arg14 : U5 m c (Proc.devRef .tc main_arg14) = (rarg m c main_arg14) := by
  show after ops4 (U4 m c) (Proc.devRef .tc main_arg14) = _
  after_results_simp
  exact U4_arg14 m c

/-! ## After chunk 5 -/

theorem U6_arg1 : U6 m c (Proc.devRef .tc main_arg1) = (rarg m c main_arg1) := by
  show after ops5 (U5 m c) (Proc.devRef .tc main_arg1) = _
  after_results_simp
  exact U5_arg1 m c

theorem U6_arg0 : U6 m c (Proc.devRef .tc main_arg0) = (rarg m c main_arg0) := by
  show after ops5 (U5 m c) (Proc.devRef .tc main_arg0) = _
  after_results_simp
  exact U5_arg0 m c

theorem U6_arg2 : U6 m c (Proc.devRef .tc main_arg2) = (rarg m c main_arg2) := by
  show after ops5 (U5 m c) (Proc.devRef .tc main_arg2) = _
  after_results_simp
  exact U5_arg2 m c

theorem U6_arg3 : U6 m c (Proc.devRef .tc main_arg3) = (rarg m c main_arg3) := by
  show after ops5 (U5 m c) (Proc.devRef .tc main_arg3) = _
  after_results_simp
  exact U5_arg3 m c

theorem U6_arg4 : U6 m c (Proc.devRef .tc main_arg4) = (rarg m c main_arg4) := by
  show after ops5 (U5 m c) (Proc.devRef .tc main_arg4) = _
  after_results_simp
  exact U5_arg4 m c

theorem U6_v3 : U6 m c (Proc.devRef .tc main_v3) = (ReadP.val_main_v3 (F := Ideal) (rarg m c main_arg1)) := by
  show after ops5 (U5 m c) (Proc.devRef .tc main_v3) = _
  after_results_simp
  exact U5_v3 m c

theorem U6_arg5 : U6 m c (Proc.devRef .tc main_arg5) = (rarg m c main_arg5) := by
  show after ops5 (U5 m c) (Proc.devRef .tc main_arg5) = _
  after_results_simp
  exact U5_arg5 m c

theorem U6_arg6 : U6 m c (Proc.devRef .tc main_arg6) = (rarg m c main_arg6) := by
  show after ops5 (U5 m c) (Proc.devRef .tc main_arg6) = _
  after_results_simp
  exact U5_arg6 m c

theorem U6_arg7 : U6 m c (Proc.devRef .tc main_arg7) = (rarg m c main_arg7) := by
  show after ops5 (U5 m c) (Proc.devRef .tc main_arg7) = _
  after_results_simp
  exact U5_arg7 m c

theorem U6_arg8 : U6 m c (Proc.devRef .tc main_arg8) = (rarg m c main_arg8) := by
  show after ops5 (U5 m c) (Proc.devRef .tc main_arg8) = _
  after_results_simp
  exact U5_arg8 m c

theorem U6_arg9 : U6 m c (Proc.devRef .tc main_arg9) = (rarg m c main_arg9) := by
  show after ops5 (U5 m c) (Proc.devRef .tc main_arg9) = _
  after_results_simp
  exact U5_arg9 m c

theorem U6_arg10 : U6 m c (Proc.devRef .tc main_arg10) = (rarg m c main_arg10) := by
  show after ops5 (U5 m c) (Proc.devRef .tc main_arg10) = _
  after_results_simp
  exact U5_arg10 m c

theorem U6_v1 : U6 m c (Proc.devRef .tc main_v1) = (ReadP.val_main_v1 (F := Ideal) (rarg m c main_arg1)) := by
  show after ops5 (U5 m c) (Proc.devRef .tc main_v1) = _
  after_results_simp
  exact U5_v1 m c

theorem U6_v41 : U6 m c (Proc.devRef .tc main_v41) = (ReadP.val_main_v41 (F := Ideal) (rarg m c main_arg0) (rarg m c main_arg1) (rarg m c main_arg2) (rarg m c main_arg3) (rarg m c main_arg4) (rarg m c main_arg5) (rarg m c main_arg6)) := by
  show after ops5 (U5 m c) (Proc.devRef .tc main_v41) = _
  after_results_simp
  exact U5_v41 m c

theorem U6_v69 : U6 m c (Proc.devRef .tc main_v69) = (ReadP.val_main_v69 (F := Ideal) (rarg m c main_arg0) (rarg m c main_arg1) (rarg m c main_arg2) (rarg m c main_arg3) (rarg m c main_arg4) (rarg m c main_arg5) (rarg m c main_arg6) (rarg m c main_arg7) (rarg m c main_arg8)) := by
  show after ops5 (U5 m c) (Proc.devRef .tc main_v69) = _
  after_results_simp
  have e0 : U5 m c (Proc.devRef .tc (![main_v56, main_v63, main_arg2] 0)) = _ := U5_v56 m c
  generalize U5 m c (Proc.devRef .tc (![main_v56, main_v63, main_arg2] 0)) = a0 at e0 ⊢
  have e1 : U5 m c (Proc.devRef .tc (![main_v56, main_v63, main_arg2] 1)) = _ := U5_v63 m c
  generalize U5 m c (Proc.devRef .tc (![main_v56, main_v63, main_arg2] 1)) = a1 at e1 ⊢
  have e2 : U5 m c (Proc.devRef .tc (![main_v56, main_v63, main_arg2] 2)) = _ := U5_arg2 m c
  generalize U5 m c (Proc.devRef .tc (![main_v56, main_v63, main_arg2] 2)) = a2 at e2 ⊢
  have e3 := U5_v43 m c
  generalize U5 m c (Proc.devRef .tc main_v43) = a3 at e3 ⊢
  have e4 := U5_v45 m c
  generalize U5 m c (Proc.devRef .tc main_v45) = a4 at e4 ⊢
  subst e0 e1 e2 e3 e4
  rfl

theorem U6_v47 : U6 m c (Proc.devRef .tc main_v47) = (ReadP.val_main_v47 (F := Ideal) (rarg m c main_arg9)) := by
  show after ops5 (U5 m c) (Proc.devRef .tc main_v47) = _
  after_results_simp
  exact U5_v47 m c

theorem U6_v49 : U6 m c (Proc.devRef .tc main_v49) = (ReadP.val_main_v49 (F := Ideal) (rarg m c main_arg10)) := by
  show after ops5 (U5 m c) (Proc.devRef .tc main_v49) = _
  after_results_simp
  exact U5_v49 m c

theorem U6_arg11 : U6 m c (Proc.devRef .tc main_arg11) = (rarg m c main_arg11) := by
  show after ops5 (U5 m c) (Proc.devRef .tc main_arg11) = _
  after_results_simp
  exact U5_arg11 m c

theorem U6_arg12 : U6 m c (Proc.devRef .tc main_arg12) = (rarg m c main_arg12) := by
  show after ops5 (U5 m c) (Proc.devRef .tc main_arg12) = _
  after_results_simp
  exact U5_arg12 m c

theorem U6_arg13 : U6 m c (Proc.devRef .tc main_arg13) = (rarg m c main_arg13) := by
  show after ops5 (U5 m c) (Proc.devRef .tc main_arg13) = _
  after_results_simp
  exact U5_arg13 m c

theorem U6_arg14 : U6 m c (Proc.devRef .tc main_arg14) = (rarg m c main_arg14) := by
  show after ops5 (U5 m c) (Proc.devRef .tc main_arg14) = _
  after_results_simp
  exact U5_arg14 m c

/-! ## After chunk 6 -/

theorem U7_arg1 : U7 m c (Proc.devRef .tc main_arg1) = (rarg m c main_arg1) := by
  show after ops6 (U6 m c) (Proc.devRef .tc main_arg1) = _
  after_results_simp
  exact U6_arg1 m c

theorem U7_arg0 : U7 m c (Proc.devRef .tc main_arg0) = (rarg m c main_arg0) := by
  show after ops6 (U6 m c) (Proc.devRef .tc main_arg0) = _
  after_results_simp
  exact U6_arg0 m c

theorem U7_arg2 : U7 m c (Proc.devRef .tc main_arg2) = (rarg m c main_arg2) := by
  show after ops6 (U6 m c) (Proc.devRef .tc main_arg2) = _
  after_results_simp
  exact U6_arg2 m c

theorem U7_arg3 : U7 m c (Proc.devRef .tc main_arg3) = (rarg m c main_arg3) := by
  show after ops6 (U6 m c) (Proc.devRef .tc main_arg3) = _
  after_results_simp
  exact U6_arg3 m c

theorem U7_arg4 : U7 m c (Proc.devRef .tc main_arg4) = (rarg m c main_arg4) := by
  show after ops6 (U6 m c) (Proc.devRef .tc main_arg4) = _
  after_results_simp
  exact U6_arg4 m c

theorem U7_v3 : U7 m c (Proc.devRef .tc main_v3) = (ReadP.val_main_v3 (F := Ideal) (rarg m c main_arg1)) := by
  show after ops6 (U6 m c) (Proc.devRef .tc main_v3) = _
  after_results_simp
  exact U6_v3 m c

theorem U7_arg5 : U7 m c (Proc.devRef .tc main_arg5) = (rarg m c main_arg5) := by
  show after ops6 (U6 m c) (Proc.devRef .tc main_arg5) = _
  after_results_simp
  exact U6_arg5 m c

theorem U7_arg6 : U7 m c (Proc.devRef .tc main_arg6) = (rarg m c main_arg6) := by
  show after ops6 (U6 m c) (Proc.devRef .tc main_arg6) = _
  after_results_simp
  exact U6_arg6 m c

theorem U7_arg7 : U7 m c (Proc.devRef .tc main_arg7) = (rarg m c main_arg7) := by
  show after ops6 (U6 m c) (Proc.devRef .tc main_arg7) = _
  after_results_simp
  exact U6_arg7 m c

theorem U7_arg8 : U7 m c (Proc.devRef .tc main_arg8) = (rarg m c main_arg8) := by
  show after ops6 (U6 m c) (Proc.devRef .tc main_arg8) = _
  after_results_simp
  exact U6_arg8 m c

theorem U7_arg9 : U7 m c (Proc.devRef .tc main_arg9) = (rarg m c main_arg9) := by
  show after ops6 (U6 m c) (Proc.devRef .tc main_arg9) = _
  after_results_simp
  exact U6_arg9 m c

theorem U7_arg10 : U7 m c (Proc.devRef .tc main_arg10) = (rarg m c main_arg10) := by
  show after ops6 (U6 m c) (Proc.devRef .tc main_arg10) = _
  after_results_simp
  exact U6_arg10 m c

theorem U7_v1 : U7 m c (Proc.devRef .tc main_v1) = (ReadP.val_main_v1 (F := Ideal) (rarg m c main_arg1)) := by
  show after ops6 (U6 m c) (Proc.devRef .tc main_v1) = _
  after_results_simp
  exact U6_v1 m c

theorem U7_v41 : U7 m c (Proc.devRef .tc main_v41) = (ReadP.val_main_v41 (F := Ideal) (rarg m c main_arg0) (rarg m c main_arg1) (rarg m c main_arg2) (rarg m c main_arg3) (rarg m c main_arg4) (rarg m c main_arg5) (rarg m c main_arg6)) := by
  show after ops6 (U6 m c) (Proc.devRef .tc main_v41) = _
  after_results_simp
  exact U6_v41 m c

theorem U7_v81 : U7 m c (Proc.devRef .tc main_v81) = (ReadP.val_main_v81 (F := Ideal) (rarg m c main_arg0) (rarg m c main_arg1) (rarg m c main_arg2) (rarg m c main_arg3) (rarg m c main_arg4) (rarg m c main_arg5) (rarg m c main_arg6) (rarg m c main_arg7) (rarg m c main_arg8)) := by
  show after ops6 (U6 m c) (Proc.devRef .tc main_v81) = _
  after_results_simp
  have e0 := U6_v3 m c
  generalize U6 m c (Proc.devRef .tc main_v3) = a0 at e0 ⊢
  have e1 := U6_v69 m c
  generalize U6 m c (Proc.devRef .tc main_v69) = a1 at e1 ⊢
  subst e0 e1
  rfl

theorem U7_v47 : U7 m c (Proc.devRef .tc main_v47) = (ReadP.val_main_v47 (F := Ideal) (rarg m c main_arg9)) := by
  show after ops6 (U6 m c) (Proc.devRef .tc main_v47) = _
  after_results_simp
  exact U6_v47 m c

theorem U7_v49 : U7 m c (Proc.devRef .tc main_v49) = (ReadP.val_main_v49 (F := Ideal) (rarg m c main_arg10)) := by
  show after ops6 (U6 m c) (Proc.devRef .tc main_v49) = _
  after_results_simp
  exact U6_v49 m c

theorem U7_arg11 : U7 m c (Proc.devRef .tc main_arg11) = (rarg m c main_arg11) := by
  show after ops6 (U6 m c) (Proc.devRef .tc main_arg11) = _
  after_results_simp
  exact U6_arg11 m c

theorem U7_arg12 : U7 m c (Proc.devRef .tc main_arg12) = (rarg m c main_arg12) := by
  show after ops6 (U6 m c) (Proc.devRef .tc main_arg12) = _
  after_results_simp
  exact U6_arg12 m c

theorem U7_arg13 : U7 m c (Proc.devRef .tc main_arg13) = (rarg m c main_arg13) := by
  show after ops6 (U6 m c) (Proc.devRef .tc main_arg13) = _
  after_results_simp
  exact U6_arg13 m c

theorem U7_arg14 : U7 m c (Proc.devRef .tc main_arg14) = (rarg m c main_arg14) := by
  show after ops6 (U6 m c) (Proc.devRef .tc main_arg14) = _
  after_results_simp
  exact U6_arg14 m c

/-! ## After chunk 7 -/

theorem U8_arg1 : U8 m c (Proc.devRef .tc main_arg1) = (rarg m c main_arg1) := by
  show after ops7 (U7 m c) (Proc.devRef .tc main_arg1) = _
  after_results_simp
  exact U7_arg1 m c

theorem U8_arg0 : U8 m c (Proc.devRef .tc main_arg0) = (rarg m c main_arg0) := by
  show after ops7 (U7 m c) (Proc.devRef .tc main_arg0) = _
  after_results_simp
  exact U7_arg0 m c

theorem U8_arg2 : U8 m c (Proc.devRef .tc main_arg2) = (rarg m c main_arg2) := by
  show after ops7 (U7 m c) (Proc.devRef .tc main_arg2) = _
  after_results_simp
  exact U7_arg2 m c

theorem U8_arg3 : U8 m c (Proc.devRef .tc main_arg3) = (rarg m c main_arg3) := by
  show after ops7 (U7 m c) (Proc.devRef .tc main_arg3) = _
  after_results_simp
  exact U7_arg3 m c

theorem U8_arg4 : U8 m c (Proc.devRef .tc main_arg4) = (rarg m c main_arg4) := by
  show after ops7 (U7 m c) (Proc.devRef .tc main_arg4) = _
  after_results_simp
  exact U7_arg4 m c

theorem U8_v3 : U8 m c (Proc.devRef .tc main_v3) = (ReadP.val_main_v3 (F := Ideal) (rarg m c main_arg1)) := by
  show after ops7 (U7 m c) (Proc.devRef .tc main_v3) = _
  after_results_simp
  exact U7_v3 m c

theorem U8_arg5 : U8 m c (Proc.devRef .tc main_arg5) = (rarg m c main_arg5) := by
  show after ops7 (U7 m c) (Proc.devRef .tc main_arg5) = _
  after_results_simp
  exact U7_arg5 m c

theorem U8_arg6 : U8 m c (Proc.devRef .tc main_arg6) = (rarg m c main_arg6) := by
  show after ops7 (U7 m c) (Proc.devRef .tc main_arg6) = _
  after_results_simp
  exact U7_arg6 m c

theorem U8_arg7 : U8 m c (Proc.devRef .tc main_arg7) = (rarg m c main_arg7) := by
  show after ops7 (U7 m c) (Proc.devRef .tc main_arg7) = _
  after_results_simp
  exact U7_arg7 m c

theorem U8_arg8 : U8 m c (Proc.devRef .tc main_arg8) = (rarg m c main_arg8) := by
  show after ops7 (U7 m c) (Proc.devRef .tc main_arg8) = _
  after_results_simp
  exact U7_arg8 m c

theorem U8_arg9 : U8 m c (Proc.devRef .tc main_arg9) = (rarg m c main_arg9) := by
  show after ops7 (U7 m c) (Proc.devRef .tc main_arg9) = _
  after_results_simp
  exact U7_arg9 m c

theorem U8_arg10 : U8 m c (Proc.devRef .tc main_arg10) = (rarg m c main_arg10) := by
  show after ops7 (U7 m c) (Proc.devRef .tc main_arg10) = _
  after_results_simp
  exact U7_arg10 m c

theorem U8_v1 : U8 m c (Proc.devRef .tc main_v1) = (ReadP.val_main_v1 (F := Ideal) (rarg m c main_arg1)) := by
  show after ops7 (U7 m c) (Proc.devRef .tc main_v1) = _
  after_results_simp
  exact U7_v1 m c

theorem U8_v87 : U8 m c (Proc.devRef .tc main_v87) = (ReadP.val_main_v87 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops7 (U7 m c) (Proc.devRef .tc main_v87) = _
  after_results_simp
  have e0 := U7_v41 m c
  generalize U7 m c (Proc.devRef .tc main_v41) = a0 at e0 ⊢
  have e1 := U7_v81 m c
  generalize U7 m c (Proc.devRef .tc main_v81) = a1 at e1 ⊢
  have e2 := U7_v47 m c
  generalize U7 m c (Proc.devRef .tc main_v47) = a2 at e2 ⊢
  have e3 := U7_v49 m c
  generalize U7 m c (Proc.devRef .tc main_v49) = a3 at e3 ⊢
  subst e0 e1 e2 e3
  rfl

theorem U8_arg11 : U8 m c (Proc.devRef .tc main_arg11) = (rarg m c main_arg11) := by
  show after ops7 (U7 m c) (Proc.devRef .tc main_arg11) = _
  after_results_simp
  exact U7_arg11 m c

theorem U8_arg12 : U8 m c (Proc.devRef .tc main_arg12) = (rarg m c main_arg12) := by
  show after ops7 (U7 m c) (Proc.devRef .tc main_arg12) = _
  after_results_simp
  exact U7_arg12 m c

theorem U8_arg13 : U8 m c (Proc.devRef .tc main_arg13) = (rarg m c main_arg13) := by
  show after ops7 (U7 m c) (Proc.devRef .tc main_arg13) = _
  after_results_simp
  exact U7_arg13 m c

theorem U8_arg14 : U8 m c (Proc.devRef .tc main_arg14) = (rarg m c main_arg14) := by
  show after ops7 (U7 m c) (Proc.devRef .tc main_arg14) = _
  after_results_simp
  exact U7_arg14 m c

end Cert.ReferenceIdeal.RunP

end
-- ==== Proof.RefStage2.lean ====
/-
  The reference's fold, evaluated chunk by chunk (part 2): after each chunk of host operations, every buffer that a
  later chunk reads is the corresponding stage function of the argument arrays; a buffer a chunk does not write keeps
  what it held.
-/
import proofs.«100581_j48619029791202_2_alg».proof.Proof.RefRun
import proofs.«100581_j48619029791202_2_alg».proof.Proof.RefRead
import proofs.«100581_j48619029791202_2_alg».proof.Proof.RefStage1

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## After chunk 8 -/

theorem U9_arg1 : U9 m c (Proc.devRef .tc main_arg1) = (rarg m c main_arg1) := by
  show after ops8 (U8 m c) (Proc.devRef .tc main_arg1) = _
  after_results_simp
  exact U8_arg1 m c

theorem U9_arg0 : U9 m c (Proc.devRef .tc main_arg0) = (rarg m c main_arg0) := by
  show after ops8 (U8 m c) (Proc.devRef .tc main_arg0) = _
  after_results_simp
  exact U8_arg0 m c

theorem U9_arg2 : U9 m c (Proc.devRef .tc main_arg2) = (rarg m c main_arg2) := by
  show after ops8 (U8 m c) (Proc.devRef .tc main_arg2) = _
  after_results_simp
  exact U8_arg2 m c

theorem U9_arg3 : U9 m c (Proc.devRef .tc main_arg3) = (rarg m c main_arg3) := by
  show after ops8 (U8 m c) (Proc.devRef .tc main_arg3) = _
  after_results_simp
  exact U8_arg3 m c

theorem U9_arg4 : U9 m c (Proc.devRef .tc main_arg4) = (rarg m c main_arg4) := by
  show after ops8 (U8 m c) (Proc.devRef .tc main_arg4) = _
  after_results_simp
  exact U8_arg4 m c

theorem U9_v3 : U9 m c (Proc.devRef .tc main_v3) = (ReadP.val_main_v3 (F := Ideal) (rarg m c main_arg1)) := by
  show after ops8 (U8 m c) (Proc.devRef .tc main_v3) = _
  after_results_simp
  exact U8_v3 m c

theorem U9_arg5 : U9 m c (Proc.devRef .tc main_arg5) = (rarg m c main_arg5) := by
  show after ops8 (U8 m c) (Proc.devRef .tc main_arg5) = _
  after_results_simp
  exact U8_arg5 m c

theorem U9_arg6 : U9 m c (Proc.devRef .tc main_arg6) = (rarg m c main_arg6) := by
  show after ops8 (U8 m c) (Proc.devRef .tc main_arg6) = _
  after_results_simp
  exact U8_arg6 m c

theorem U9_arg7 : U9 m c (Proc.devRef .tc main_arg7) = (rarg m c main_arg7) := by
  show after ops8 (U8 m c) (Proc.devRef .tc main_arg7) = _
  after_results_simp
  exact U8_arg7 m c

theorem U9_arg8 : U9 m c (Proc.devRef .tc main_arg8) = (rarg m c main_arg8) := by
  show after ops8 (U8 m c) (Proc.devRef .tc main_arg8) = _
  after_results_simp
  exact U8_arg8 m c

theorem U9_arg9 : U9 m c (Proc.devRef .tc main_arg9) = (rarg m c main_arg9) := by
  show after ops8 (U8 m c) (Proc.devRef .tc main_arg9) = _
  after_results_simp
  exact U8_arg9 m c

theorem U9_arg10 : U9 m c (Proc.devRef .tc main_arg10) = (rarg m c main_arg10) := by
  show after ops8 (U8 m c) (Proc.devRef .tc main_arg10) = _
  after_results_simp
  exact U8_arg10 m c

theorem U9_v87 : U9 m c (Proc.devRef .tc main_v87) = (ReadP.val_main_v87 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops8 (U8 m c) (Proc.devRef .tc main_v87) = _
  after_results_simp
  exact U8_v87 m c

theorem U9_v102 : U9 m c (Proc.devRef .tc main_v102) = (ReadP.val_main_v102 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops8 (U8 m c) (Proc.devRef .tc main_v102) = _
  after_results_simp
  have e0 := U8_v87 m c
  generalize U8 m c (Proc.devRef .tc main_v87) = a0 at e0 ⊢
  have e1 := U8_v1 m c
  generalize U8 m c (Proc.devRef .tc main_v1) = a1 at e1 ⊢
  subst e0 e1
  rfl

theorem U9_v109 : U9 m c (Proc.devRef .tc main_v109) = (ReadP.val_main_v109 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops8 (U8 m c) (Proc.devRef .tc main_v109) = _
  after_results_simp
  have e0 := U8_v87 m c
  generalize U8 m c (Proc.devRef .tc main_v87) = a0 at e0 ⊢
  have e1 := U8_v3 m c
  generalize U8 m c (Proc.devRef .tc main_v3) = a1 at e1 ⊢
  subst e0 e1
  rfl

theorem U9_v89 : U9 m c (Proc.devRef .tc main_v89) = (ReadP.val_main_v89 (F := Ideal) (rarg m c main_arg7)) := by
  show after ops8 (U8 m c) (Proc.devRef .tc main_v89) = _
  after_results_simp
  have e0 := U8_arg7 m c
  generalize U8 m c (Proc.devRef .tc main_arg7) = a0 at e0 ⊢
  subst e0
  rfl

theorem U9_v91 : U9 m c (Proc.devRef .tc main_v91) = (ReadP.val_main_v91 (F := Ideal) (rarg m c main_arg8)) := by
  show after ops8 (U8 m c) (Proc.devRef .tc main_v91) = _
  after_results_simp
  have e0 := U8_arg8 m c
  generalize U8 m c (Proc.devRef .tc main_arg8) = a0 at e0 ⊢
  subst e0
  rfl

theorem U9_v93 : U9 m c (Proc.devRef .tc main_v93) = (ReadP.val_main_v93 (F := Ideal) (rarg m c main_arg9)) := by
  show after ops8 (U8 m c) (Proc.devRef .tc main_v93) = _
  after_results_simp
  have e0 := U8_arg9 m c
  generalize U8 m c (Proc.devRef .tc main_arg9) = a0 at e0 ⊢
  subst e0
  rfl

theorem U9_v95 : U9 m c (Proc.devRef .tc main_v95) = (ReadP.val_main_v95 (F := Ideal) (rarg m c main_arg10)) := by
  show after ops8 (U8 m c) (Proc.devRef .tc main_v95) = _
  after_results_simp
  have e0 := U8_arg10 m c
  generalize U8 m c (Proc.devRef .tc main_arg10) = a0 at e0 ⊢
  subst e0
  rfl

theorem U9_arg11 : U9 m c (Proc.devRef .tc main_arg11) = (rarg m c main_arg11) := by
  show after ops8 (U8 m c) (Proc.devRef .tc main_arg11) = _
  after_results_simp
  exact U8_arg11 m c

theorem U9_arg12 : U9 m c (Proc.devRef .tc main_arg12) = (rarg m c main_arg12) := by
  show after ops8 (U8 m c) (Proc.devRef .tc main_arg12) = _
  after_results_simp
  exact U8_arg12 m c

theorem U9_arg13 : U9 m c (Proc.devRef .tc main_arg13) = (rarg m c main_arg13) := by
  show after ops8 (U8 m c) (Proc.devRef .tc main_arg13) = _
  after_results_simp
  exact U8_arg13 m c

theorem U9_arg14 : U9 m c (Proc.devRef .tc main_arg14) = (rarg m c main_arg14) := by
  show after ops8 (U8 m c) (Proc.devRef .tc main_arg14) = _
  after_results_simp
  exact U8_arg14 m c

/-! ## After chunk 9 -/

theorem U10_arg1 : U10 m c (Proc.devRef .tc main_arg1) = (rarg m c main_arg1) := by
  show after ops9 (U9 m c) (Proc.devRef .tc main_arg1) = _
  after_results_simp
  exact U9_arg1 m c

theorem U10_arg0 : U10 m c (Proc.devRef .tc main_arg0) = (rarg m c main_arg0) := by
  show after ops9 (U9 m c) (Proc.devRef .tc main_arg0) = _
  after_results_simp
  exact U9_arg0 m c

theorem U10_arg2 : U10 m c (Proc.devRef .tc main_arg2) = (rarg m c main_arg2) := by
  show after ops9 (U9 m c) (Proc.devRef .tc main_arg2) = _
  after_results_simp
  exact U9_arg2 m c

theorem U10_arg3 : U10 m c (Proc.devRef .tc main_arg3) = (rarg m c main_arg3) := by
  show after ops9 (U9 m c) (Proc.devRef .tc main_arg3) = _
  after_results_simp
  exact U9_arg3 m c

theorem U10_arg4 : U10 m c (Proc.devRef .tc main_arg4) = (rarg m c main_arg4) := by
  show after ops9 (U9 m c) (Proc.devRef .tc main_arg4) = _
  after_results_simp
  exact U9_arg4 m c

theorem U10_v3 : U10 m c (Proc.devRef .tc main_v3) = (ReadP.val_main_v3 (F := Ideal) (rarg m c main_arg1)) := by
  show after ops9 (U9 m c) (Proc.devRef .tc main_v3) = _
  after_results_simp
  exact U9_v3 m c

theorem U10_arg5 : U10 m c (Proc.devRef .tc main_arg5) = (rarg m c main_arg5) := by
  show after ops9 (U9 m c) (Proc.devRef .tc main_arg5) = _
  after_results_simp
  exact U9_arg5 m c

theorem U10_arg6 : U10 m c (Proc.devRef .tc main_arg6) = (rarg m c main_arg6) := by
  show after ops9 (U9 m c) (Proc.devRef .tc main_arg6) = _
  after_results_simp
  exact U9_arg6 m c

theorem U10_arg7 : U10 m c (Proc.devRef .tc main_arg7) = (rarg m c main_arg7) := by
  show after ops9 (U9 m c) (Proc.devRef .tc main_arg7) = _
  after_results_simp
  exact U9_arg7 m c

theorem U10_arg8 : U10 m c (Proc.devRef .tc main_arg8) = (rarg m c main_arg8) := by
  show after ops9 (U9 m c) (Proc.devRef .tc main_arg8) = _
  after_results_simp
  exact U9_arg8 m c

theorem U10_arg9 : U10 m c (Proc.devRef .tc main_arg9) = (rarg m c main_arg9) := by
  show after ops9 (U9 m c) (Proc.devRef .tc main_arg9) = _
  after_results_simp
  exact U9_arg9 m c

theorem U10_arg10 : U10 m c (Proc.devRef .tc main_arg10) = (rarg m c main_arg10) := by
  show after ops9 (U9 m c) (Proc.devRef .tc main_arg10) = _
  after_results_simp
  exact U9_arg10 m c

theorem U10_v87 : U10 m c (Proc.devRef .tc main_v87) = (ReadP.val_main_v87 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops9 (U9 m c) (Proc.devRef .tc main_v87) = _
  after_results_simp
  exact U9_v87 m c

theorem U10_v115 : U10 m c (Proc.devRef .tc main_v115) = (ReadP.val_main_v115 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops9 (U9 m c) (Proc.devRef .tc main_v115) = _
  after_results_simp
  have e0 : U9 m c (Proc.devRef .tc (![main_v102, main_v109, main_arg2] 0)) = _ := U9_v102 m c
  generalize U9 m c (Proc.devRef .tc (![main_v102, main_v109, main_arg2] 0)) = a0 at e0 ⊢
  have e1 : U9 m c (Proc.devRef .tc (![main_v102, main_v109, main_arg2] 1)) = _ := U9_v109 m c
  generalize U9 m c (Proc.devRef .tc (![main_v102, main_v109, main_arg2] 1)) = a1 at e1 ⊢
  have e2 : U9 m c (Proc.devRef .tc (![main_v102, main_v109, main_arg2] 2)) = _ := U9_arg2 m c
  generalize U9 m c (Proc.devRef .tc (![main_v102, main_v109, main_arg2] 2)) = a2 at e2 ⊢
  have e3 := U9_v89 m c
  generalize U9 m c (Proc.devRef .tc main_v89) = a3 at e3 ⊢
  have e4 := U9_v91 m c
  generalize U9 m c (Proc.devRef .tc main_v91) = a4 at e4 ⊢
  subst e0 e1 e2 e3 e4
  rfl

theorem U10_v93 : U10 m c (Proc.devRef .tc main_v93) = (ReadP.val_main_v93 (F := Ideal) (rarg m c main_arg9)) := by
  show after ops9 (U9 m c) (Proc.devRef .tc main_v93) = _
  after_results_simp
  exact U9_v93 m c

theorem U10_v95 : U10 m c (Proc.devRef .tc main_v95) = (ReadP.val_main_v95 (F := Ideal) (rarg m c main_arg10)) := by
  show after ops9 (U9 m c) (Proc.devRef .tc main_v95) = _
  after_results_simp
  exact U9_v95 m c

theorem U10_arg11 : U10 m c (Proc.devRef .tc main_arg11) = (rarg m c main_arg11) := by
  show after ops9 (U9 m c) (Proc.devRef .tc main_arg11) = _
  after_results_simp
  exact U9_arg11 m c

theorem U10_arg12 : U10 m c (Proc.devRef .tc main_arg12) = (rarg m c main_arg12) := by
  show after ops9 (U9 m c) (Proc.devRef .tc main_arg12) = _
  after_results_simp
  exact U9_arg12 m c

theorem U10_arg13 : U10 m c (Proc.devRef .tc main_arg13) = (rarg m c main_arg13) := by
  show after ops9 (U9 m c) (Proc.devRef .tc main_arg13) = _
  after_results_simp
  exact U9_arg13 m c

theorem U10_arg14 : U10 m c (Proc.devRef .tc main_arg14) = (rarg m c main_arg14) := by
  show after ops9 (U9 m c) (Proc.devRef .tc main_arg14) = _
  after_results_simp
  exact U9_arg14 m c

/-! ## After chunk 10 -/

theorem U11_arg1 : U11 m c (Proc.devRef .tc main_arg1) = (rarg m c main_arg1) := by
  show after ops10 (U10 m c) (Proc.devRef .tc main_arg1) = _
  after_results_simp
  exact U10_arg1 m c

theorem U11_arg0 : U11 m c (Proc.devRef .tc main_arg0) = (rarg m c main_arg0) := by
  show after ops10 (U10 m c) (Proc.devRef .tc main_arg0) = _
  after_results_simp
  exact U10_arg0 m c

theorem U11_arg2 : U11 m c (Proc.devRef .tc main_arg2) = (rarg m c main_arg2) := by
  show after ops10 (U10 m c) (Proc.devRef .tc main_arg2) = _
  after_results_simp
  exact U10_arg2 m c

theorem U11_arg3 : U11 m c (Proc.devRef .tc main_arg3) = (rarg m c main_arg3) := by
  show after ops10 (U10 m c) (Proc.devRef .tc main_arg3) = _
  after_results_simp
  exact U10_arg3 m c

theorem U11_arg4 : U11 m c (Proc.devRef .tc main_arg4) = (rarg m c main_arg4) := by
  show after ops10 (U10 m c) (Proc.devRef .tc main_arg4) = _
  after_results_simp
  exact U10_arg4 m c

theorem U11_arg5 : U11 m c (Proc.devRef .tc main_arg5) = (rarg m c main_arg5) := by
  show after ops10 (U10 m c) (Proc.devRef .tc main_arg5) = _
  after_results_simp
  exact U10_arg5 m c

theorem U11_arg6 : U11 m c (Proc.devRef .tc main_arg6) = (rarg m c main_arg6) := by
  show after ops10 (U10 m c) (Proc.devRef .tc main_arg6) = _
  after_results_simp
  exact U10_arg6 m c

theorem U11_arg7 : U11 m c (Proc.devRef .tc main_arg7) = (rarg m c main_arg7) := by
  show after ops10 (U10 m c) (Proc.devRef .tc main_arg7) = _
  after_results_simp
  exact U10_arg7 m c

theorem U11_arg8 : U11 m c (Proc.devRef .tc main_arg8) = (rarg m c main_arg8) := by
  show after ops10 (U10 m c) (Proc.devRef .tc main_arg8) = _
  after_results_simp
  exact U10_arg8 m c

theorem U11_arg9 : U11 m c (Proc.devRef .tc main_arg9) = (rarg m c main_arg9) := by
  show after ops10 (U10 m c) (Proc.devRef .tc main_arg9) = _
  after_results_simp
  exact U10_arg9 m c

theorem U11_arg10 : U11 m c (Proc.devRef .tc main_arg10) = (rarg m c main_arg10) := by
  show after ops10 (U10 m c) (Proc.devRef .tc main_arg10) = _
  after_results_simp
  exact U10_arg10 m c

theorem U11_v87 : U11 m c (Proc.devRef .tc main_v87) = (ReadP.val_main_v87 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops10 (U10 m c) (Proc.devRef .tc main_v87) = _
  after_results_simp
  exact U10_v87 m c

theorem U11_v127 : U11 m c (Proc.devRef .tc main_v127) = (ReadP.val_main_v127 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops10 (U10 m c) (Proc.devRef .tc main_v127) = _
  after_results_simp
  have e0 := U10_v3 m c
  generalize U10 m c (Proc.devRef .tc main_v3) = a0 at e0 ⊢
  have e1 := U10_v115 m c
  generalize U10 m c (Proc.devRef .tc main_v115) = a1 at e1 ⊢
  subst e0 e1
  rfl

theorem U11_v93 : U11 m c (Proc.devRef .tc main_v93) = (ReadP.val_main_v93 (F := Ideal) (rarg m c main_arg9)) := by
  show after ops10 (U10 m c) (Proc.devRef .tc main_v93) = _
  after_results_simp
  exact U10_v93 m c

theorem U11_v95 : U11 m c (Proc.devRef .tc main_v95) = (ReadP.val_main_v95 (F := Ideal) (rarg m c main_arg10)) := by
  show after ops10 (U10 m c) (Proc.devRef .tc main_v95) = _
  after_results_simp
  exact U10_v95 m c

theorem U11_arg11 : U11 m c (Proc.devRef .tc main_arg11) = (rarg m c main_arg11) := by
  show after ops10 (U10 m c) (Proc.devRef .tc main_arg11) = _
  after_results_simp
  exact U10_arg11 m c

theorem U11_arg12 : U11 m c (Proc.devRef .tc main_arg12) = (rarg m c main_arg12) := by
  show after ops10 (U10 m c) (Proc.devRef .tc main_arg12) = _
  after_results_simp
  exact U10_arg12 m c

theorem U11_arg13 : U11 m c (Proc.devRef .tc main_arg13) = (rarg m c main_arg13) := by
  show after ops10 (U10 m c) (Proc.devRef .tc main_arg13) = _
  after_results_simp
  exact U10_arg13 m c

theorem U11_arg14 : U11 m c (Proc.devRef .tc main_arg14) = (rarg m c main_arg14) := by
  show after ops10 (U10 m c) (Proc.devRef .tc main_arg14) = _
  after_results_simp
  exact U10_arg14 m c

end Cert.ReferenceIdeal.RunP

end
-- ==== Proof.RefStage3.lean ====
/-
  The reference's fold, evaluated chunk by chunk (part 3): after each chunk of host operations, every buffer that a
  later chunk reads is the corresponding stage function of the argument arrays; a buffer a chunk does not write keeps
  what it held.
-/
import proofs.«100581_j48619029791202_2_alg».proof.Proof.RefRun
import proofs.«100581_j48619029791202_2_alg».proof.Proof.RefRead
import proofs.«100581_j48619029791202_2_alg».proof.Proof.RefStage2

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## After chunk 11 -/

theorem U12_arg1 : U12 m c (Proc.devRef .tc main_arg1) = (rarg m c main_arg1) := by
  show after ops11 (U11 m c) (Proc.devRef .tc main_arg1) = _
  after_results_simp
  exact U11_arg1 m c

theorem U12_arg0 : U12 m c (Proc.devRef .tc main_arg0) = (rarg m c main_arg0) := by
  show after ops11 (U11 m c) (Proc.devRef .tc main_arg0) = _
  after_results_simp
  exact U11_arg0 m c

theorem U12_arg2 : U12 m c (Proc.devRef .tc main_arg2) = (rarg m c main_arg2) := by
  show after ops11 (U11 m c) (Proc.devRef .tc main_arg2) = _
  after_results_simp
  exact U11_arg2 m c

theorem U12_arg3 : U12 m c (Proc.devRef .tc main_arg3) = (rarg m c main_arg3) := by
  show after ops11 (U11 m c) (Proc.devRef .tc main_arg3) = _
  after_results_simp
  exact U11_arg3 m c

theorem U12_arg4 : U12 m c (Proc.devRef .tc main_arg4) = (rarg m c main_arg4) := by
  show after ops11 (U11 m c) (Proc.devRef .tc main_arg4) = _
  after_results_simp
  exact U11_arg4 m c

theorem U12_arg5 : U12 m c (Proc.devRef .tc main_arg5) = (rarg m c main_arg5) := by
  show after ops11 (U11 m c) (Proc.devRef .tc main_arg5) = _
  after_results_simp
  exact U11_arg5 m c

theorem U12_arg6 : U12 m c (Proc.devRef .tc main_arg6) = (rarg m c main_arg6) := by
  show after ops11 (U11 m c) (Proc.devRef .tc main_arg6) = _
  after_results_simp
  exact U11_arg6 m c

theorem U12_arg7 : U12 m c (Proc.devRef .tc main_arg7) = (rarg m c main_arg7) := by
  show after ops11 (U11 m c) (Proc.devRef .tc main_arg7) = _
  after_results_simp
  exact U11_arg7 m c

theorem U12_arg8 : U12 m c (Proc.devRef .tc main_arg8) = (rarg m c main_arg8) := by
  show after ops11 (U11 m c) (Proc.devRef .tc main_arg8) = _
  after_results_simp
  exact U11_arg8 m c

theorem U12_arg9 : U12 m c (Proc.devRef .tc main_arg9) = (rarg m c main_arg9) := by
  show after ops11 (U11 m c) (Proc.devRef .tc main_arg9) = _
  after_results_simp
  exact U11_arg9 m c

theorem U12_arg10 : U12 m c (Proc.devRef .tc main_arg10) = (rarg m c main_arg10) := by
  show after ops11 (U11 m c) (Proc.devRef .tc main_arg10) = _
  after_results_simp
  exact U11_arg10 m c

theorem U12_v133 : U12 m c (Proc.devRef .tc main_v133) = (ReadP.val_main_v133 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10)) := by
  show after ops11 (U11 m c) (Proc.devRef .tc main_v133) = _
  after_results_simp
  have e0 := U11_v87 m c
  generalize U11 m c (Proc.devRef .tc main_v87) = a0 at e0 ⊢
  have e1 := U11_v127 m c
  generalize U11 m c (Proc.devRef .tc main_v127) = a1 at e1 ⊢
  have e2 := U11_v93 m c
  generalize U11 m c (Proc.devRef .tc main_v93) = a2 at e2 ⊢
  have e3 := U11_v95 m c
  generalize U11 m c (Proc.devRef .tc main_v95) = a3 at e3 ⊢
  subst e0 e1 e2 e3
  rfl

theorem U12_arg11 : U12 m c (Proc.devRef .tc main_arg11) = (rarg m c main_arg11) := by
  show after ops11 (U11 m c) (Proc.devRef .tc main_arg11) = _
  after_results_simp
  exact U11_arg11 m c

theorem U12_arg12 : U12 m c (Proc.devRef .tc main_arg12) = (rarg m c main_arg12) := by
  show after ops11 (U11 m c) (Proc.devRef .tc main_arg12) = _
  after_results_simp
  exact U11_arg12 m c

theorem U12_arg13 : U12 m c (Proc.devRef .tc main_arg13) = (rarg m c main_arg13) := by
  show after ops11 (U11 m c) (Proc.devRef .tc main_arg13) = _
  after_results_simp
  exact U11_arg13 m c

theorem U12_arg14 : U12 m c (Proc.devRef .tc main_arg14) = (rarg m c main_arg14) := by
  show after ops11 (U11 m c) (Proc.devRef .tc main_arg14) = _
  after_results_simp
  exact U11_arg14 m c

/-! ## After chunk 12 -/

theorem U13_arg1 : U13 m c (Proc.devRef .tc main_arg1) = (rarg m c main_arg1) := by
  show after ops12 (U12 m c) (Proc.devRef .tc main_arg1) = _
  after_results_simp
  exact U12_arg1 m c

theorem U13_arg0 : U13 m c (Proc.devRef .tc main_arg0) = (rarg m c main_arg0) := by
  show after ops12 (U12 m c) (Proc.devRef .tc main_arg0) = _
  after_results_simp
  exact U12_arg0 m c

theorem U13_arg2 : U13 m c (Proc.devRef .tc main_arg2) = (rarg m c main_arg2) := by
  show after ops12 (U12 m c) (Proc.devRef .tc main_arg2) = _
  after_results_simp
  exact U12_arg2 m c

theorem U13_arg3 : U13 m c (Proc.devRef .tc main_arg3) = (rarg m c main_arg3) := by
  show after ops12 (U12 m c) (Proc.devRef .tc main_arg3) = _
  after_results_simp
  exact U12_arg3 m c

theorem U13_arg4 : U13 m c (Proc.devRef .tc main_arg4) = (rarg m c main_arg4) := by
  show after ops12 (U12 m c) (Proc.devRef .tc main_arg4) = _
  after_results_simp
  exact U12_arg4 m c

theorem U13_arg5 : U13 m c (Proc.devRef .tc main_arg5) = (rarg m c main_arg5) := by
  show after ops12 (U12 m c) (Proc.devRef .tc main_arg5) = _
  after_results_simp
  exact U12_arg5 m c

theorem U13_arg6 : U13 m c (Proc.devRef .tc main_arg6) = (rarg m c main_arg6) := by
  show after ops12 (U12 m c) (Proc.devRef .tc main_arg6) = _
  after_results_simp
  exact U12_arg6 m c

theorem U13_arg7 : U13 m c (Proc.devRef .tc main_arg7) = (rarg m c main_arg7) := by
  show after ops12 (U12 m c) (Proc.devRef .tc main_arg7) = _
  after_results_simp
  exact U12_arg7 m c

theorem U13_arg8 : U13 m c (Proc.devRef .tc main_arg8) = (rarg m c main_arg8) := by
  show after ops12 (U12 m c) (Proc.devRef .tc main_arg8) = _
  after_results_simp
  exact U12_arg8 m c

theorem U13_arg9 : U13 m c (Proc.devRef .tc main_arg9) = (rarg m c main_arg9) := by
  show after ops12 (U12 m c) (Proc.devRef .tc main_arg9) = _
  after_results_simp
  exact U12_arg9 m c

theorem U13_arg10 : U13 m c (Proc.devRef .tc main_arg10) = (rarg m c main_arg10) := by
  show after ops12 (U12 m c) (Proc.devRef .tc main_arg10) = _
  after_results_simp
  exact U12_arg10 m c

theorem U13_arg11 : U13 m c (Proc.devRef .tc main_arg11) = (rarg m c main_arg11) := by
  show after ops12 (U12 m c) (Proc.devRef .tc main_arg11) = _
  after_results_simp
  exact U12_arg11 m c

theorem U13_arg12 : U13 m c (Proc.devRef .tc main_arg12) = (rarg m c main_arg12) := by
  show after ops12 (U12 m c) (Proc.devRef .tc main_arg12) = _
  after_results_simp
  exact U12_arg12 m c

theorem U13_arg13 : U13 m c (Proc.devRef .tc main_arg13) = (rarg m c main_arg13) := by
  show after ops12 (U12 m c) (Proc.devRef .tc main_arg13) = _
  after_results_simp
  exact U12_arg13 m c

theorem U13_arg14 : U13 m c (Proc.devRef .tc main_arg14) = (rarg m c main_arg14) := by
  show after ops12 (U12 m c) (Proc.devRef .tc main_arg14) = _
  after_results_simp
  exact U12_arg14 m c

theorem U13_v142 : U13 m c (Proc.devRef .tc main_v142) = (ReadP.val_main_v142 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10) (rarg m c main_arg11) (rarg m c main_arg12) (rarg m c main_arg13) (rarg m c main_arg14)) := by
  show after ops12 (U12 m c) (Proc.devRef .tc main_v142) = _
  after_results_simp
  have e0 := U12_v133 m c
  generalize U12 m c (Proc.devRef .tc main_v133) = a0 at e0 ⊢
  have e1 := U12_arg11 m c
  generalize U12 m c (Proc.devRef .tc main_arg11) = a1 at e1 ⊢
  have e2 := U12_arg12 m c
  generalize U12 m c (Proc.devRef .tc main_arg12) = a2 at e2 ⊢
  have e3 := U12_arg13 m c
  generalize U12 m c (Proc.devRef .tc main_arg13) = a3 at e3 ⊢
  have e4 := U12_arg14 m c
  generalize U12 m c (Proc.devRef .tc main_arg14) = a4 at e4 ⊢
  subst e0 e1 e2 e3 e4
  rfl

/-! ## The run -/

theorem final_v142 : after ops (launchContents m c) (Proc.devRef .tc main_v142) = (ReadP.val_main_v142 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10) (rarg m c main_arg11) (rarg m c main_arg12) (rarg m c main_arg13) (rarg m c main_arg14)) := by
  simp only [ops, after_append]
  exact U13_v142 m c
theorem final_arg0 : after ops (launchContents m c) (Proc.devRef .tc main_arg0) = (rarg m c main_arg0) := by
  simp only [ops, after_append]
  exact U13_arg0 m c
theorem final_arg1 : after ops (launchContents m c) (Proc.devRef .tc main_arg1) = (rarg m c main_arg1) := by
  simp only [ops, after_append]
  exact U13_arg1 m c
theorem final_arg2 : after ops (launchContents m c) (Proc.devRef .tc main_arg2) = (rarg m c main_arg2) := by
  simp only [ops, after_append]
  exact U13_arg2 m c
theorem final_arg3 : after ops (launchContents m c) (Proc.devRef .tc main_arg3) = (rarg m c main_arg3) := by
  simp only [ops, after_append]
  exact U13_arg3 m c
theorem final_arg4 : after ops (launchContents m c) (Proc.devRef .tc main_arg4) = (rarg m c main_arg4) := by
  simp only [ops, after_append]
  exact U13_arg4 m c
theorem final_arg5 : after ops (launchContents m c) (Proc.devRef .tc main_arg5) = (rarg m c main_arg5) := by
  simp only [ops, after_append]
  exact U13_arg5 m c
theorem final_arg6 : after ops (launchContents m c) (Proc.devRef .tc main_arg6) = (rarg m c main_arg6) := by
  simp only [ops, after_append]
  exact U13_arg6 m c
theorem final_arg7 : after ops (launchContents m c) (Proc.devRef .tc main_arg7) = (rarg m c main_arg7) := by
  simp only [ops, after_append]
  exact U13_arg7 m c
theorem final_arg8 : after ops (launchContents m c) (Proc.devRef .tc main_arg8) = (rarg m c main_arg8) := by
  simp only [ops, after_append]
  exact U13_arg8 m c
theorem final_arg9 : after ops (launchContents m c) (Proc.devRef .tc main_arg9) = (rarg m c main_arg9) := by
  simp only [ops, after_append]
  exact U13_arg9 m c
theorem final_arg10 : after ops (launchContents m c) (Proc.devRef .tc main_arg10) = (rarg m c main_arg10) := by
  simp only [ops, after_append]
  exact U13_arg10 m c
theorem final_arg11 : after ops (launchContents m c) (Proc.devRef .tc main_arg11) = (rarg m c main_arg11) := by
  simp only [ops, after_append]
  exact U13_arg11 m c
theorem final_arg12 : after ops (launchContents m c) (Proc.devRef .tc main_arg12) = (rarg m c main_arg12) := by
  simp only [ops, after_append]
  exact U13_arg12 m c
theorem final_arg13 : after ops (launchContents m c) (Proc.devRef .tc main_arg13) = (rarg m c main_arg13) := by
  simp only [ops, after_append]
  exact U13_arg13 m c
theorem final_arg14 : after ops (launchContents m c) (Proc.devRef .tc main_arg14) = (rarg m c main_arg14) := by
  simp only [ops, after_append]
  exact U13_arg14 m c

/-- Every weakly fair execution of the reference terminates, with the result at the last stage function of the
    arguments and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v142) = (ReadP.val_main_v142 (F := Ideal) (rarg m c main_arg0) (rarg m c main_arg1) (rarg m c main_arg2) (rarg m c main_arg3) (rarg m c main_arg4) (rarg m c main_arg5) (rarg m c main_arg6) (rarg m c main_arg7) (rarg m c main_arg8) (rarg m c main_arg9) (rarg m c main_arg10) (rarg m c main_arg11) (rarg m c main_arg12) (rarg m c main_arg13) (rarg m c main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v142).trans (final_v142 m c),
      (h c main_arg0).trans (final_arg0 m c),
      (h c main_arg1).trans (final_arg1 m c),
      (h c main_arg2).trans (final_arg2 m c),
      (h c main_arg3).trans (final_arg3 m c),
      (h c main_arg4).trans (final_arg4 m c),
      (h c main_arg5).trans (final_arg5 m c),
      (h c main_arg6).trans (final_arg6 m c),
      (h c main_arg7).trans (final_arg7 m c),
      (h c main_arg8).trans (final_arg8 m c),
      (h c main_arg9).trans (final_arg9 m c),
      (h c main_arg10).trans (final_arg10 m c),
      (h c main_arg11).trans (final_arg11 m c),
      (h c main_arg12).trans (final_arg12 m c),
      (h c main_arg13).trans (final_arg13 m c),
      (h c main_arg14).trans (final_arg14 m c)⟩)
    (run_seq scopedRefs_eq scopedSems_eq defs main (fun _ => ops) main_eq (fun _ => ops_sub) m ρ (fun _ => ops_fresh))

end Cert.ReferenceIdeal.RunP

end
-- ==== Proof.lean ====
/-
  The kernel is a three-layer message-passing network on a graph of 50000 nodes and 400000 edges, followed by a two-layer
  head. Each layer computes an edge message `max (W·[x_src, x_dst, e] + b) 0`, sums the messages into their destination
  nodes, divides by `max deg 1`, and updates every node by `max (W·[x, agg] + b) 0`. The kernel's program does the two
  matrix products of each layer in Pallas regions, tiled over the edges (100 blocks of 4000) or the nodes (10 blocks of 5000):
  it multiplies the gathered pieces by the matching row bands of the stacked weight matrix and adds the products, where the
  reference concatenates the pieces and multiplies once; it multiplies the summed messages by `1 / max deg 1` where the
  reference divides; and it rounds to a narrower float format in between, which is the identity on the extended reals.

  On the extended reals the two programs are the same function of the arguments:
  * a sum over a concatenated axis is the sum of the sums over the pieces (addition is commutative and associative;
    no finiteness is needed), so the banded products add up to the one product (`Spec.dot_cat3`, `Spec.dot_cat2`);
  * `s * (1 / d) = s / d` for every extended real `s` when `d = max deg 1`, which is never zero (`Law.mul_recip_eq_div`);
  * each region's output array is the layer function of the arrays the region finds, because each grid point writes the
    layer function of its row blocks and the blocks tile the rows (`R0.final` … `R5.final`).
  The gathers, the scatter-adds and the index arithmetic are the same host operations on the same operands in both programs.
  The chain `KStages.W1_…` … `W12_v121` walks the kernel's twelve segments and names each buffer by the reference's own
  stage function of the arguments; the last one is the reference's result, which `RunP.run` evaluates the same way, chunk by
  chunk of the reference's 181 host operations. The precondition is never opened.
-/
import proofs.«100581_j48619029791202_2_alg».proof.Defs
import proofs.«100581_j48619029791202_2_alg».proof.Proof.Gen.Kernel
import proofs.«100581_j48619029791202_2_alg».proof.Proof.Gen.Kernel.Skeleton
import proofs.«100581_j48619029791202_2_alg».proof.Proof.Gen.Kernel.Launch
import proofs.«100581_j48619029791202_2_alg».proof.Proof.Gen.Kernel.Points
import proofs.«100581_j48619029791202_2_alg».proof.Proof.Gen.Kernel.Frame
import proofs.«100581_j48619029791202_2_alg».proof.Proof.Gen.KernelIdeal
import proofs.«100581_j48619029791202_2_alg».proof.Proof.Gen.KernelIdeal.Skeleton
import proofs.«100581_j48619029791202_2_alg».proof.Proof.Gen.KernelIdeal.Launch
import proofs.«100581_j48619029791202_2_alg».proof.Proof.Gen.KernelIdeal.Points
import proofs.«100581_j48619029791202_2_alg».proof.Proof.Gen.KernelIdeal.Frame
import proofs.«100581_j48619029791202_2_alg».proof.Proof.Gen.ReferenceIdeal
import proofs.«100581_j48619029791202_2_alg».proof.Proof.Gen.Pre_finite_inputs
import proofs.«100581_j48619029791202_2_alg».proof.Proof.KRun
import proofs.«100581_j48619029791202_2_alg».proof.Proof.Stage5
import proofs.«100581_j48619029791202_2_alg».proof.Proof.RefStage3
import Idealize.ShloMosaic.Adequacy
import Idealize.ShloMosaic.Init

set_option maxRecDepth 16384

noncomputable section

namespace Cert.Proof

open Idealize.ShloMosaic Idealize.SL.Sem

/-- The three frames: the two kernels' from their generated frame proofs, the reference's from its generated run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run m ρ)

/-- Both idealized programs end with the reference's value of the arguments in the result array. -/
theorem algebraic : Cert.algebraic_KernelIdeal_ReferenceIdeal := by
  intro m ρ m' ρ' _ hagree
  refine ⟨fun c => Cert.ReferenceIdeal.ReadP.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KStages.W12_v121 m ρ c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.RunP.run m' ρ')
    dsimp only [Cert.ReferenceIdeal.RunP.rarg]
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2.1,
      (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
